-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x320x64x64 : Shape := ⟨4, ![4, 320, 64, 64]⟩
abbrev S384x2944 : Shape := ⟨2, ![384, 2944]⟩
abbrev S2944x32 : Shape := ⟨2, ![2944, 32]⟩
abbrev S32x384 : Shape := ⟨2, ![32, 384]⟩
abbrev S384 : Shape := ⟨1, ![384]⟩
abbrev S_ : Shape := ⟨0, ![]⟩

class Facts : Prop where
  bcast_S_S4x320x64x64 : S_.BroadcastsInDim S4x320x64x64 (![] : Fin 0 → Fin S4x320x64x64.rank)
  reducesTo_S4x320x64x64_S_d0_1_2_3 : S4x320x64x64.ReducesTo [0, 1, 2, 3] S_
  h_S_ : 0 < S_.numel
  bcast_S_S384x2944 : S_.BroadcastsInDim S384x2944 (![] : Fin 0 → Fin S384x2944.rank)
  reducesTo_S384x2944_S_d0_1 : S384x2944.ReducesTo [0, 1] S_
  bcast_S_S2944x32 : S_.BroadcastsInDim S2944x32 (![] : Fin 0 → Fin S2944x32.rank)
  reducesTo_S2944x32_S_d0_1 : S2944x32.ReducesTo [0, 1] S_
  bcast_S_S32x384 : S_.BroadcastsInDim S32x384 (![] : Fin 0 → Fin S32x384.rank)
  reducesTo_S32x384_S_d0_1 : S32x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S32x384 1) : IVec S_ 1 :=
  let main_c_5 : IVec S_ 1 := constantI S_ 1 1#1
  let main_v17 : IVec S_ 1 := (fun x v => Host.reduce IntOp.andi x v reducesTo_S32x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S4x320x64x64 .f32) (main_arg1 : FVec F S384x2944 .f32) (main_arg2 : FVec F S2944x32 .f32) (main_arg3 : FVec F S32x384 .f32) (main_arg4 : FVec F S384 .f32) : IVec S_ 1 :=
  let main_v0 : FVec F S4x320x64x64 .f32 := Host.absf main_arg0
  let main_cst : FVec F S_ .f32 := constant S_ .f32 0x7F800000#32
  let main_v1 : FVec F S4x320x64x64 .f32 := broadcastInDim S4x320x64x64 ![] bcast_S_S4x320x64x64 main_cst
  let main_v2 : IVec S4x320x64x64 1 := cmpf .olt main_v0 main_v1
  let main_c : IVec S_ 1 := constantI S_ 1 1#1
  let main_v3 : IVec S_ 1 := (fun x v => Host.reduce IntOp.andi x v reducesTo_S4x320x64x64_S_d0_1_2_3 h_S_) main_v2 main_c
  let main_v4 : FVec F S384x2944 .f32 := Host.absf main_arg1
  let main_cst_0 : FVec F S_ .f32 := constant S_ .f32 0x7F800000#32
  let main_v5 : FVec F S384x2944 .f32 := broadcastInDim S384x2944 ![] bcast_S_S384x2944 main_cst_0
  let main_v6 : IVec S384x2944 1 := cmpf .olt main_v4 main_v5
  let main_c_1 : IVec S_ 1 := constantI S_ 1 1#1
  let main_v7 : IVec S_ 1 := (fun x v => Host.reduce IntOp.andi x v reducesTo_S384x2944_S_d0_1 h_S_) main_v6 main_c_1
  let main_v8 : IVec S_ 1 := andi main_v3 main_v7
  let main_v9 : FVec F S2944x32 .f32 := Host.absf main_arg2
  let main_cst_2 : FVec F S_ .f32 := constant S_ .f32 0x7F800000#32
  let main_v10 : FVec F S2944x32 .f32 := broadcastInDim S2944x32 ![] bcast_S_S2944x32 main_cst_2
  let main_v11 : IVec S2944x32 1 := cmpf .olt main_v9 main_v10
  let main_c_3 : IVec S_ 1 := constantI S_ 1 1#1
  let main_v12 : IVec S_ 1 := (fun x v => Host.reduce IntOp.andi x v reducesTo_S2944x32_S_d0_1 h_S_) main_v11 main_c_3
  let main_v13 : IVec S_ 1 := andi main_v8 main_v12
  let main_v14 : FVec F S32x384 .f32 := Host.absf main_arg3
  let main_cst_4 : FVec F S_ .f32 := constant S_ .f32 0x7F800000#32
  let main_v15 : FVec F S32x384 .f32 := broadcastInDim S32x384 ![] bcast_S_S32x384 main_cst_4
  let main_v16 : IVec S32x384 1 := cmpf .olt main_v14 main_v15
  fn_part1 (F := F) main_arg4 main_v13 main_v16
-- ==== Kernel.lean ====
abbrev S4x320x64x64 : Shape := ⟨4, ![4, 320, 64, 64]⟩
abbrev S384x2944 : Shape := ⟨2, ![384, 2944]⟩
abbrev S2944x32 : Shape := ⟨2, ![2944, 32]⟩
abbrev S32x384 : Shape := ⟨2, ![32, 384]⟩
abbrev S384 : Shape := ⟨1, ![384]⟩
abbrev S_ : Shape := ⟨0, ![]⟩
abbrev S384x1 : Shape := ⟨2, ![384, 1]⟩
abbrev S384x2880 : Shape := ⟨2, ![384, 2880]⟩
abbrev S384x320x9 : Shape := ⟨3, ![384, 320, 9]⟩
abbrev S9x320x384 : Shape := ⟨3, ![9, 320, 384]⟩
abbrev S2880x384 : Shape := ⟨2, ![2880, 384]⟩
abbrev S2880x32 : Shape := ⟨2, ![2880, 32]⟩
abbrev S320x9x32 : Shape := ⟨3, ![320, 9, 32]⟩
abbrev S9x320x32 : Shape := ⟨3, ![9, 320, 32]⟩
abbrev S1x384 : Shape := ⟨2, ![1, 384]⟩
abbrev S4x64x64x320 : Shape := ⟨4, ![4, 64, 64, 320]⟩
abbrev S4x66x66x320 : Shape := ⟨4, ![4, 66, 66, 320]⟩
abbrev S4x4096x384 : Shape := ⟨3, ![4, 4096, 384]⟩
abbrev S1x66x66x320 : Shape := ⟨4, ![1, 66, 66, 320]⟩
abbrev S1x256x384 : Shape := ⟨3, ![1, 256, 384]⟩
abbrev S256x2880 : Shape := ⟨2, ![256, 2880]⟩
abbrev S1x6x66x320 : Shape := ⟨4, ![1, 6, 66, 320]⟩
abbrev S6x66x320 : Shape := ⟨3, ![6, 66, 320]⟩
abbrev S4x64x320 : Shape := ⟨3, ![4, 64, 320]⟩
abbrev S256x320 : Shape := ⟨2, ![256, 320]⟩
abbrev S256 : Shape := ⟨1, ![256]⟩
abbrev S256x1 : Shape := ⟨2, ![256, 1]⟩
abbrev S256x384 : Shape := ⟨2, ![256, 384]⟩
abbrev S256x32 : Shape := ⟨2, ![256, 32]⟩

abbrev nBuf : Space → Nat
  | .hbm => 44
  | .vmem => 10
  | .smem => 0
  | _ => 0

abbrev bufTy : (tb : Table) → Fin (tcTables nBuf tb) → BufTy
  | .hbm, ⟨0, _⟩ => ⟨S4x320x64x64, .f32⟩
  | .hbm, ⟨1, _⟩ => ⟨S384x2944, .f32⟩
  | .hbm, ⟨2, _⟩ => ⟨S2944x32, .f32⟩
  | .hbm, ⟨3, _⟩ => ⟨S32x384, .f32⟩
  | .hbm, ⟨4, _⟩ => ⟨S384, .f32⟩
  | .hbm, ⟨5, _⟩ => ⟨S384x2944, .f32⟩
  | .hbm, ⟨6, _⟩ => ⟨S_, .f32⟩
  | .hbm, ⟨7, _⟩ => ⟨S384, .f32⟩
  | .hbm, ⟨8, _⟩ => ⟨S384x1, .f32⟩
  | .hbm, ⟨9, _⟩ => ⟨S_, .f32⟩
  | .hbm, ⟨10, _⟩ => ⟨S384x1, .f32⟩
  | .hbm, ⟨11, _⟩ => ⟨S384x1, .f32⟩
  | .hbm, ⟨12, _⟩ => ⟨S_, .f32⟩
  | .hbm, ⟨13, _⟩ => ⟨S384x1, .f32⟩
  | .hbm, ⟨14, _⟩ => ⟨S384x1, .f32⟩
  | .hbm, ⟨15, _⟩ => ⟨S384x2944, .f32⟩
  | .hbm, ⟨16, _⟩ => ⟨S384x2944, .f32⟩
  | .hbm, ⟨17, _⟩ => ⟨S384x2944, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S384x2944, .f32⟩
  | .hbm, ⟨22, _⟩ => ⟨S384x2944, .f32⟩
  | .hbm, ⟨23, _⟩ => ⟨S_, .f32⟩
  | .hbm, ⟨24, _⟩ => ⟨S384x2944, .f32⟩
  | .hbm, ⟨25, _⟩ => ⟨S384x2944, .f32⟩
  | .hbm, ⟨26, _⟩ => ⟨S384x2880, .f32⟩
  | .hbm, ⟨27, _⟩ => ⟨S384x320x9, .f32⟩
  | .hbm, ⟨28, _⟩ => ⟨S9x320x384, .f32⟩
  | .hbm, ⟨29, _⟩ => ⟨S2880x384, .f32⟩
  | .hbm, ⟨30, _⟩ => ⟨S2880x32, .f32⟩
  | .hbm, ⟨31, _⟩ => ⟨S320x9x32, .f32⟩
  | .hbm, ⟨32, _⟩ => ⟨S9x320x32, .f32⟩
  | .hbm, ⟨33, _⟩ => ⟨S2880x32, .f32⟩
  | .hbm, ⟨34, _⟩ => ⟨S1x384, .f32⟩
  | .hbm, ⟨35, _⟩ => ⟨S2880x384, .bf16⟩
  | .hbm, ⟨36, _⟩ => ⟨S2880x32, .bf16⟩
  | .hbm, ⟨37, _⟩ => ⟨S32x384, .bf16⟩
  | .hbm, ⟨38, _⟩ => ⟨S1x384, .f32⟩
  | .hbm, ⟨39, _⟩ => ⟨S4x64x64x320, .f32⟩
  | .hbm, ⟨40, _⟩ => ⟨S_, .i32⟩
  | .hbm, ⟨41, _⟩ => ⟨S_, .f32⟩
  | .hbm, ⟨42, _⟩ => ⟨S4x66x66x320, .f32⟩
  | .hbm, ⟨43, _⟩ => ⟨S4x4096x384, .f32⟩
  | .local _ .vmem, ⟨0, _⟩ => ⟨S1x66x66x320, .f32⟩
  | .local _ .vmem, ⟨1, _⟩ => ⟨S1x66x66x320, .f32⟩
  | .local _ .vmem, ⟨2, _⟩ => ⟨S2880x384, .bf16⟩
  | .local _ .vmem, ⟨3, _⟩ => ⟨S2880x32, .bf16⟩
  | .local _ .vmem, ⟨4, _⟩ => ⟨S32x384, .bf16⟩
  | .local _ .vmem, ⟨5, _⟩ => ⟨S1x384, .f32⟩
  | .local _ .vmem, ⟨6, _⟩ => ⟨S1x384, .f32⟩
  | .local _ .vmem, ⟨7, _⟩ => ⟨S1x256x384, .f32⟩
  | .local _ .vmem, ⟨8, _⟩ => ⟨S1x256x384, .f32⟩
  | .local _ .vmem, ⟨9, _⟩ => ⟨S256x2880, .f32⟩
  | _, _ => ⟨S4x320x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c : Ref sig .tc := ⟨.hbm, 40, rfl⟩
abbrev main_call2_v0 : Ref sig .tc := ⟨.hbm, 41, rfl⟩
abbrev main_v25 : Ref sig .tc := ⟨.hbm, 42, rfl⟩
abbrev main_v26 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c4_i32 : BitVec 32 := 4#32
  let v0 : BitVec 32 := Scalar.muli arg1 c4_i32
  v0
def k0_off1 (i : grid0.Coords) : Fin 4 → Nat :=
  let c0 : Index := 0#32
  let arg1 : BitVec 32 := BitVec.ofNat 32 (i 1).val
  let c4_i32 : BitVec 32 := 4#32
  let v0 : BitVec 32 := Scalar.muli arg1 c4_i32
  let v1 : BitVec 32 := v0
  let v2 : Index := Scalar.indexCast v1
  let c0_0 : Index := 0#32
  let c0_1 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x66x66x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2880x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2880x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  reducesTo_S384x2944_S384_d1 : S384x2944.ReducesTo [1] S384
  h_S_ : 0 < S_.numel
  bcast_S384_S384x1_0 : S384.BroadcastsInDim S384x1 (![0] : Fin 1 → Fin S384x1.rank)
  bcast_S_S384x1 : S_.BroadcastsInDim S384x1 (![] : Fin 0 → Fin S384x1.rank)
  bcast_S384x1_S384x2944_0_1 : S384x1.BroadcastsInDim S384x2944 (![0, 1] : Fin 2 → Fin S384x2944.rank)
  bcast_S_S384x2944 : S_.BroadcastsInDim S384x2944 (![] : Fin 0 → Fin S384x2944.rank)
  slices_S384x2944_S384x2880_0_0 : S384x2944.Slices ![0, 0] S384x2880
  shapeCasts_S384x2880_S384x320x9 : S384x2880.ShapeCasts S384x320x9
  transposes_S384x320x9_S9x320x384_2_1_0 : S384x320x9.Transposes [2, 1, 0] S9x320x384
  shapeCasts_S9x320x384_S2880x384 : S9x320x384.ShapeCasts S2880x384
  slices_S2944x32_S2880x32_0_0 : S2944x32.Slices ![0, 0] S2880x32
  shapeCasts_S2880x32_S320x9x32 : S2880x32.ShapeCasts S320x9x32
  transposes_S320x9x32_S9x320x32_1_0_2 : S320x9x32.Transposes [1, 0, 2] S9x320x32
  shapeCasts_S9x320x32_S2880x32 : S9x320x32.ShapeCasts S2880x32
  shapeCasts_S384x1_S1x384 : S384x1.ShapeCasts S1x384
  bitsLt_bf16_f32 : FTy.bits .bf16 < FTy.bits .f32
  shapeCasts_S384_S1x384 : S384.ShapeCasts S1x384
  transposes_S4x320x64x64_S4x64x64x320_0_2_3_1 : S4x320x64x64.Transposes [0, 2, 3, 1] S4x64x64x320
  pads_S4x64x64x320_S4x66x66x320_000_110_110_000 : S4x64x64x320.Pads (![0, 1, 1, 0] : Fin 4 → Nat) ![0, 1, 1, 0] ![0, 0, 0, 0] S4x66x66x320
  h_S1x6x66x320 : 0 < S1x6x66x320.numel
  shapeCasts_S1x6x66x320_S6x66x320 : S1x6x66x320.ShapeCasts S6x66x320
  slices_S6x66x320_o0_0_0_S4x64x320 : S6x66x320.Slices ![0, 0, 0] S4x64x320
  shapeCasts_S4x64x320_S256x320 : S4x64x320.ShapeCasts S256x320
  inb_S256x2880_S256x320_0_0 : ∀ a, (![0, 0] : Fin 2 → Nat) a + S256x320.size a ≤ S256x2880.size a
  h_S256x320 : 0 < S256x320.numel
  shapeCasts_S256x320_S256x320 : S256x320.ShapeCasts S256x320
  slices_S6x66x320_o0_1_0_S4x64x320 : S6x66x320.Slices ![0, 1, 0] S4x64x320
  inb_S256x2880_S256x320_0_320 : ∀ a, (![0, 320] : Fin 2 → Nat) a + S256x320.size a ≤ S256x2880.size a
  slices_S6x66x320_o0_2_0_S4x64x320 : S6x66x320.Slices ![0, 2, 0] S4x64x320
  inb_S256x2880_S256x320_0_640 : ∀ a, (![0, 640] : Fin 2 → Nat) a + S256x320.size a ≤ S256x2880.size a
  slices_S6x66x320_o1_0_0_S4x64x320 : S6x66x320.Slices ![1, 0, 0] S4x64x320
  inb_S256x2880_S256x320_0_960 : ∀ a, (![0, 960] : Fin 2 → Nat) a + S256x320.size a ≤ S256x2880.size a
  slices_S6x66x320_o1_1_0_S4x64x320 : S6x66x320.Slices ![1, 1, 0] S4x64x320
  inb_S256x2880_S256x320_0_1280 : ∀ a, (![0, 1280] : Fin 2 → Nat) a + S256x320.size a ≤ S256x2880.size a
  slices_S6x66x320_o1_2_0_S4x64x320 : S6x66x320.Slices ![1, 2, 0] S4x64x320
  inb_S256x2880_S256x320_0_1600 : ∀ a, (![0, 1600] : Fin 2 → Nat) a + S256x320.size a ≤ S256x2880.size a
  slices_S6x66x320_o2_0_0_S4x64x320 : S6x66x320.Slices ![2, 0, 0] S4x64x320
  inb_S256x2880_S256x320_0_1920 : ∀ a, (![0, 1920] : Fin 2 → Nat) a + S256x320.size a ≤ S256x2880.size a
  slices_S6x66x320_o2_1_0_S4x64x320 : S6x66x320.Slices ![2, 1, 0] S4x64x320
  inb_S256x2880_S256x320_0_2240 : ∀ a, (![0, 2240] : Fin 2 → Nat) a + S256x320.size a ≤ S256x2880.size a
  slices_S6x66x320_o2_2_0_S4x64x320 : S6x66x320.Slices ![2, 2, 0] S4x64x320
  inb_S256x2880_S256x320_0_2560 : ∀ a, (![0, 2560] : Fin 2 → Nat) a + S256x320.size a ≤ S256x2880.size a
  inb_S256x2880_S256x2880_0_0 : ∀ a, (![0, 0] : Fin 2 → Nat) a + S256x2880.size a ≤ S256x2880.size a
  h_S256x2880 : 0 < S256x2880.numel
  reduces_S256x2880_S256 : S256x2880.Reduces [1] S256
  shapeCasts_S256_S256x1 : S256.ShapeCasts S256x1
  broadcasts_S256x1_S256x2880 : S256x1.Broadcasts S256x2880
  inb_S2880x384_S2880x384_0_0 : ∀ a, (![0, 0] : Fin 2 → Nat) a + S2880x384.size a ≤ S2880x384.size a
  h_S2880x384 : 0 < S2880x384.numel
  shapeCasts_S2880x384_S2880x384 : S2880x384.ShapeCasts S2880x384
  inb_S2880x32_S2880x32_0_0 : ∀ a, (![0, 0] : Fin 2 → Nat) a + S2880x32.size a ≤ S2880x32.size a
  h_S2880x32 : 0 < S2880x32.numel
  shapeCasts_S2880x32_S2880x32 : S2880x32.ShapeCasts S2880x32
  inb_S32x384_S32x384_0_0 : ∀ a, (![0, 0] : Fin 2 → Nat) a + S32x384.size a ≤ S32x384.size a
  h_S32x384 : 0 < S32x384.numel
  shapeCasts_S32x384_S32x384 : S32x384.ShapeCasts S32x384
  broadcasts_S256x1_S256x384 : S256x1.Broadcasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S256x384 : S1x384.Broadcasts S256x384
  inb_S1x256x384_S1x256x384_0_0_0 : ∀ a, (![0, 0, 0] : Fin 3 → Nat) a + S1x256x384.size a ≤ S1x256x384.size a
  h_S1x256x384 : 0 < S1x256x384.numel
  shapeCasts_S1x256x384_S256x384 : S1x256x384.ShapeCasts S256x384
  shapeCasts_S256x384_S1x256x384 : S256x384.ShapeCasts S1x256x384
  dot_S256x2880_S2880x384_S256x384_1_0_0_1_n_n_wf : DotDims.WF S256x2880 S2880x384 S256x384 [1] [0] [0] [1] [] []
  dot_S256x2880_S2880x32_S256x32_1_0_0_1_n_n_wf : DotDims.WF S256x2880 S2880x32 S256x32 [1] [0] [0] [1] [] []
  dot_S256x32_S32x384_S256x384_1_0_0_1_n_n_wf : DotDims.WF S256x32 S32x384 S256x384 [1] [0] [0] [1] [] []
  hrank0 : 0 < grid0.rank
  k0_mult1_dvd : ∀ i : grid0.Coords, 4 ∣ (k0_mult1 i).toNat
  k0_off1_inb : ∀ i : grid0.Coords, ∀ a, (k0_off1 i) a + S1x6x66x320.size a ≤ S1x66x66x320.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x66x66x320.size a ≤ S4x66x66x320.size a
  hwx0_0 : ∀ i : grid0.Coords, EltTy.bits .f32 = 32 ∨ (Rect.block (s := S4x66x66x320) S1x66x66x320.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2880x384.size a ≤ S2880x384.size a
  hwx0_1 : ∀ i : grid0.Coords, EltTy.bits .bf16 = 32 ∨ (Rect.block (s := S2880x384) S2880x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2880x32.size a ≤ S2880x32.size a
  hwx0_2 : ∀ i : grid0.Coords, EltTy.bits .bf16 = 32 ∨ (Rect.block (s := S2880x32) S2880x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x384.size a ≤ S32x384.size a
  hwx0_3 : ∀ i : grid0.Coords, EltTy.bits .bf16 = 32 ∨ (Rect.block (s := S32x384) S32x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x384.size a ≤ S1x384.size a
  hwx0_5 : ∀ i : grid0.Coords, EltTy.bits .f32 = 32 ∨ (Rect.block (s := S1x384) S1x384.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x384.size a ≤ S4x4096x384.size a
  hwx0_6 : ∀ i : grid0.Coords, EltTy.bits .f32 = 32 ∨ (Rect.block (s := S4x4096x384) S1x256x384.size (cc0_transform_6 i) (hinb0_6 i)).WholeWords (EltTy.packing .f32)

variable [Facts₀]

def dot_S256x2880_S2880x384_S256x384_1_0_0_1_n_n : DotDims S256x2880 S2880x384 S256x384 where
  lhsContracting := [1]
  rhsContracting := [0]
  lhsNonContracting := [0]
  rhsNonContracting := [1]
  lhsBatch := []
  rhsBatch := []
  wf := dot_S256x2880_S2880x384_S256x384_1_0_0_1_n_n_wf
def dot_S256x2880_S2880x32_S256x32_1_0_0_1_n_n : DotDims S256x2880 S2880x32 S256x32 where
  lhsContracting := [1]
  rhsContracting := [0]
  lhsNonContracting := [0]
  rhsNonContracting := [1]
  lhsBatch := []
  rhsBatch := []
  wf := dot_S256x2880_S2880x32_S256x32_1_0_0_1_n_n_wf
def dot_S256x32_S32x384_S256x384_1_0_0_1_n_n : DotDims S256x32 S32x384 S256x384 where
  lhsContracting := [1]
  rhsContracting := [0]
  lhsNonContracting := [0]
  rhsNonContracting := [1]
  lhsBatch := []
  rhsBatch := []
  wf := dot_S256x32_S32x384_S256x384_1_0_0_1_n_n_wf

abbrev win0_0 : Pipeline.Window sig grid0 :=
  Pipeline.Window.ofSpec (Memref.whole main_v25) S1x66x66x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2880x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2880x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S32x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x256x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x320x64x64 : Shape := ⟨4, ![4, 320, 64, 64]⟩
abbrev S384x2944 : Shape := ⟨2, ![384, 2944]⟩
abbrev S2944x32 : Shape := ⟨2, ![2944, 32]⟩
abbrev S32x384 : Shape := ⟨2, ![32, 384]⟩
abbrev S384 : Shape := ⟨1, ![384]⟩
abbrev S_ : Shape := ⟨0, ![]⟩
abbrev S4x320x66x66 : Shape := ⟨4, ![4, 320, 66, 66]⟩
abbrev S4x320x1x64x64 : Shape := ⟨5, ![4, 320, 1, 64, 64]⟩
abbrev S4x320x9x64x64 : Shape := ⟨5, ![4, 320, 9, 64, 64]⟩
abbrev S4x2880x4096 : Shape := ⟨3, ![4, 2880, 4096]⟩
abbrev S4x4096x2880 : Shape := ⟨3, ![4, 4096, 2880]⟩
abbrev S4x4096x2944 : Shape := ⟨3, ![4, 4096, 2944]⟩
abbrev S4x4096x32 : Shape := ⟨3, ![4, 4096, 32]⟩
abbrev S4x4096x384 : Shape := ⟨3, ![4, 4096, 384]⟩
abbrev S4x4096 : Shape := ⟨2, ![4, 4096]⟩
abbrev S4x4096x1 : Shape := ⟨3, ![4, 4096, 1]⟩
abbrev S384x1 : Shape := ⟨2, ![384, 1]⟩
abbrev S1x1x384 : Shape := ⟨3, ![1, 1, 384]⟩

abbrev nBuf : Space → Nat
  | .hbm => 87
  | .vmem => 0
  | .smem => 0
  | _ => 0

abbrev bufTy : (tb : Table) → Fin (tcTables nBuf tb) → BufTy
  | .hbm, ⟨0, _⟩ => ⟨S4x320x64x64, .f32⟩
  | .hbm, ⟨1, _⟩ => ⟨S384x2944, .f32⟩
  | .hbm, ⟨2, _⟩ => ⟨S2944x32, .f32⟩
  | .hbm, ⟨3, _⟩ => ⟨S32x384, .f32⟩
  | .hbm, ⟨4, _⟩ => ⟨S384, .f32⟩
  | .hbm, ⟨5, _⟩ => ⟨S_, .i32⟩
  | .hbm, ⟨6, _⟩ => ⟨S_, .f32⟩
  | .hbm, ⟨7, _⟩ => ⟨S4x320x66x66, .f32⟩
  | .hbm, ⟨8, _⟩ => ⟨S4x320x64x64, .f32⟩
  | .hbm, ⟨9, _⟩ => ⟨S4x320x64x64, .f32⟩
  | .hbm, ⟨10, _⟩ => ⟨S4x320x64x64, .f32⟩
  | .hbm, ⟨11, _⟩ => ⟨S4x320x64x64, .f32⟩
  | .hbm, ⟨12, _⟩ => ⟨S4x320x64x64, .f32⟩
  | .hbm, ⟨13, _⟩ => ⟨S4x320x64x64, .f32⟩
  | .hbm, ⟨14, _⟩ => ⟨S4x320x64x64, .f32⟩
  | .hbm, ⟨15, _⟩ => ⟨S4x320x64x64, .f32⟩
  | .hbm, ⟨16, _⟩ => ⟨S4x320x64x64, .f32⟩
  | .hbm, ⟨17, _⟩ => ⟨S4x320x1x64x64, .f32⟩
  | .hbm, ⟨18, _⟩ => ⟨S4x320x1x64x64, .f32⟩
  | .hbm, ⟨19, _⟩ => ⟨S4x320x1x64x64, .f32⟩
  | .hbm, ⟨20, _⟩ => ⟨S4x320x1x64x64, .f32⟩
  | .hbm, ⟨21, _⟩ => ⟨S4x320x1x64x64, .f32⟩
  | .hbm, ⟨22, _⟩ => ⟨S4x320x1x64x64, .f32⟩
  | .hbm, ⟨23, _⟩ => ⟨S4x320x1x64x64, .f32⟩
  | .hbm, ⟨24, _⟩ => ⟨S4x320x1x64x64, .f32⟩
  | .hbm, ⟨25, _⟩ => ⟨S4x320x1x64x64, .f32⟩
  | .hbm, ⟨26, _⟩ => ⟨S4x320x9x64x64, .f32⟩
  | .hbm, ⟨27, _⟩ => ⟨S4x2880x4096, .f32⟩
  | .hbm, ⟨28, _⟩ => ⟨S4x4096x2880, .f32⟩
  | .hbm, ⟨29, _⟩ => ⟨S_, .i32⟩
  | .hbm, ⟨30, _⟩ => ⟨S_, .f32⟩
  | .hbm, ⟨31, _⟩ => ⟨S4x4096x2944, .f32⟩
  | .hbm, ⟨32, _⟩ => ⟨S4x4096x32, .f32⟩
  | .hbm, ⟨33, _⟩ => ⟨S4x4096x384, .f32⟩
  | .hbm, ⟨34, _⟩ => ⟨S4x4096x2944, .f32⟩
  | .hbm, ⟨35, _⟩ => ⟨S_, .f32⟩
  | .hbm, ⟨36, _⟩ => ⟨S4x4096, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x2944, .f32⟩
  | .hbm, ⟨45, _⟩ => ⟨S4x4096x2944, .f32⟩
  | .hbm, ⟨46, _⟩ => ⟨S4x4096x2944, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4x4096x2944, .f32⟩
  | .hbm, ⟨51, _⟩ => ⟨S4x4096x2944, .f32⟩
  | .hbm, ⟨52, _⟩ => ⟨S_, .f32⟩
  | .hbm, ⟨53, _⟩ => ⟨S4x4096x2944, .f32⟩
  | .hbm, ⟨54, _⟩ => ⟨S4x4096x2944, .f32⟩
  | .hbm, ⟨55, _⟩ => ⟨S384x2944, .f32⟩
  | .hbm, ⟨56, _⟩ => ⟨S_, .f32⟩
  | .hbm, ⟨57, _⟩ => ⟨S384, .f32⟩
  | .hbm, ⟨58, _⟩ => ⟨S384x1, .f32⟩
  | .hbm, ⟨59, _⟩ => ⟨S_, .f32⟩
  | .hbm, ⟨60, _⟩ => ⟨S384x1, .f32⟩
  | .hbm, ⟨61, _⟩ => ⟨S384x1, .f32⟩
  | .hbm, ⟨62, _⟩ => ⟨S_, .f32⟩
  | .hbm, ⟨63, _⟩ => ⟨S384x1, .f32⟩
  | .hbm, ⟨64, _⟩ => ⟨S384x1, .f32⟩
  | .hbm, ⟨65, _⟩ => ⟨S384x2944, .f32⟩
  | .hbm, ⟨66, _⟩ => ⟨S384x2944, .f32⟩
  | .hbm, ⟨67, _⟩ => ⟨S384x2944, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S384x2944, .f32⟩
  | .hbm, ⟨72, _⟩ => ⟨S384x2944, .f32⟩
  | .hbm, ⟨73, _⟩ => ⟨S_, .f32⟩
  | .hbm, ⟨74, _⟩ => ⟨S384x2944, .f32⟩
  | .hbm, ⟨75, _⟩ => ⟨S384x2944, .f32⟩
  | .hbm, ⟨76, _⟩ => ⟨S4x4096x384, .f32⟩
  | .hbm, ⟨77, _⟩ => ⟨S4x4096x384, .f32⟩
  | .hbm, ⟨78, _⟩ => ⟨S4x4096x384, .f32⟩
  | .hbm, ⟨79, _⟩ => ⟨S384, .f32⟩
  | .hbm, ⟨80, _⟩ => ⟨S1x1x384, .f32⟩
  | .hbm, ⟨81, _⟩ => ⟨S4x4096x384, .f32⟩
  | .hbm, ⟨82, _⟩ => ⟨S4x4096x384, .f32⟩
  | .hbm, ⟨83, _⟩ => ⟨S4x4096x384, .f32⟩
  | .hbm, ⟨84, _⟩ => ⟨S1x1x384, .f32⟩
  | .hbm, ⟨85, _⟩ => ⟨S4x4096x384, .f32⟩
  | .hbm, ⟨86, _⟩ => ⟨S4x4096x384, .f32⟩
  | _, _ => ⟨S4x320x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_0 : Ref sig .tc := ⟨.hbm, 29, rfl⟩
abbrev main_call1_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_cst_4 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_cst_9 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩

abbrev nD : Nat := 1
abbrev τ : Topo := Topo.v7x

variable {F : FTy → Type} [FloatOps F]

class Facts₀ : Prop where
  pads_S4x320x64x64_S4x320x66x66_000_000_110_110 : S4x320x64x64.Pads (![0, 0, 1, 1] : Fin 4 → Nat) ![0, 0, 1, 1] ![0, 0, 0, 0] S4x320x66x66
  h_S_ : 0 < S_.numel
  slices_S4x320x66x66_S4x320x64x64_0_0_0_0 : S4x320x66x66.Slices ![0, 0, 0, 0] S4x320x64x64
  slices_S4x320x66x66_S4x320x64x64_0_0_0_1 : S4x320x66x66.Slices ![0, 0, 0, 1] S4x320x64x64
  slices_S4x320x66x66_S4x320x64x64_0_0_0_2 : S4x320x66x66.Slices ![0, 0, 0, 2] S4x320x64x64
  slices_S4x320x66x66_S4x320x64x64_0_0_1_0 : S4x320x66x66.Slices ![0, 0, 1, 0] S4x320x64x64
  slices_S4x320x66x66_S4x320x64x64_0_0_1_1 : S4x320x66x66.Slices ![0, 0, 1, 1] S4x320x64x64
  slices_S4x320x66x66_S4x320x64x64_0_0_1_2 : S4x320x66x66.Slices ![0, 0, 1, 2] S4x320x64x64
  slices_S4x320x66x66_S4x320x64x64_0_0_2_0 : S4x320x66x66.Slices ![0, 0, 2, 0] S4x320x64x64
  slices_S4x320x66x66_S4x320x64x64_0_0_2_1 : S4x320x66x66.Slices ![0, 0, 2, 1] S4x320x64x64
  slices_S4x320x66x66_S4x320x64x64_0_0_2_2 : S4x320x66x66.Slices ![0, 0, 2, 2] S4x320x64x64
  bcast_S4x320x64x64_S4x320x1x64x64_0_1_3_4 : S4x320x64x64.BroadcastsInDim S4x320x1x64x64 (![0, 1, 3, 4] : Fin 4 → Fin S4x320x1x64x64.rank)
  concatenates_S4x320x1x64x64_S4x320x1x64x64_S4x320x1x64x64_S4x320x1x64x64_S4x320x1x64x64_S4x320x1x64x64_S4x320x1x64x64_S4x320x1x64x64_S4x320x1x64x64_S4x320x9x64x64_d2 : Shape.Concatenates [S4x320x1x64x64, S4x320x1x64x64, S4x320x1x64x64, S4x320x1x64x64, S4x320x1x64x64, S4x320x1x64x64, S4x320x1x64x64, S4x320x1x64x64, S4x320x1x64x64] S4x320x9x64x64 2
  shapeCasts_S4x320x9x64x64_S4x2880x4096 : S4x320x9x64x64.ShapeCasts S4x2880x4096
  transposes_S4x2880x4096_S4x4096x2880_0_2_1 : S4x2880x4096.Transposes [0, 2, 1] S4x4096x2880
  pads_S4x4096x2880_S4x4096x2944_000_000_0640 : S4x4096x2880.Pads (![0, 0, 0] : Fin 3 → Nat) ![0, 0, 64] ![0, 0, 0] S4x4096x2944
  reducesTo_S4x4096x2944_S4x4096_d2 : S4x4096x2944.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2944_0_1_2 : S4x4096x1.BroadcastsInDim S4x4096x2944 (![0, 1, 2] : Fin 3 → Fin S4x4096x2944.rank)
  bcast_S_S4x4096x2944 : S_.BroadcastsInDim S4x4096x2944 (![] : Fin 0 → Fin S4x4096x2944.rank)
  reducesTo_S384x2944_S384_d1 : S384x2944.ReducesTo [1] S384
  bcast_S384_S384x1_0 : S384.BroadcastsInDim S384x1 (![0] : Fin 1 → Fin S384x1.rank)
  bcast_S_S384x1 : S_.BroadcastsInDim S384x1 (![] : Fin 0 → Fin S384x1.rank)
  bcast_S384x1_S384x2944_0_1 : S384x1.BroadcastsInDim S384x2944 (![0, 1] : Fin 2 → Fin S384x2944.rank)
  bcast_S_S384x2944 : S_.BroadcastsInDim S384x2944 (![] : Fin 0 → Fin S384x2944.rank)
  bcast_S4x4096x1_S4x4096x384_0_1_2 : S4x4096x1.BroadcastsInDim S4x4096x384 (![0, 1, 2] : Fin 3 → Fin S4x4096x384.rank)
  shapeCasts_S384x1_S384 : S384x1.ShapeCasts S384
  bcast_S384_S1x1x384_2 : S384.BroadcastsInDim S1x1x384 (![2] : Fin 1 → Fin S1x1x384.rank)
  bcast_S1x1x384_S4x4096x384_0_1_2 : S1x1x384.BroadcastsInDim S4x4096x384 (![0, 1, 2] : Fin 3 → Fin S4x4096x384.rank)
  dot_S4x4096x2944_S2944x32_S4x4096x32_2_0_01_1_n_n_wf : DotDims.WF S4x4096x2944 S2944x32 S4x4096x32 [2] [0] [0, 1] [1] [] []
  dot_S4x4096x32_S32x384_S4x4096x384_2_0_01_1_n_n_wf : DotDims.WF S4x4096x32 S32x384 S4x4096x384 [2] [0] [0, 1] [1] [] []
  dot_S4x4096x2944_S384x2944_S4x4096x384_2_1_01_0_n_n_wf : DotDims.WF S4x4096x2944 S384x2944 S4x4096x384 [2] [1] [0, 1] [0] [] []

variable [Facts₀]

def dot_S4x4096x2944_S2944x32_S4x4096x32_2_0_01_1_n_n : DotDims S4x4096x2944 S2944x32 S4x4096x32 where
  lhsContracting := [2]
  rhsContracting := [0]
  lhsNonContracting := [0, 1]
  rhsNonContracting := [1]
  lhsBatch := []
  rhsBatch := []
  wf := dot_S4x4096x2944_S2944x32_S4x4096x32_2_0_01_1_n_n_wf
def dot_S4x4096x32_S32x384_S4x4096x384_2_0_01_1_n_n : DotDims S4x4096x32 S32x384 S4x4096x384 where
  lhsContracting := [2]
  rhsContracting := [0]
  lhsNonContracting := [0, 1]
  rhsNonContracting := [1]
  lhsBatch := []
  rhsBatch := []
  wf := dot_S4x4096x32_S32x384_S4x4096x384_2_0_01_1_n_n_wf
def dot_S4x4096x2944_S384x2944_S4x4096x384_2_1_01_0_n_n : DotDims S4x4096x2944 S384x2944 S4x4096x384 where
  lhsContracting := [2]
  rhsContracting := [1]
  lhsNonContracting := [0, 1]
  rhsNonContracting := [0]
  lhsBatch := []
  rhsBatch := []
  wf := dot_S4x4096x2944_S384x2944_S4x4096x384_2_1_01_0_n_n_wf

class Facts : Prop extends Facts₀ where

variable [Facts]
-- ==== Proof.RefRunBase.lean ====
/-
  Reading a stretch of host operations: the tools.

  The contents after two lines of operations run one after the other are the contents after the second from the
  contents after the first; and a stretch is read in one pass, each operation's result at its own buffer being its
  function of its operands' contents and, at any other buffer, what was there.  For the nine-operand stack the pass
  needs the operands' contents each at its own reference.
-/
import proofs.«101718_j84739704750320_1_alg».proof.Proof.Gen.ReferenceIdeal
import proofs.«101718_j84739704750320_1_alg».proof.Proof.RefReadP
import Idealize.ShloMosaic.Lib.StableHlo.Run

noncomputable section

namespace Cert.RefRun

open Cert.ReferenceIdeal Cert.ReferenceIdeal.Gen
open Idealize.ShloMosaic Idealize.ShloMosaic.TcCoe Idealize.SL.Sem Idealize.ShloMosaic.StableHlo

variable {F : FTy → Type} [FloatOps F]

/-- The contents after two lines run one after the other: after the second, from the contents after the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- `nary` over a LITERAL family of nine references (the nine-operand `stablehlo.concatenate`): the result with each
    operand's contents AT ITS OWN REFERENCE, the nine-operand analogue of the library's `nary4_result'`, so that the
    one-pass rewriting goes on through the operands instead of stopping at `fun k => F ↑(![…] k)`. -/
theorem nary9_result' {y x0 x1 x2 x3 x4 x5 x6 x7 x8 : Ref sig .tc}
    (f : ((k : Fin 9) → ((![x0, x1, x2, x3, x4, x5, x6, x7, x8] : Fin 9 → Ref sig .tc) k).ty.Contents (Elt F)) → y.ty.Contents (Elt F)) (hxs hy)
    (V : Valuation τ sig (Elt F)) :
    (nary (τ := τ) ![x0, x1, x2, x3, x4, x5, x6, x7, x8] y f hxs hy).result V (no_index (Proc.devRef .tc y))
      = f (Fin.cons (V (Proc.devRef .tc x0)) (Fin.cons (V (Proc.devRef .tc x1)) (Fin.cons (V (Proc.devRef .tc x2))
          (Fin.cons (V (Proc.devRef .tc x3)) (Fin.cons (V (Proc.devRef .tc x4)) (Fin.cons (V (Proc.devRef .tc x5))
          (Fin.cons (V (Proc.devRef .tc x6)) (Fin.cons (V (Proc.devRef .tc x7)) (Fin.cons (V (Proc.devRef .tc x8))
          (fun i => i.elim0)))))))))) := by
  rw [nary_result]; congr 1; funext k; fin_cases k <;> rfl

/-- The one-pass reading of a stretch: each operation's result at its own buffer is its function of its operands'
    contents, at any other buffer what was there (the library's rule set, with the nine-operand rule). -/
macro "read_stretch" : tactic =>
  `(tactic| (simp (disch := decide) only [after_cons, after_nil,
        nullary_result', unary_result', binary_result', ternary_result', quaternary_result', reshape_result', nary9_result',
        unaryIndexed_result', binaryIndexed_result',
        nullary_result_ne', unary_result_ne', binary_result_ne', ternary_result_ne', quaternary_result_ne', reshape_result_ne',
        nary_result_ne', unaryIndexed_result_ne', binaryIndexed_result_ne']))

end Cert.RefRun

end
-- ==== Proof.RefRunTaps.lean ====
/-
  The reference's operations 0–20: the image padded by one zero pixel, its nine shifted windows, each given a new
  axis of length one.  From any incoming contents `W` the nine tap buffers hold the stages `val_main_v10 … v18` of
  `W`'s image, and the four other arguments are not touched.
-/
import proofs.«101718_j84739704750320_1_alg».proof.Proof.Gen.ReferenceIdeal
import proofs.«101718_j84739704750320_1_alg».proof.Proof.RefReadP
import proofs.«101718_j84739704750320_1_alg».proof.Proof.RefRunBase
import Idealize.ShloMosaic.Lib.StableHlo.Run

noncomputable section

namespace Cert.RefRun

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- Operations 0–20 of @main. -/
abbrev opsA1 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x320x64x64, .f32⟩) main_arg0) (TRef.of (T := ⟨S_, .f32⟩) main_call0_v0) (TRef.of (T := ⟨S4x320x66x66, .f32⟩) main_v0) (fun x v => pad S4x320x66x66 ![0, 0, 1, 1] ![0, 0, 1, 1] ![0, 0, 0, 0] x v pads_S4x320x64x64_S4x320x66x66_000_000_110_110 h_S_),
    unary main_v0 main_v1 ((extractStridedSlice S4x320x64x64 ![0, 0, 0, 0] · slices_S4x320x66x66_S4x320x64x64_0_0_0_0) : (⟨S4x320x66x66, .f32⟩ : BufTy).Contents (Elt F) → (⟨S4x320x64x64, .f32⟩ : BufTy).Contents (Elt F)),
    unary main_v0 main_v2 ((extractStridedSlice S4x320x64x64 ![0, 0, 0, 1] · slices_S4x320x66x66_S4x320x64x64_0_0_0_1) : (⟨S4x320x66x66, .f32⟩ : BufTy).Contents (Elt F) → (⟨S4x320x64x64, .f32⟩ : BufTy).Contents (Elt F)),
    unary main_v0 main_v3 ((extractStridedSlice S4x320x64x64 ![0, 0, 0, 2] · slices_S4x320x66x66_S4x320x64x64_0_0_0_2) : (⟨S4x320x66x66, .f32⟩ : BufTy).Contents (Elt F) → (⟨S4x320x64x64, .f32⟩ : BufTy).Contents (Elt F)),
    unary main_v0 main_v4 ((extractStridedSlice S4x320x64x64 ![0, 0, 1, 0] · slices_S4x320x66x66_S4x320x64x64_0_0_1_0) : (⟨S4x320x66x66, .f32⟩ : BufTy).Contents (Elt F) → (⟨S4x320x64x64, .f32⟩ : BufTy).Contents (Elt F)),
    unary main_v0 main_v5 ((extractStridedSlice S4x320x64x64 ![0, 0, 1, 1] · slices_S4x320x66x66_S4x320x64x64_0_0_1_1) : (⟨S4x320x66x66, .f32⟩ : BufTy).Contents (Elt F) → (⟨S4x320x64x64, .f32⟩ : BufTy).Contents (Elt F)),
    unary main_v0 main_v6 ((extractStridedSlice S4x320x64x64 ![0, 0, 1, 2] · slices_S4x320x66x66_S4x320x64x64_0_0_1_2) : (⟨S4x320x66x66, .f32⟩ : BufTy).Contents (Elt F) → (⟨S4x320x64x64, .f32⟩ : BufTy).Contents (Elt F)),
    unary main_v0 main_v7 ((extractStridedSlice S4x320x64x64 ![0, 0, 2, 0] · slices_S4x320x66x66_S4x320x64x64_0_0_2_0) : (⟨S4x320x66x66, .f32⟩ : BufTy).Contents (Elt F) → (⟨S4x320x64x64, .f32⟩ : BufTy).Contents (Elt F)),
    unary main_v0 main_v8 ((extractStridedSlice S4x320x64x64 ![0, 0, 2, 1] · slices_S4x320x66x66_S4x320x64x64_0_0_2_1) : (⟨S4x320x66x66, .f32⟩ : BufTy).Contents (Elt F) → (⟨S4x320x64x64, .f32⟩ : BufTy).Contents (Elt F)),
    unary main_v0 main_v9 ((extractStridedSlice S4x320x64x64 ![0, 0, 2, 2] · slices_S4x320x66x66_S4x320x64x64_0_0_2_2) : (⟨S4x320x66x66, .f32⟩ : BufTy).Contents (Elt F) → (⟨S4x320x64x64, .f32⟩ : BufTy).Contents (Elt F)),
    unary main_v1 main_v10 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v2 main_v11 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v3 main_v12 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v4 main_v13 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v5 main_v14 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v6 main_v15 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v7 main_v16 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v8 main_v17 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v9 main_v18 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)) ]

/-! ## The nine taps (operations 0–20) -/

theorem A1_main_v10 (W : Valuation τ sig (Elt F)) :
    after (opsA1 (F := F)) W (Proc.devRef (τ := τ) .tc main_v10) = val_main_v10 (F := F) (W (Proc.devRef (τ := τ) .tc main_arg0)) := by
  read_stretch
  unfold val_main_v10 val_main_v1 val_main_v0 val_main_call0_v0 val_main_c
  rfl
theorem A1_main_v11 (W : Valuation τ sig (Elt F)) :
    after (opsA1 (F := F)) W (Proc.devRef (τ := τ) .tc main_v11) = val_main_v11 (F := F) (W (Proc.devRef (τ := τ) .tc main_arg0)) := by
  read_stretch
  unfold val_main_v11 val_main_v2 val_main_v0 val_main_call0_v0 val_main_c
  rfl
theorem A1_main_v12 (W : Valuation τ sig (Elt F)) :
    after (opsA1 (F := F)) W (Proc.devRef (τ := τ) .tc main_v12) = val_main_v12 (F := F) (W (Proc.devRef (τ := τ) .tc main_arg0)) := by
  read_stretch
  unfold val_main_v12 val_main_v3 val_main_v0 val_main_call0_v0 val_main_c
  rfl
theorem A1_main_v13 (W : Valuation τ sig (Elt F)) :
    after (opsA1 (F := F)) W (Proc.devRef (τ := τ) .tc main_v13) = val_main_v13 (F := F) (W (Proc.devRef (τ := τ) .tc main_arg0)) := by
  read_stretch
  unfold val_main_v13 val_main_v4 val_main_v0 val_main_call0_v0 val_main_c
  rfl
theorem A1_main_v14 (W : Valuation τ sig (Elt F)) :
    after (opsA1 (F := F)) W (Proc.devRef (τ := τ) .tc main_v14) = val_main_v14 (F := F) (W (Proc.devRef (τ := τ) .tc main_arg0)) := by
  read_stretch
  unfold val_main_v14 val_main_v5 val_main_v0 val_main_call0_v0 val_main_c
  rfl
theorem A1_main_v15 (W : Valuation τ sig (Elt F)) :
    after (opsA1 (F := F)) W (Proc.devRef (τ := τ) .tc main_v15) = val_main_v15 (F := F) (W (Proc.devRef (τ := τ) .tc main_arg0)) := by
  read_stretch
  unfold val_main_v15 val_main_v6 val_main_v0 val_main_call0_v0 val_main_c
  rfl
theorem A1_main_v16 (W : Valuation τ sig (Elt F)) :
    after (opsA1 (F := F)) W (Proc.devRef (τ := τ) .tc main_v16) = val_main_v16 (F := F) (W (Proc.devRef (τ := τ) .tc main_arg0)) := by
  read_stretch
  unfold val_main_v16 val_main_v7 val_main_v0 val_main_call0_v0 val_main_c
  rfl
theorem A1_main_v17 (W : Valuation τ sig (Elt F)) :
    after (opsA1 (F := F)) W (Proc.devRef (τ := τ) .tc main_v17) = val_main_v17 (F := F) (W (Proc.devRef (τ := τ) .tc main_arg0)) := by
  read_stretch
  unfold val_main_v17 val_main_v8 val_main_v0 val_main_call0_v0 val_main_c
  rfl
theorem A1_main_v18 (W : Valuation τ sig (Elt F)) :
    after (opsA1 (F := F)) W (Proc.devRef (τ := τ) .tc main_v18) = val_main_v18 (F := F) (W (Proc.devRef (τ := τ) .tc main_arg0)) := by
  read_stretch
  unfold val_main_v18 val_main_v9 val_main_v0 val_main_call0_v0 val_main_c
  rfl
theorem A1_keeps_main_arg1 (W : Valuation τ sig (Elt F)) :
    after (opsA1 (F := F)) W (Proc.devRef (τ := τ) .tc main_arg1) = W (Proc.devRef (τ := τ) .tc main_arg1) := by
  read_stretch
theorem A1_keeps_main_arg2 (W : Valuation τ sig (Elt F)) :
    after (opsA1 (F := F)) W (Proc.devRef (τ := τ) .tc main_arg2) = W (Proc.devRef (τ := τ) .tc main_arg2) := by
  read_stretch
theorem A1_keeps_main_arg3 (W : Valuation τ sig (Elt F)) :
    after (opsA1 (F := F)) W (Proc.devRef (τ := τ) .tc main_arg3) = W (Proc.devRef (τ := τ) .tc main_arg3) := by
  read_stretch
theorem A1_keeps_main_arg4 (W : Valuation τ sig (Elt F)) :
    after (opsA1 (F := F)) W (Proc.devRef (τ := τ) .tc main_arg4) = W (Proc.devRef (τ := τ) .tc main_arg4) := by
  read_stretch

end Cert.RefRun

end
-- ==== Proof.RefRunRow.lean ====
/-
  The reference's operations 21–26: the nine taps stacked along the new axis (operation 21), then the stack
  flattened, transposed so that the token comes first, and lengthened by 64 zero features (operations 22–26).
  From contents `W` whose nine tap buffers hold the tap stages of an image `x0`, the stack buffer holds the stage
  `val_main_v19 x0`; and from contents whose stack buffer holds that stage, the row buffer holds `val_main_v22 x0`.

  Two points of order.  The stack is read first over the nine buffers' contents as they stand, and only then are
  the tap stages put in their place: entry `k` of the nine-fold family is then simply the `k`-th buffer's contents.
  And the lengthening comes from a called function, whose operands and result pass through a transport between
  "contents at the value's type" and "contents of the buffer"; at a literal buffer that transport is the identity,
  and it is removed (by the five one-line lemmas below) before the two sides are compared, so that the comparison
  goes argument by argument down the same tower pad ∘ transpose ∘ reshape.
-/
import proofs.«101718_j84739704750320_1_alg».proof.Proof.Gen.ReferenceIdeal
import proofs.«101718_j84739704750320_1_alg».proof.Proof.RefReadP
import proofs.«101718_j84739704750320_1_alg».proof.Proof.RefRunBase
import Idealize.ShloMosaic.Lib.StableHlo.Run

noncomputable section

namespace Cert.RefRun

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- Operation 21 of @main: the stack. -/
abbrev opsA2a : List (HloOp τ sig (Elt F)) :=
  [ nary ![main_v10, main_v11, main_v12, main_v13, main_v14, main_v15, main_v16, main_v17, main_v18] main_v19 (fun u => concatenate S4x320x9x64x64 2 [⟨S4x320x1x64x64, u 0⟩, ⟨S4x320x1x64x64, u 1⟩, ⟨S4x320x1x64x64, u 2⟩, ⟨S4x320x1x64x64, u 3⟩, ⟨S4x320x1x64x64, u 4⟩, ⟨S4x320x1x64x64, u 5⟩, ⟨S4x320x1x64x64, u 6⟩, ⟨S4x320x1x64x64, u 7⟩, ⟨S4x320x1x64x64, u 8⟩] concatenates_S4x320x1x64x64_S4x320x1x64x64_S4x320x1x64x64_S4x320x1x64x64_S4x320x1x64x64_S4x320x1x64x64_S4x320x1x64x64_S4x320x1x64x64_S4x320x1x64x64_S4x320x9x64x64_d2) ]

/-- Operations 22–26 of @main: flatten, transpose, lengthen. -/
abbrev opsA2b : List (HloOp τ sig (Elt F)) :=
  [ reshape main_v19 main_v20 rfl shapeCasts_S4x320x9x64x64_S4x2880x4096,
    unary main_v20 main_v21 ((transpose S4x4096x2880 [0, 2, 1] · transposes_S4x2880x4096_S4x4096x2880_0_2_1) : (⟨S4x2880x4096, .f32⟩ : BufTy).Contents (Elt F) → (⟨S4x4096x2880, .f32⟩ : BufTy).Contents (Elt F)),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S4x4096x2880, .f32⟩) main_v21) (TRef.of (T := ⟨S_, .f32⟩) main_call1_v0) (TRef.of (T := ⟨S4x4096x2944, .f32⟩) main_v22) (fun x v => pad S4x4096x2944 ![0, 0, 0] ![0, 0, 64] ![0, 0, 0] x v pads_S4x4096x2880_S4x4096x2944_000_000_0640 h_S_) ]

/-! ## The stack (operation 21) -/

theorem Stack_main_v19 (W : Valuation τ sig (Elt F)) (x0 : (⟨S4x320x64x64, .f32⟩ : BufTy).Contents (Elt F))
    (h0 : W (Proc.devRef (τ := τ) .tc main_v10) = val_main_v10 (F := F) x0)
    (h1 : W (Proc.devRef (τ := τ) .tc main_v11) = val_main_v11 (F := F) x0)
    (h2 : W (Proc.devRef (τ := τ) .tc main_v12) = val_main_v12 (F := F) x0)
    (h3 : W (Proc.devRef (τ := τ) .tc main_v13) = val_main_v13 (F := F) x0)
    (h4 : W (Proc.devRef (τ := τ) .tc main_v14) = val_main_v14 (F := F) x0)
    (h5 : W (Proc.devRef (τ := τ) .tc main_v15) = val_main_v15 (F := F) x0)
    (h6 : W (Proc.devRef (τ := τ) .tc main_v16) = val_main_v16 (F := F) x0)
    (h7 : W (Proc.devRef (τ := τ) .tc main_v17) = val_main_v17 (F := F) x0)
    (h8 : W (Proc.devRef (τ := τ) .tc main_v18) = val_main_v18 (F := F) x0) :
    after (opsA2a (F := F)) W (Proc.devRef (τ := τ) .tc main_v19) = val_main_v19 (F := F) x0 := by
  conv_lhs =>
    simp (disch := decide) only [after_cons, after_nil,
      nullary_result', unary_result', binary_result', ternary_result', quaternary_result', reshape_result', nary9_result',
      unaryIndexed_result', binaryIndexed_result',
      nullary_result_ne', unary_result_ne', binary_result_ne', ternary_result_ne', quaternary_result_ne', reshape_result_ne',
      nary_result_ne', unaryIndexed_result_ne', binaryIndexed_result_ne']
  show concatenate S4x320x9x64x64 2
      [⟨S4x320x1x64x64, W (Proc.devRef (τ := τ) .tc main_v10)⟩, ⟨S4x320x1x64x64, W (Proc.devRef (τ := τ) .tc main_v11)⟩, ⟨S4x320x1x64x64, W (Proc.devRef (τ := τ) .tc main_v12)⟩, ⟨S4x320x1x64x64, W (Proc.devRef (τ := τ) .tc main_v13)⟩, ⟨S4x320x1x64x64, W (Proc.devRef (τ := τ) .tc main_v14)⟩, ⟨S4x320x1x64x64, W (Proc.devRef (τ := τ) .tc main_v15)⟩, ⟨S4x320x1x64x64, W (Proc.devRef (τ := τ) .tc main_v16)⟩, ⟨S4x320x1x64x64, W (Proc.devRef (τ := τ) .tc main_v17)⟩, ⟨S4x320x1x64x64, W (Proc.devRef (τ := τ) .tc main_v18)⟩]
      concatenates_S4x320x1x64x64_S4x320x1x64x64_S4x320x1x64x64_S4x320x1x64x64_S4x320x1x64x64_S4x320x1x64x64_S4x320x1x64x64_S4x320x1x64x64_S4x320x1x64x64_S4x320x9x64x64_d2 = _
  rw [h0, h1, h2, h3, h4, h5, h6, h7, h8]
  unfold val_main_v19
  rfl
theorem A2a_keeps_main_arg1 (W : Valuation τ sig (Elt F)) :
    after (opsA2a (F := F)) W (Proc.devRef (τ := τ) .tc main_arg1) = W (Proc.devRef (τ := τ) .tc main_arg1) := by
  read_stretch
theorem A2a_keeps_main_arg2 (W : Valuation τ sig (Elt F)) :
    after (opsA2a (F := F)) W (Proc.devRef (τ := τ) .tc main_arg2) = W (Proc.devRef (τ := τ) .tc main_arg2) := by
  read_stretch
theorem A2a_keeps_main_arg3 (W : Valuation τ sig (Elt F)) :
    after (opsA2a (F := F)) W (Proc.devRef (τ := τ) .tc main_arg3) = W (Proc.devRef (τ := τ) .tc main_arg3) := by
  read_stretch
theorem A2a_keeps_main_arg4 (W : Valuation τ sig (Elt F)) :
    after (opsA2a (F := F)) W (Proc.devRef (τ := τ) .tc main_arg4) = W (Proc.devRef (τ := τ) .tc main_arg4) := by
  read_stretch

/-! ## The row (operations 22–26) -/

/-! Contents at a stage's type and contents of its buffer are the same thing once the buffer is a literal: the
    transport between them is the identity. -/
theorem toBuf_main_v22 (p1 p2 p3) (v : (⟨S4x4096x2944, .f32⟩ : BufTy).Contents (Elt F)) :
    (TRef.of (sig := sig) (T := ⟨S4x4096x2944, .f32⟩) main_v22 p1 p2 p3).toBuf v = v := rfl
theorem ofBuf_main_v21 (p1 p2 p3) (v : (⟨S4x4096x2880, .f32⟩ : BufTy).Contents (Elt F)) :
    (TRef.of (sig := sig) (T := ⟨S4x4096x2880, .f32⟩) main_v21 p1 p2 p3).ofBuf v = v := rfl
theorem toBuf_main_call1_v0 (p1 p2 p3) (v : (⟨S_, .f32⟩ : BufTy).Contents (Elt F)) :
    (TRef.of (sig := sig) (T := ⟨S_, .f32⟩) main_call1_v0 p1 p2 p3).toBuf v = v := rfl
theorem ofBuf_main_call1_v0 (p1 p2 p3) (v : (⟨S_, .f32⟩ : BufTy).Contents (Elt F)) :
    (TRef.of (sig := sig) (T := ⟨S_, .f32⟩) main_call1_v0 p1 p2 p3).ofBuf v = v := rfl
theorem ofBuf_main_c_0 (p1 p2 p3) (v : (⟨S_, .i32⟩ : BufTy).Contents (Elt F)) :
    (TRef.of (sig := sig) (T := ⟨S_, .i32⟩) main_c_0 p1 p2 p3).ofBuf v = v := rfl

theorem Row_main_v22 (W : Valuation τ sig (Elt F)) (x0 : (⟨S4x320x64x64, .f32⟩ : BufTy).Contents (Elt F))
    (h19 : W (Proc.devRef (τ := τ) .tc main_v19) = val_main_v19 (F := F) x0) :
    after (opsA2b (F := F)) W (Proc.devRef (τ := τ) .tc main_v22) = val_main_v22 (F := F) x0 := by
  conv_lhs =>
    simp (disch := decide) only [after_cons, after_nil,
      nullary_result', unary_result', binary_result', ternary_result', quaternary_result', reshape_result', nary9_result',
      unaryIndexed_result', binaryIndexed_result',
      nullary_result_ne', unary_result_ne', binary_result_ne', ternary_result_ne', quaternary_result_ne', reshape_result_ne',
      nary_result_ne', unaryIndexed_result_ne', binaryIndexed_result_ne']
  rw [h19]
  unfold val_main_v22 val_main_v21 val_main_v20 val_main_call1_v0 val_main_c_0
  rw [toBuf_main_v22, ofBuf_main_v21, ofBuf_main_call1_v0, toBuf_main_call1_v0, ofBuf_main_c_0]
  rfl
theorem A2b_keeps_main_arg1 (W : Valuation τ sig (Elt F)) :
    after (opsA2b (F := F)) W (Proc.devRef (τ := τ) .tc main_arg1) = W (Proc.devRef (τ := τ) .tc main_arg1) := by
  read_stretch
theorem A2b_keeps_main_arg2 (W : Valuation τ sig (Elt F)) :
    after (opsA2b (F := F)) W (Proc.devRef (τ := τ) .tc main_arg2) = W (Proc.devRef (τ := τ) .tc main_arg2) := by
  read_stretch
theorem A2b_keeps_main_arg3 (W : Valuation τ sig (Elt F)) :
    after (opsA2b (F := F)) W (Proc.devRef (τ := τ) .tc main_arg3) = W (Proc.devRef (τ := τ) .tc main_arg3) := by
  read_stretch
theorem A2b_keeps_main_arg4 (W : Valuation τ sig (Elt F)) :
    after (opsA2b (F := F)) W (Proc.devRef (τ := τ) .tc main_arg4) = W (Proc.devRef (τ := τ) .tc main_arg4) := by
  read_stretch

end Cert.RefRun

end
-- ==== Proof.RefRunFromRow.lean ====
/-
  The reference's operations 27–49: from the feature rows, the low-rank product, the rows' steps and the rows' codes.
-/
import proofs.«101718_j84739704750320_1_alg».proof.Proof.Gen.ReferenceIdeal
import proofs.«101718_j84739704750320_1_alg».proof.Proof.RefReadP
import proofs.«101718_j84739704750320_1_alg».proof.Proof.RefRunBase
import Idealize.ShloMosaic.Lib.StableHlo.Run

noncomputable section

namespace Cert.RefRun

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- Operations 27–49 of @main. -/
abbrev opsB : List (HloOp τ sig (Elt F)) :=
  [ binary main_v22 main_arg2 main_v23 ((fun l r => Host.dotGeneral dot_S4x4096x2944_S2944x32_S4x4096x32_2_0_01_1_n_n none l r) : (⟨S4x4096x2944, .f32⟩ : BufTy).Contents (Elt F) → (⟨S2944x32, .f32⟩ : BufTy).Contents (Elt F) → (⟨S4x4096x32, .f32⟩ : BufTy).Contents (Elt F)),
    binary main_v23 main_arg3 main_v24 ((fun l r => Host.dotGeneral dot_S4x4096x32_S32x384_S4x4096x384_2_0_01_1_n_n none l r) : (⟨S4x4096x32, .f32⟩ : BufTy).Contents (Elt F) → (⟨S32x384, .f32⟩ : BufTy).Contents (Elt F) → (⟨S4x4096x384, .f32⟩ : BufTy).Contents (Elt F)),
    unary main_v22 main_v25 (Host.absf : (⟨S4x4096x2944, .f32⟩ : BufTy).Contents (Elt F) → (⟨S4x4096x2944, .f32⟩ : BufTy).Contents (Elt F)),
    nullary main_cst (constant S_ .f32 0xFF800000#32),
    binary main_v25 main_cst main_v26 ((fun x v => Host.reduce FloatOps.maximumf x v reducesTo_S4x4096x2944_S4x4096_d2 h_S_) : (⟨S4x4096x2944, .f32⟩ : BufTy).Contents (Elt F) → (⟨S_, .f32⟩ : BufTy).Contents (Elt F) → (⟨S4x4096, .f32⟩ : BufTy).Contents (Elt F)),
    unary main_v26 main_v27 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_1 (constant S_ .f32 0x40E00000#32),
    unary main_cst_1 main_v28 (broadcastInDim S4x4096x1 ![] bcast_S_S4x4096x1 : (⟨S_, .f32⟩ : BufTy).Contents (Elt F) → (⟨S4x4096x1, .f32⟩ : BufTy).Contents (Elt F)),
    binary main_v27 main_v28 main_v29 (Host.divf : (⟨S4x4096x1, .f32⟩ : BufTy).Contents (Elt F) → (⟨S4x4096x1, .f32⟩ : BufTy).Contents (Elt F) → (⟨S4x4096x1, .f32⟩ : BufTy).Contents (Elt F)),
    nullary main_cst_2 (constant S_ .f32 0x322BCC77#32),
    unary main_cst_2 main_v30 (broadcastInDim S4x4096x1 ![] bcast_S_S4x4096x1 : (⟨S_, .f32⟩ : BufTy).Contents (Elt F) → (⟨S4x4096x1, .f32⟩ : BufTy).Contents (Elt F)),
    binary main_v29 main_v30 main_v31 (maximumf : (⟨S4x4096x1, .f32⟩ : BufTy).Contents (Elt F) → (⟨S4x4096x1, .f32⟩ : BufTy).Contents (Elt F) → (⟨S4x4096x1, .f32⟩ : BufTy).Contents (Elt F)),
    unary main_v31 main_v32 (broadcastInDim S4x4096x2944 ![0, 1, 2] bcast_S4x4096x1_S4x4096x2944_0_1_2 : (⟨S4x4096x1, .f32⟩ : BufTy).Contents (Elt F) → (⟨S4x4096x2944, .f32⟩ : BufTy).Contents (Elt F)),
    binary main_v22 main_v32 main_v33 (Host.divf : (⟨S4x4096x2944, .f32⟩ : BufTy).Contents (Elt F) → (⟨S4x4096x2944, .f32⟩ : BufTy).Contents (Elt F) → (⟨S4x4096x2944, .f32⟩ : BufTy).Contents (Elt F)),
    TRef.unary (TRef.of (T := ⟨S4x4096x2944, .f32⟩) main_v33) (TRef.of (T := ⟨S4x4096x2944, .f32⟩) main_v34) Host.roundeven,
    nullary main_cst_3 (constant S_ .f32 0xC1000000#32),
    nullary main_cst_4 (constant S_ .f32 0x40E00000#32),
    TRef.unary (TRef.of (T := ⟨S_, .f32⟩) main_cst_3) (TRef.of (T := ⟨S_, .f32⟩) main_call3_v0) id,
    TRef.unary (TRef.of (T := ⟨S_, .f32⟩) main_call3_v0) (TRef.of (T := ⟨S4x4096x2944, .f32⟩) main_call3_v1) (broadcastInDim S4x4096x2944 ![] bcast_S_S4x4096x2944),
    TRef.binary (TRef.of (T := ⟨S4x4096x2944, .f32⟩) main_call3_v1) (TRef.of (T := ⟨S4x4096x2944, .f32⟩) main_v34) (TRef.of (T := ⟨S4x4096x2944, .f32⟩) main_call3_v2) maximumf,
    TRef.unary (TRef.of (T := ⟨S_, .f32⟩) main_cst_4) (TRef.of (T := ⟨S_, .f32⟩) main_call3_v3) id,
    TRef.unary (TRef.of (T := ⟨S_, .f32⟩) main_call3_v3) (TRef.of (T := ⟨S4x4096x2944, .f32⟩) main_call3_v4) (broadcastInDim S4x4096x2944 ![] bcast_S_S4x4096x2944),
    TRef.binary (TRef.of (T := ⟨S4x4096x2944, .f32⟩) main_call3_v4) (TRef.of (T := ⟨S4x4096x2944, .f32⟩) main_call3_v2) (TRef.of (T := ⟨S4x4096x2944, .f32⟩) main_v35) minimumf ]

/-! ## What is made of the row (operations 27–49) -/

theorem B_main_v35 (W : Valuation τ sig (Elt F)) (x0 : (⟨S4x320x64x64, .f32⟩ : BufTy).Contents (Elt F))
    (h22 : W (Proc.devRef (τ := τ) .tc main_v22) = val_main_v22 (F := F) x0) :
    after (opsB (F := F)) W (Proc.devRef (τ := τ) .tc main_v35) = val_main_v35 (F := F) x0 := by
  read_stretch
  rw [h22]
  unfold val_main_v35 val_main_call3_v4 val_main_call3_v3 val_main_cst_4 val_main_call3_v2 val_main_call3_v1 val_main_call3_v0 val_main_cst_3 val_main_v34 val_main_v33 val_main_v32 val_main_v31 val_main_v29 val_main_v27 val_main_v26 val_main_v25 val_main_cst val_main_v28 val_main_cst_1 val_main_v30 val_main_cst_2
  rfl
theorem B_main_v31 (W : Valuation τ sig (Elt F)) (x0 : (⟨S4x320x64x64, .f32⟩ : BufTy).Contents (Elt F))
    (h22 : W (Proc.devRef (τ := τ) .tc main_v22) = val_main_v22 (F := F) x0) :
    after (opsB (F := F)) W (Proc.devRef (τ := τ) .tc main_v31) = val_main_v31 (F := F) x0 := by
  read_stretch
  rw [h22]
  unfold val_main_v31 val_main_v29 val_main_v27 val_main_v26 val_main_v25 val_main_cst val_main_v28 val_main_cst_1 val_main_v30 val_main_cst_2
  rfl
theorem B_main_v24 (W : Valuation τ sig (Elt F)) (x0 : (⟨S4x320x64x64, .f32⟩ : BufTy).Contents (Elt F))
    (x2 : (⟨S2944x32, .f32⟩ : BufTy).Contents (Elt F)) (x3 : (⟨S32x384, .f32⟩ : BufTy).Contents (Elt F))
    (h22 : W (Proc.devRef (τ := τ) .tc main_v22) = val_main_v22 (F := F) x0) (h2 : W (Proc.devRef (τ := τ) .tc main_arg2) = x2) (h3 : W (Proc.devRef (τ := τ) .tc main_arg3) = x3) :
    after (opsB (F := F)) W (Proc.devRef (τ := τ) .tc main_v24) = val_main_v24 (F := F) x0 x2 x3 := by
  read_stretch
  rw [h22, h2, h3]
  unfold val_main_v24 val_main_v23
  rfl
theorem B_keeps_main_arg1 (W : Valuation τ sig (Elt F)) :
    after (opsB (F := F)) W (Proc.devRef (τ := τ) .tc main_arg1) = W (Proc.devRef (τ := τ) .tc main_arg1) := by
  read_stretch
theorem B_keeps_main_arg4 (W : Valuation τ sig (Elt F)) :
    after (opsB (F := F)) W (Proc.devRef (τ := τ) .tc main_arg4) = W (Proc.devRef (τ := τ) .tc main_arg4) := by
  read_stretch

end Cert.RefRun

end
-- ==== Proof.RefRunWeights.lean ====
/-
  The reference's operations 50–70: from the weights, their rows' steps and codes.
-/
import proofs.«101718_j84739704750320_1_alg».proof.Proof.Gen.ReferenceIdeal
import proofs.«101718_j84739704750320_1_alg».proof.Proof.RefReadP
import proofs.«101718_j84739704750320_1_alg».proof.Proof.RefRunBase
import Idealize.ShloMosaic.Lib.StableHlo.Run

noncomputable section

namespace Cert.RefRun

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- Operations 50–70 of @main. -/
abbrev opsC : List (HloOp τ sig (Elt F)) :=
  [ unary main_arg1 main_v36 (Host.absf : (⟨S384x2944, .f32⟩ : BufTy).Contents (Elt F) → (⟨S384x2944, .f32⟩ : BufTy).Contents (Elt F)),
    nullary main_cst_5 (constant S_ .f32 0xFF800000#32),
    binary main_v36 main_cst_5 main_v37 ((fun x v => Host.reduce FloatOps.maximumf x v reducesTo_S384x2944_S384_d1 h_S_) : (⟨S384x2944, .f32⟩ : BufTy).Contents (Elt F) → (⟨S_, .f32⟩ : BufTy).Contents (Elt F) → (⟨S384, .f32⟩ : BufTy).Contents (Elt F)),
    unary main_v37 main_v38 (broadcastInDim S384x1 ![0] bcast_S384_S384x1_0 : (⟨S384, .f32⟩ : BufTy).Contents (Elt F) → (⟨S384x1, .f32⟩ : BufTy).Contents (Elt F)),
    nullary main_cst_6 (constant S_ .f32 0x40E00000#32),
    unary main_cst_6 main_v39 (broadcastInDim S384x1 ![] bcast_S_S384x1 : (⟨S_, .f32⟩ : BufTy).Contents (Elt F) → (⟨S384x1, .f32⟩ : BufTy).Contents (Elt F)),
    binary main_v38 main_v39 main_v40 (Host.divf : (⟨S384x1, .f32⟩ : BufTy).Contents (Elt F) → (⟨S384x1, .f32⟩ : BufTy).Contents (Elt F) → (⟨S384x1, .f32⟩ : BufTy).Contents (Elt F)),
    nullary main_cst_7 (constant S_ .f32 0x322BCC77#32),
    unary main_cst_7 main_v41 (broadcastInDim S384x1 ![] bcast_S_S384x1 : (⟨S_, .f32⟩ : BufTy).Contents (Elt F) → (⟨S384x1, .f32⟩ : BufTy).Contents (Elt F)),
    binary main_v40 main_v41 main_v42 (maximumf : (⟨S384x1, .f32⟩ : BufTy).Contents (Elt F) → (⟨S384x1, .f32⟩ : BufTy).Contents (Elt F) → (⟨S384x1, .f32⟩ : BufTy).Contents (Elt F)),
    unary main_v42 main_v43 (broadcastInDim S384x2944 ![0, 1] bcast_S384x1_S384x2944_0_1 : (⟨S384x1, .f32⟩ : BufTy).Contents (Elt F) → (⟨S384x2944, .f32⟩ : BufTy).Contents (Elt F)),
    binary main_arg1 main_v43 main_v44 (Host.divf : (⟨S384x2944, .f32⟩ : BufTy).Contents (Elt F) → (⟨S384x2944, .f32⟩ : BufTy).Contents (Elt F) → (⟨S384x2944, .f32⟩ : BufTy).Contents (Elt F)),
    TRef.unary (TRef.of (T := ⟨S384x2944, .f32⟩) main_v44) (TRef.of (T := ⟨S384x2944, .f32⟩) main_v45) Host.roundeven,
    nullary main_cst_8 (constant S_ .f32 0xC1000000#32),
    nullary main_cst_9 (constant S_ .f32 0x40E00000#32),
    TRef.unary (TRef.of (T := ⟨S_, .f32⟩) main_cst_8) (TRef.of (T := ⟨S_, .f32⟩) main_call5_v0) id,
    TRef.unary (TRef.of (T := ⟨S_, .f32⟩) main_call5_v0) (TRef.of (T := ⟨S384x2944, .f32⟩) main_call5_v1) (broadcastInDim S384x2944 ![] bcast_S_S384x2944),
    TRef.binary (TRef.of (T := ⟨S384x2944, .f32⟩) main_call5_v1) (TRef.of (T := ⟨S384x2944, .f32⟩) main_v45) (TRef.of (T := ⟨S384x2944, .f32⟩) main_call5_v2) maximumf,
    TRef.unary (TRef.of (T := ⟨S_, .f32⟩) main_cst_9) (TRef.of (T := ⟨S_, .f32⟩) main_call5_v3) id,
    TRef.unary (TRef.of (T := ⟨S_, .f32⟩) main_call5_v3) (TRef.of (T := ⟨S384x2944, .f32⟩) main_call5_v4) (broadcastInDim S384x2944 ![] bcast_S_S384x2944),
    TRef.binary (TRef.of (T := ⟨S384x2944, .f32⟩) main_call5_v4) (TRef.of (T := ⟨S384x2944, .f32⟩) main_call5_v2) (TRef.of (T := ⟨S384x2944, .f32⟩) main_v46) minimumf ]

/-! ## What is made of the weights (operations 50–70) -/

theorem C_main_v46 (W : Valuation τ sig (Elt F)) (x1 : (⟨S384x2944, .f32⟩ : BufTy).Contents (Elt F))
    (h1 : W (Proc.devRef (τ := τ) .tc main_arg1) = x1) :
    after (opsC (F := F)) W (Proc.devRef (τ := τ) .tc main_v46) = val_main_v46 (F := F) x1 := by
  read_stretch
  rw [h1]
  unfold val_main_v46 val_main_call5_v4 val_main_call5_v3 val_main_cst_9 val_main_call5_v2 val_main_call5_v1 val_main_call5_v0 val_main_cst_8 val_main_v45 val_main_v44 val_main_v43 val_main_v42 val_main_v40 val_main_v38 val_main_v37 val_main_v36 val_main_cst_5 val_main_v39 val_main_cst_6 val_main_v41 val_main_cst_7
  rfl
theorem C_main_v42 (W : Valuation τ sig (Elt F)) (x1 : (⟨S384x2944, .f32⟩ : BufTy).Contents (Elt F))
    (h1 : W (Proc.devRef (τ := τ) .tc main_arg1) = x1) :
    after (opsC (F := F)) W (Proc.devRef (τ := τ) .tc main_v42) = val_main_v42 (F := F) x1 := by
  read_stretch
  rw [h1]
  unfold val_main_v42 val_main_v40 val_main_v38 val_main_v37 val_main_v36 val_main_cst_5 val_main_v39 val_main_cst_6 val_main_v41 val_main_cst_7
  rfl
theorem C_keeps_main_v35 (W : Valuation τ sig (Elt F)) :
    after (opsC (F := F)) W (Proc.devRef (τ := τ) .tc main_v35) = W (Proc.devRef (τ := τ) .tc main_v35) := by
  read_stretch
theorem C_keeps_main_v31 (W : Valuation τ sig (Elt F)) :
    after (opsC (F := F)) W (Proc.devRef (τ := τ) .tc main_v31) = W (Proc.devRef (τ := τ) .tc main_v31) := by
  read_stretch
theorem C_keeps_main_v24 (W : Valuation τ sig (Elt F)) :
    after (opsC (F := F)) W (Proc.devRef (τ := τ) .tc main_v24) = W (Proc.devRef (τ := τ) .tc main_v24) := by
  read_stretch
theorem C_keeps_main_arg4 (W : Valuation τ sig (Elt F)) :
    after (opsC (F := F)) W (Proc.devRef (τ := τ) .tc main_arg4) = W (Proc.devRef (τ := τ) .tc main_arg4) := by
  read_stretch

end Cert.RefRun

end
-- ==== Proof.RefRunCombine.lean ====
/-
  The reference's operations 71–81: the codes' product rescaled by both steps, plus the low-rank product, plus the bias.
-/
import proofs.«101718_j84739704750320_1_alg».proof.Proof.Gen.ReferenceIdeal
import proofs.«101718_j84739704750320_1_alg».proof.Proof.RefReadP
import proofs.«101718_j84739704750320_1_alg».proof.Proof.RefRunBase
import Idealize.ShloMosaic.Lib.StableHlo.Run

noncomputable section

namespace Cert.RefRun

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- Operations 71–81 of @main. -/
abbrev opsD : List (HloOp τ sig (Elt F)) :=
  [ binary main_v35 main_v46 main_v47 ((fun l r => Host.dotGeneral dot_S4x4096x2944_S384x2944_S4x4096x384_2_1_01_0_n_n none l r) : (⟨S4x4096x2944, .f32⟩ : BufTy).Contents (Elt F) → (⟨S384x2944, .f32⟩ : BufTy).Contents (Elt F) → (⟨S4x4096x384, .f32⟩ : BufTy).Contents (Elt F)),
    unary main_v31 main_v48 (broadcastInDim S4x4096x384 ![0, 1, 2] bcast_S4x4096x1_S4x4096x384_0_1_2 : (⟨S4x4096x1, .f32⟩ : BufTy).Contents (Elt F) → (⟨S4x4096x384, .f32⟩ : BufTy).Contents (Elt F)),
    binary main_v47 main_v48 main_v49 (mulf : (⟨S4x4096x384, .f32⟩ : BufTy).Contents (Elt F) → (⟨S4x4096x384, .f32⟩ : BufTy).Contents (Elt F) → (⟨S4x4096x384, .f32⟩ : BufTy).Contents (Elt F)),
    reshape main_v42 main_v50 rfl shapeCasts_S384x1_S384,
    unary main_v50 main_v51 (broadcastInDim S1x1x384 ![2] bcast_S384_S1x1x384_2 : (⟨S384, .f32⟩ : BufTy).Contents (Elt F) → (⟨S1x1x384, .f32⟩ : BufTy).Contents (Elt F)),
    unary main_v51 main_v52 (broadcastInDim S4x4096x384 ![0, 1, 2] bcast_S1x1x384_S4x4096x384_0_1_2 : (⟨S1x1x384, .f32⟩ : BufTy).Contents (Elt F) → (⟨S4x4096x384, .f32⟩ : BufTy).Contents (Elt F)),
    binary main_v49 main_v52 main_v53 (mulf : (⟨S4x4096x384, .f32⟩ : BufTy).Contents (Elt F) → (⟨S4x4096x384, .f32⟩ : BufTy).Contents (Elt F) → (⟨S4x4096x384, .f32⟩ : BufTy).Contents (Elt F)),
    binary main_v53 main_v24 main_v54 (addf : (⟨S4x4096x384, .f32⟩ : BufTy).Contents (Elt F) → (⟨S4x4096x384, .f32⟩ : BufTy).Contents (Elt F) → (⟨S4x4096x384, .f32⟩ : BufTy).Contents (Elt F)),
    unary main_arg4 main_v55 (broadcastInDim S1x1x384 ![2] bcast_S384_S1x1x384_2 : (⟨S384, .f32⟩ : BufTy).Contents (Elt F) → (⟨S1x1x384, .f32⟩ : BufTy).Contents (Elt F)),
    unary main_v55 main_v56 (broadcastInDim S4x4096x384 ![0, 1, 2] bcast_S1x1x384_S4x4096x384_0_1_2 : (⟨S1x1x384, .f32⟩ : BufTy).Contents (Elt F) → (⟨S4x4096x384, .f32⟩ : BufTy).Contents (Elt F)),
    binary main_v54 main_v56 main_v57 (addf : (⟨S4x4096x384, .f32⟩ : BufTy).Contents (Elt F) → (⟨S4x4096x384, .f32⟩ : BufTy).Contents (Elt F) → (⟨S4x4096x384, .f32⟩ : BufTy).Contents (Elt F)) ]

/-! ## The combination (operations 71–81) -/

theorem D_main_v57 (W : Valuation τ sig (Elt F)) (x0 : (⟨S4x320x64x64, .f32⟩ : BufTy).Contents (Elt F))
    (x1 : (⟨S384x2944, .f32⟩ : BufTy).Contents (Elt F)) (x2 : (⟨S2944x32, .f32⟩ : BufTy).Contents (Elt F))
    (x3 : (⟨S32x384, .f32⟩ : BufTy).Contents (Elt F)) (x4 : (⟨S384, .f32⟩ : BufTy).Contents (Elt F))
    (h35 : W (Proc.devRef (τ := τ) .tc main_v35) = val_main_v35 (F := F) x0) (h46 : W (Proc.devRef (τ := τ) .tc main_v46) = val_main_v46 (F := F) x1)
    (h31 : W (Proc.devRef (τ := τ) .tc main_v31) = val_main_v31 (F := F) x0) (h42 : W (Proc.devRef (τ := τ) .tc main_v42) = val_main_v42 (F := F) x1)
    (h24 : W (Proc.devRef (τ := τ) .tc main_v24) = val_main_v24 (F := F) x0 x2 x3) (h4 : W (Proc.devRef (τ := τ) .tc main_arg4) = x4) :
    after (opsD (F := F)) W (Proc.devRef (τ := τ) .tc main_v57) = val_main_v57 (F := F) x0 x1 x2 x3 x4 := by
  read_stretch
  rw [h35, h46, h31, h42, h24, h4]
  unfold val_main_v57 val_main_v54 val_main_v53 val_main_v49 val_main_v47 val_main_v48 val_main_v52 val_main_v51 val_main_v50 val_main_v56 val_main_v55
  rfl

end Cert.RefRun

end
-- ==== Proof.RefRun.lean ====
/-
  The reference program's run, read back stretch by stretch.

  @main is a straight line of 82 host operations.  Its result is the last of a tower of stages — the im2col row
  `val_main_v22` of the image, the row's step `val_main_v31` and codes `val_main_v35`, the low-rank product
  `val_main_v24`, the weights' steps `val_main_v42` and codes `val_main_v46`, and their combination
  `val_main_v57` — and the line is cut where the stages meet: the nine taps (operations 0–20, Proof/RefRunTaps.lean),
  their stack and the row (21–26, RefRunRow.lean), what is made of the row (27–49, RefRunFromRow.lean), what is made
  of the weights (50–70, RefRunWeights.lean), the combination (71–81, RefRunCombine.lean).  The contents after the
  whole line are the contents after the last stretch from the contents after the ones before it, and each stretch
  is read from an ARBITRARY incoming valuation: a buffer an earlier stretch wrote enters as a hypothesis, a buffer the
  stretch does not write keeps its contents.  The nine taps are read before the operation that stacks them: once
  they stand inside the stack (a list of shape-tagged arrays) they can no longer be rewritten, so the stack is
  read over nine arrays given by name.
-/
import proofs.«101718_j84739704750320_1_alg».proof.Proof.Gen.ReferenceIdeal
import proofs.«101718_j84739704750320_1_alg».proof.Proof.RefReadP
import proofs.«101718_j84739704750320_1_alg».proof.Proof.RefRunBase
import proofs.«101718_j84739704750320_1_alg».proof.Proof.RefRunTaps
import proofs.«101718_j84739704750320_1_alg».proof.Proof.RefRunRow
import proofs.«101718_j84739704750320_1_alg».proof.Proof.RefRunFromRow
import proofs.«101718_j84739704750320_1_alg».proof.Proof.RefRunWeights
import proofs.«101718_j84739704750320_1_alg».proof.Proof.RefRunCombine
import Idealize.ShloMosaic.Lib.StableHlo.Run

noncomputable section

namespace Cert.RefRun

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- @main's 82 operations, in order (a called function's operations stand in its call's place). -/
abbrev ops : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x320x64x64, .f32⟩) main_arg0) (TRef.of (T := ⟨S_, .f32⟩) main_call0_v0) (TRef.of (T := ⟨S4x320x66x66, .f32⟩) main_v0) (fun x v => pad S4x320x66x66 ![0, 0, 1, 1] ![0, 0, 1, 1] ![0, 0, 0, 0] x v pads_S4x320x64x64_S4x320x66x66_000_000_110_110 h_S_),
    unary main_v0 main_v1 ((extractStridedSlice S4x320x64x64 ![0, 0, 0, 0] · slices_S4x320x66x66_S4x320x64x64_0_0_0_0) : (⟨S4x320x66x66, .f32⟩ : BufTy).Contents (Elt F) → (⟨S4x320x64x64, .f32⟩ : BufTy).Contents (Elt F)),
    unary main_v0 main_v2 ((extractStridedSlice S4x320x64x64 ![0, 0, 0, 1] · slices_S4x320x66x66_S4x320x64x64_0_0_0_1) : (⟨S4x320x66x66, .f32⟩ : BufTy).Contents (Elt F) → (⟨S4x320x64x64, .f32⟩ : BufTy).Contents (Elt F)),
    unary main_v0 main_v3 ((extractStridedSlice S4x320x64x64 ![0, 0, 0, 2] · slices_S4x320x66x66_S4x320x64x64_0_0_0_2) : (⟨S4x320x66x66, .f32⟩ : BufTy).Contents (Elt F) → (⟨S4x320x64x64, .f32⟩ : BufTy).Contents (Elt F)),
    unary main_v0 main_v4 ((extractStridedSlice S4x320x64x64 ![0, 0, 1, 0] · slices_S4x320x66x66_S4x320x64x64_0_0_1_0) : (⟨S4x320x66x66, .f32⟩ : BufTy).Contents (Elt F) → (⟨S4x320x64x64, .f32⟩ : BufTy).Contents (Elt F)),
    unary main_v0 main_v5 ((extractStridedSlice S4x320x64x64 ![0, 0, 1, 1] · slices_S4x320x66x66_S4x320x64x64_0_0_1_1) : (⟨S4x320x66x66, .f32⟩ : BufTy).Contents (Elt F) → (⟨S4x320x64x64, .f32⟩ : BufTy).Contents (Elt F)),
    unary main_v0 main_v6 ((extractStridedSlice S4x320x64x64 ![0, 0, 1, 2] · slices_S4x320x66x66_S4x320x64x64_0_0_1_2) : (⟨S4x320x66x66, .f32⟩ : BufTy).Contents (Elt F) → (⟨S4x320x64x64, .f32⟩ : BufTy).Contents (Elt F)),
    unary main_v0 main_v7 ((extractStridedSlice S4x320x64x64 ![0, 0, 2, 0] · slices_S4x320x66x66_S4x320x64x64_0_0_2_0) : (⟨S4x320x66x66, .f32⟩ : BufTy).Contents (Elt F) → (⟨S4x320x64x64, .f32⟩ : BufTy).Contents (Elt F)),
    unary main_v0 main_v8 ((extractStridedSlice S4x320x64x64 ![0, 0, 2, 1] · slices_S4x320x66x66_S4x320x64x64_0_0_2_1) : (⟨S4x320x66x66, .f32⟩ : BufTy).Contents (Elt F) → (⟨S4x320x64x64, .f32⟩ : BufTy).Contents (Elt F)),
    unary main_v0 main_v9 ((extractStridedSlice S4x320x64x64 ![0, 0, 2, 2] · slices_S4x320x66x66_S4x320x64x64_0_0_2_2) : (⟨S4x320x66x66, .f32⟩ : BufTy).Contents (Elt F) → (⟨S4x320x64x64, .f32⟩ : BufTy).Contents (Elt F)),
    unary main_v1 main_v10 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v2 main_v11 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v3 main_v12 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v4 main_v13 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v5 main_v14 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v6 main_v15 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v7 main_v16 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v8 main_v17 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    unary main_v9 main_v18 (broadcastInDim S4x320x1x64x64 ![0, 1, 3, 4] bcast_S4x320x64x64_S4x320x1x64x64_0_1_3_4 : (⟨S4x320x64x64, .f32⟩ : BufTy).Contents (Elt F) → (⟨S4x320x1x64x64, .f32⟩ : BufTy).Contents (Elt F)),
    nary ![main_v10, main_v11, main_v12, main_v13, main_v14, main_v15, main_v16, main_v17, main_v18] main_v19 (fun u => concatenate S4x320x9x64x64 2 [⟨S4x320x1x64x64, u 0⟩, ⟨S4x320x1x64x64, u 1⟩, ⟨S4x320x1x64x64, u 2⟩, ⟨S4x320x1x64x64, u 3⟩, ⟨S4x320x1x64x64, u 4⟩, ⟨S4x320x1x64x64, u 5⟩, ⟨S4x320x1x64x64, u 6⟩, ⟨S4x320x1x64x64, u 7⟩, ⟨S4x320x1x64x64, u 8⟩] concatenates_S4x320x1x64x64_S4x320x1x64x64_S4x320x1x64x64_S4x320x1x64x64_S4x320x1x64x64_S4x320x1x64x64_S4x320x1x64x64_S4x320x1x64x64_S4x320x1x64x64_S4x320x9x64x64_d2),
    reshape main_v19 main_v20 rfl shapeCasts_S4x320x9x64x64_S4x2880x4096,
    unary main_v20 main_v21 ((transpose S4x4096x2880 [0, 2, 1] · transposes_S4x2880x4096_S4x4096x2880_0_2_1) : (⟨S4x2880x4096, .f32⟩ : BufTy).Contents (Elt F) → (⟨S4x4096x2880, .f32⟩ : BufTy).Contents (Elt F)),
    nullary main_c_0 (constantI S_ 32 0#32),
    TRef.unary (TRef.of (T := ⟨S_, .i32⟩) main_c_0) (TRef.of (T := ⟨S_, .f32⟩) main_call1_v0) (sitofp .f32),
    TRef.binary (TRef.of (T := ⟨S4x4096x2880, .f32⟩) main_v21) (TRef.of (T := ⟨S_, .f32⟩) main_call1_v0) (TRef.of (T := ⟨S4x4096x2944, .f32⟩) main_v22) (fun x v => pad S4x4096x2944 ![0, 0, 0] ![0, 0, 64] ![0, 0, 0] x v pads_S4x4096x2880_S4x4096x2944_000_000_0640 h_S_),
    binary main_v22 main_arg2 main_v23 ((fun l r => Host.dotGeneral dot_S4x4096x2944_S2944x32_S4x4096x32_2_0_01_1_n_n none l r) : (⟨S4x4096x2944, .f32⟩ : BufTy).Contents (Elt F) → (⟨S2944x32, .f32⟩ : BufTy).Contents (Elt F) → (⟨S4x4096x32, .f32⟩ : BufTy).Contents (Elt F)),
    binary main_v23 main_arg3 main_v24 ((fun l r => Host.dotGeneral dot_S4x4096x32_S32x384_S4x4096x384_2_0_01_1_n_n none l r) : (⟨S4x4096x32, .f32⟩ : BufTy).Contents (Elt F) → (⟨S32x384, .f32⟩ : BufTy).Contents (Elt F) → (⟨S4x4096x384, .f32⟩ : BufTy).Contents (Elt F)),
    unary main_v22 main_v25 (Host.absf : (⟨S4x4096x2944, .f32⟩ : BufTy).Contents (Elt F) → (⟨S4x4096x2944, .f32⟩ : BufTy).Contents (Elt F)),
    nullary main_cst (constant S_ .f32 0xFF800000#32),
    binary main_v25 main_cst main_v26 ((fun x v => Host.reduce FloatOps.maximumf x v reducesTo_S4x4096x2944_S4x4096_d2 h_S_) : (⟨S4x4096x2944, .f32⟩ : BufTy).Contents (Elt F) → (⟨S_, .f32⟩ : BufTy).Contents (Elt F) → (⟨S4x4096, .f32⟩ : BufTy).Contents (Elt F)),
    unary main_v26 main_v27 (broadcastInDim S4x4096x1 ![0, 1] bcast_S4x4096_S4x4096x1_0_1 : (⟨S4x4096, .f32⟩ : BufTy).Contents (Elt F) → (⟨S4x4096x1, .f32⟩ : BufTy).Contents (Elt F)),
    nullary main_cst_1 (constant S_ .f32 0x40E00000#32),
    unary main_cst_1 main_v28 (broadcastInDim S4x4096x1 ![] bcast_S_S4x4096x1 : (⟨S_, .f32⟩ : BufTy).Contents (Elt F) → (⟨S4x4096x1, .f32⟩ : BufTy).Contents (Elt F)),
    binary main_v27 main_v28 main_v29 (Host.divf : (⟨S4x4096x1, .f32⟩ : BufTy).Contents (Elt F) → (⟨S4x4096x1, .f32⟩ : BufTy).Contents (Elt F) → (⟨S4x4096x1, .f32⟩ : BufTy).Contents (Elt F)),
    nullary main_cst_2 (constant S_ .f32 0x322BCC77#32),
    unary main_cst_2 main_v30 (broadcastInDim S4x4096x1 ![] bcast_S_S4x4096x1 : (⟨S_, .f32⟩ : BufTy).Contents (Elt F) → (⟨S4x4096x1, .f32⟩ : BufTy).Contents (Elt F)),
    binary main_v29 main_v30 main_v31 (maximumf : (⟨S4x4096x1, .f32⟩ : BufTy).Contents (Elt F) → (⟨S4x4096x1, .f32⟩ : BufTy).Contents (Elt F) → (⟨S4x4096x1, .f32⟩ : BufTy).Contents (Elt F)),
    unary main_v31 main_v32 (broadcastInDim S4x4096x2944 ![0, 1, 2] bcast_S4x4096x1_S4x4096x2944_0_1_2 : (⟨S4x4096x1, .f32⟩ : BufTy).Contents (Elt F) → (⟨S4x4096x2944, .f32⟩ : BufTy).Contents (Elt F)),
    binary main_v22 main_v32 main_v33 (Host.divf : (⟨S4x4096x2944, .f32⟩ : BufTy).Contents (Elt F) → (⟨S4x4096x2944, .f32⟩ : BufTy).Contents (Elt F) → (⟨S4x4096x2944, .f32⟩ : BufTy).Contents (Elt F)),
    TRef.unary (TRef.of (T := ⟨S4x4096x2944, .f32⟩) main_v33) (TRef.of (T := ⟨S4x4096x2944, .f32⟩) main_v34) Host.roundeven,
    nullary main_cst_3 (constant S_ .f32 0xC1000000#32),
    nullary main_cst_4 (constant S_ .f32 0x40E00000#32),
    TRef.unary (TRef.of (T := ⟨S_, .f32⟩) main_cst_3) (TRef.of (T := ⟨S_, .f32⟩) main_call3_v0) id,
    TRef.unary (TRef.of (T := ⟨S_, .f32⟩) main_call3_v0) (TRef.of (T := ⟨S4x4096x2944, .f32⟩) main_call3_v1) (broadcastInDim S4x4096x2944 ![] bcast_S_S4x4096x2944),
    TRef.binary (TRef.of (T := ⟨S4x4096x2944, .f32⟩) main_call3_v1) (TRef.of (T := ⟨S4x4096x2944, .f32⟩) main_v34) (TRef.of (T := ⟨S4x4096x2944, .f32⟩) main_call3_v2) maximumf,
    TRef.unary (TRef.of (T := ⟨S_, .f32⟩) main_cst_4) (TRef.of (T := ⟨S_, .f32⟩) main_call3_v3) id,
    TRef.unary (TRef.of (T := ⟨S_, .f32⟩) main_call3_v3) (TRef.of (T := ⟨S4x4096x2944, .f32⟩) main_call3_v4) (broadcastInDim S4x4096x2944 ![] bcast_S_S4x4096x2944),
    TRef.binary (TRef.of (T := ⟨S4x4096x2944, .f32⟩) main_call3_v4) (TRef.of (T := ⟨S4x4096x2944, .f32⟩) main_call3_v2) (TRef.of (T := ⟨S4x4096x2944, .f32⟩) main_v35) minimumf,
    unary main_arg1 main_v36 (Host.absf : (⟨S384x2944, .f32⟩ : BufTy).Contents (Elt F) → (⟨S384x2944, .f32⟩ : BufTy).Contents (Elt F)),
    nullary main_cst_5 (constant S_ .f32 0xFF800000#32),
    binary main_v36 main_cst_5 main_v37 ((fun x v => Host.reduce FloatOps.maximumf x v reducesTo_S384x2944_S384_d1 h_S_) : (⟨S384x2944, .f32⟩ : BufTy).Contents (Elt F) → (⟨S_, .f32⟩ : BufTy).Contents (Elt F) → (⟨S384, .f32⟩ : BufTy).Contents (Elt F)),
    unary main_v37 main_v38 (broadcastInDim S384x1 ![0] bcast_S384_S384x1_0 : (⟨S384, .f32⟩ : BufTy).Contents (Elt F) → (⟨S384x1, .f32⟩ : BufTy).Contents (Elt F)),
    nullary main_cst_6 (constant S_ .f32 0x40E00000#32),
    unary main_cst_6 main_v39 (broadcastInDim S384x1 ![] bcast_S_S384x1 : (⟨S_, .f32⟩ : BufTy).Contents (Elt F) → (⟨S384x1, .f32⟩ : BufTy).Contents (Elt F)),
    binary main_v38 main_v39 main_v40 (Host.divf : (⟨S384x1, .f32⟩ : BufTy).Contents (Elt F) → (⟨S384x1, .f32⟩ : BufTy).Contents (Elt F) → (⟨S384x1, .f32⟩ : BufTy).Contents (Elt F)),
    nullary main_cst_7 (constant S_ .f32 0x322BCC77#32),
    unary main_cst_7 main_v41 (broadcastInDim S384x1 ![] bcast_S_S384x1 : (⟨S_, .f32⟩ : BufTy).Contents (Elt F) → (⟨S384x1, .f32⟩ : BufTy).Contents (Elt F)),
    binary main_v40 main_v41 main_v42 (maximumf : (⟨S384x1, .f32⟩ : BufTy).Contents (Elt F) → (⟨S384x1, .f32⟩ : BufTy).Contents (Elt F) → (⟨S384x1, .f32⟩ : BufTy).Contents (Elt F)),
    unary main_v42 main_v43 (broadcastInDim S384x2944 ![0, 1] bcast_S384x1_S384x2944_0_1 : (⟨S384x1, .f32⟩ : BufTy).Contents (Elt F) → (⟨S384x2944, .f32⟩ : BufTy).Contents (Elt F)),
    binary main_arg1 main_v43 main_v44 (Host.divf : (⟨S384x2944, .f32⟩ : BufTy).Contents (Elt F) → (⟨S384x2944, .f32⟩ : BufTy).Contents (Elt F) → (⟨S384x2944, .f32⟩ : BufTy).Contents (Elt F)),
    TRef.unary (TRef.of (T := ⟨S384x2944, .f32⟩) main_v44) (TRef.of (T := ⟨S384x2944, .f32⟩) main_v45) Host.roundeven,
    nullary main_cst_8 (constant S_ .f32 0xC1000000#32),
    nullary main_cst_9 (constant S_ .f32 0x40E00000#32),
    TRef.unary (TRef.of (T := ⟨S_, .f32⟩) main_cst_8) (TRef.of (T := ⟨S_, .f32⟩) main_call5_v0) id,
    TRef.unary (TRef.of (T := ⟨S_, .f32⟩) main_call5_v0) (TRef.of (T := ⟨S384x2944, .f32⟩) main_call5_v1) (broadcastInDim S384x2944 ![] bcast_S_S384x2944),
    TRef.binary (TRef.of (T := ⟨S384x2944, .f32⟩) main_call5_v1) (TRef.of (T := ⟨S384x2944, .f32⟩) main_v45) (TRef.of (T := ⟨S384x2944, .f32⟩) main_call5_v2) maximumf,
    TRef.unary (TRef.of (T := ⟨S_, .f32⟩) main_cst_9) (TRef.of (T := ⟨S_, .f32⟩) main_call5_v3) id,
    TRef.unary (TRef.of (T := ⟨S_, .f32⟩) main_call5_v3) (TRef.of (T := ⟨S384x2944, .f32⟩) main_call5_v4) (broadcastInDim S384x2944 ![] bcast_S_S384x2944),
    TRef.binary (TRef.of (T := ⟨S384x2944, .f32⟩) main_call5_v4) (TRef.of (T := ⟨S384x2944, .f32⟩) main_call5_v2) (TRef.of (T := ⟨S384x2944, .f32⟩) main_v46) minimumf,
    binary main_v35 main_v46 main_v47 ((fun l r => Host.dotGeneral dot_S4x4096x2944_S384x2944_S4x4096x384_2_1_01_0_n_n none l r) : (⟨S4x4096x2944, .f32⟩ : BufTy).Contents (Elt F) → (⟨S384x2944, .f32⟩ : BufTy).Contents (Elt F) → (⟨S4x4096x384, .f32⟩ : BufTy).Contents (Elt F)),
    unary main_v31 main_v48 (broadcastInDim S4x4096x384 ![0, 1, 2] bcast_S4x4096x1_S4x4096x384_0_1_2 : (⟨S4x4096x1, .f32⟩ : BufTy).Contents (Elt F) → (⟨S4x4096x384, .f32⟩ : BufTy).Contents (Elt F)),
    binary main_v47 main_v48 main_v49 (mulf : (⟨S4x4096x384, .f32⟩ : BufTy).Contents (Elt F) → (⟨S4x4096x384, .f32⟩ : BufTy).Contents (Elt F) → (⟨S4x4096x384, .f32⟩ : BufTy).Contents (Elt F)),
    reshape main_v42 main_v50 rfl shapeCasts_S384x1_S384,
    unary main_v50 main_v51 (broadcastInDim S1x1x384 ![2] bcast_S384_S1x1x384_2 : (⟨S384, .f32⟩ : BufTy).Contents (Elt F) → (⟨S1x1x384, .f32⟩ : BufTy).Contents (Elt F)),
    unary main_v51 main_v52 (broadcastInDim S4x4096x384 ![0, 1, 2] bcast_S1x1x384_S4x4096x384_0_1_2 : (⟨S1x1x384, .f32⟩ : BufTy).Contents (Elt F) → (⟨S4x4096x384, .f32⟩ : BufTy).Contents (Elt F)),
    binary main_v49 main_v52 main_v53 (mulf : (⟨S4x4096x384, .f32⟩ : BufTy).Contents (Elt F) → (⟨S4x4096x384, .f32⟩ : BufTy).Contents (Elt F) → (⟨S4x4096x384, .f32⟩ : BufTy).Contents (Elt F)),
    binary main_v53 main_v24 main_v54 (addf : (⟨S4x4096x384, .f32⟩ : BufTy).Contents (Elt F) → (⟨S4x4096x384, .f32⟩ : BufTy).Contents (Elt F) → (⟨S4x4096x384, .f32⟩ : BufTy).Contents (Elt F)),
    unary main_arg4 main_v55 (broadcastInDim S1x1x384 ![2] bcast_S384_S1x1x384_2 : (⟨S384, .f32⟩ : BufTy).Contents (Elt F) → (⟨S1x1x384, .f32⟩ : BufTy).Contents (Elt F)),
    unary main_v55 main_v56 (broadcastInDim S4x4096x384 ![0, 1, 2] bcast_S1x1x384_S4x4096x384_0_1_2 : (⟨S1x1x384, .f32⟩ : BufTy).Contents (Elt F) → (⟨S4x4096x384, .f32⟩ : BufTy).Contents (Elt F)),
    binary main_v54 main_v56 main_v57 (addf : (⟨S4x4096x384, .f32⟩ : BufTy).Contents (Elt F) → (⟨S4x4096x384, .f32⟩ : BufTy).Contents (Elt F) → (⟨S4x4096x384, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., reshape_bufs_sub .., unary_bufs_sub .., nullary_bufs_sub .., unary_bufs_sub .., binary_bufs_sub .., binary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., binary_bufs_sub .., unary_bufs_sub .., binary_bufs_sub .., reshape_bufs_sub .., unary_bufs_sub .., unary_bufs_sub .., binary_bufs_sub .., binary_bufs_sub .., unary_bufs_sub .., unary_bufs_sub .., binary_bufs_sub ..⟩

/-- The line is its six stretches, one after the other. -/
theorem ops_split : (ops : List (HloOp τ sig (Elt F))) = opsA1 ++ (opsA2a ++ (opsA2b ++ (opsB ++ (opsC ++ opsD)))) := rfl

/-! ## The whole line -/

/-- AFTER THE WHOLE LINE the result buffer holds the last stage, `val_main_v57`, of the arguments' contents:
    stretch by stretch, each buffer followed from where it is written to where it is read. -/
theorem result_eq (V : Valuation τ sig (Elt F)) :
    after (ops (F := F)) V (Proc.devRef (τ := τ) .tc main_v57)
      = val_main_v57 (F := F) (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) := by
  rw [ops_split, after_append, after_append, after_append, after_append, after_append]
  have hv19 := Stack_main_v19 (after opsA1 V) (V (Proc.devRef (τ := τ) .tc main_arg0))
    (A1_main_v10 V) (A1_main_v11 V) (A1_main_v12 V) (A1_main_v13 V) (A1_main_v14 V) (A1_main_v15 V) (A1_main_v16 V) (A1_main_v17 V) (A1_main_v18 V)
  have hv22 := Row_main_v22 (after opsA2a (after opsA1 V)) (V (Proc.devRef (τ := τ) .tc main_arg0)) hv19
  have h1 : after opsB (after opsA2b (after opsA2a (after opsA1 V))) (Proc.devRef (τ := τ) .tc main_arg1) = V (Proc.devRef (τ := τ) .tc main_arg1) :=
    (B_keeps_main_arg1 _).trans ((A2b_keeps_main_arg1 _).trans ((A2a_keeps_main_arg1 _).trans (A1_keeps_main_arg1 V)))
  have h2 : after opsA2b (after opsA2a (after opsA1 V)) (Proc.devRef (τ := τ) .tc main_arg2) = V (Proc.devRef (τ := τ) .tc main_arg2) :=
    (A2b_keeps_main_arg2 _).trans ((A2a_keeps_main_arg2 _).trans (A1_keeps_main_arg2 V))
  have h3 : after opsA2b (after opsA2a (after opsA1 V)) (Proc.devRef (τ := τ) .tc main_arg3) = V (Proc.devRef (τ := τ) .tc main_arg3) :=
    (A2b_keeps_main_arg3 _).trans ((A2a_keeps_main_arg3 _).trans (A1_keeps_main_arg3 V))
  have h4 : after opsC (after opsB (after opsA2b (after opsA2a (after opsA1 V)))) (Proc.devRef (τ := τ) .tc main_arg4) = V (Proc.devRef (τ := τ) .tc main_arg4) :=
    (C_keeps_main_arg4 _).trans ((B_keeps_main_arg4 _).trans ((A2b_keeps_main_arg4 _).trans ((A2a_keeps_main_arg4 _).trans (A1_keeps_main_arg4 V))))
  exact D_main_v57 _ _ _ _ _ _
    ((C_keeps_main_v35 _).trans (B_main_v35 _ _ hv22)) (C_main_v46 _ _ h1)
    ((C_keeps_main_v31 _).trans (B_main_v31 _ _ hv22)) (C_main_v42 _ _ h1)
    ((C_keeps_main_v24 _).trans (B_main_v24 _ _ _ _ hv22 h2 h3)) h4

set_option maxRecDepth 8192 in
set_option maxHeartbeats 8000000 in
/-- On every device, from any memory with zero counters: every weakly fair execution of @main terminates with the
    result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = val_main_v57 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v57).trans ((result_eq (launchContents m c)).trans rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.RefRun

end
-- ==== Proof.Spec.lean ====
/-
  One entry of the result, as mathematics on the extended reals.

  A token — an image `n` and an output pixel `l = h·64 + w` — sees a row `a` of 2880 features: the 320 channels at
  each of the nine taps of the 3×3 window around the pixel in the image padded by one zero pixel on every side.
  The entry for output channel `o` is

      ((∑ κ, q (a κ) · qw κ) · s · sw  +  ∑ r, (∑ κ, a κ · pd κ r) · pu r)  +  bias,

  where `s = max (max_κ |a κ| / 7) ε` is the row's quantisation step, `q y = min 7 (max (−8) (round (y / s)))` the
  4-bit code of an entry (rounding to nearest, ties to even), `qw` the codes of the weight row of channel `o`,
  `sw` that row's own step, and the second sum the low-rank branch `(a · pd) · pu`.

  The features of a row can be listed in any order, and a row may be lengthened by zeros: a zero entry has
  code zero, adds nothing to either sum and does not raise the maximum of the absolute values.  `rowOut` is
  therefore stated over an arbitrary finite feature type; `G` lists the 2880 features tap by tap
  (feature `t·320 + c`), `refRow` channel by channel (feature `c·9 + t`) followed by 64 zeros.
-/
import Idealize.ShloMosaic.PureOps.Ideal
import Idealize.ShloMosaic.Lib.ValueIdx

noncomputable section

namespace Cert.Spec

open Idealize.ShloMosaic Idealize.ShloMosaic.ValueIdx

/-- The four float literals of the quantiser, as the extended reals their binary32 words denote:
    `−∞` (where a maximum starts), `7`, `−8`, and the floor `ε ≈ 10⁻⁸` of a step. -/
abbrev negInf : EReal := Ideal.ofBits .f32 0xFF800000#32
abbrev seven : EReal := Ideal.ofBits .f32 0x40E00000#32
abbrev negEight : EReal := Ideal.ofBits .f32 0xC1000000#32
abbrev eps : EReal := Ideal.ofBits .f32 0x322BCC77#32

/-- The largest absolute value of a row (`−∞` for an empty row). -/
def rowMax {κ : Type} [Fintype κ] (a : κ → EReal) : EReal :=
  (Finset.univ : Finset κ).fold max negInf (fun k => max (a k) (-(a k)))

/-- The quantisation step of a row: a seventh of its largest absolute value, but at least `ε`. -/
def step {κ : Type} [Fintype κ] (a : κ → EReal) : EReal :=
  max (Ideal.div (rowMax a) seven) eps

/-- The 4-bit code of `y` at step `s`: `y / s` rounded to nearest (ties to even) and clipped to `[−8, 7]`. -/
def quant (s y : EReal) : EReal :=
  min seven (max negEight (Ideal.liftRound Ideal.roundHalfEven (Ideal.div y s)))

/-- One entry of the result from a token's feature row `a`, the weight codes `qw` and step `sw` of the output
    channel, the low-rank factors `pd`, `pu` and the bias `b`. -/
def rowOut {κ ρ : Type} [Fintype κ] [Fintype ρ] (a qw : κ → EReal) (pd : κ → ρ → EReal) (pu : ρ → EReal)
    (sw b : EReal) : EReal :=
  ((∑ k, quant (step a) (a k) * qw k) * step a * sw + ∑ r, (∑ k, a k * pd k r) * pu r) + b

/-- The image padded by one zero pixel on each side of both spatial axes, read at row `y` and column `z`
    of the padded image (`0 ≤ y, z ≤ 65`; rows and columns 1 … 64 are the image's own). -/
def padded (x : (⟨4, ![4, 320, 64, 64]⟩ : Shape).Idx → EReal) (n : Fin 4) (c : Fin 320) (y z : Nat) : EReal :=
  if h : 1 ≤ y ∧ y ≤ 64 ∧ 1 ≤ z ∧ z ≤ 64 then x (ix4 n c ⟨y - 1, by omega⟩ ⟨z - 1, by omega⟩) else 0

/-- Feature `k = t·320 + c` of a tap-by-tap row: its channel `c`, its tap `t = i·3 + j`, and its place
    `c·9 + t` in a channel-by-channel row of 2944. -/
def chan (k : Fin 2880) : Fin 320 := ⟨k.val % 320, Nat.mod_lt _ (by norm_num)⟩
def tap (k : Fin 2880) : Fin 9 := ⟨k.val / 320, by have := k.isLt; omega⟩
def refFeat (k : Fin 2880) : Fin 2944 := ⟨(k.val % 320) * 9 + k.val / 320, by have := k.isLt; omega⟩

/-- The feature row of token `(n, l)`, tap by tap: feature `t·320 + c` is channel `c` of the padded image at
    row `l / 64 + t / 3`, column `l % 64 + t % 3`. -/
def patch (x : (⟨4, ![4, 320, 64, 64]⟩ : Shape).Idx → EReal) (n : Fin 4) (l : Fin 4096) (k : Fin 2880) : EReal :=
  padded x n (chan k) (l.val / 64 + (tap k).val / 3) (l.val % 64 + (tap k).val % 3)

/-- The same row channel by channel and lengthened to 2944 by zeros: feature `c·9 + t` for `c·9 + t < 2880`. -/
def refRow (x : (⟨4, ![4, 320, 64, 64]⟩ : Shape).Idx → EReal) (n : Fin 4) (l : Fin 4096) (k : Fin 2944) : EReal :=
  if h : k.val < 2880 then
    padded x n ⟨k.val / 9, by omega⟩ (l.val / 64 + (k.val % 9) / 3) (l.val % 64 + (k.val % 9) % 3)
  else 0

/-- THE RESULT: entry `(n, l, o)` from the image `x`, the weight codes `qw` [384, 2944] and steps `sw` [384, 1],
    the low-rank factors `pd` [2944, 32], `pu` [32, 384] and the bias. -/
def G (x : (⟨4, ![4, 320, 64, 64]⟩ : Shape).Idx → EReal) (qw : (⟨2, ![384, 2944]⟩ : Shape).Idx → EReal)
    (sw : (⟨2, ![384, 1]⟩ : Shape).Idx → EReal) (pd : (⟨2, ![2944, 32]⟩ : Shape).Idx → EReal)
    (pu : (⟨2, ![32, 384]⟩ : Shape).Idx → EReal) (bias : (⟨1, ![384]⟩ : Shape).Idx → EReal) :
    (⟨3, ![4, 4096, 384]⟩ : Shape).Idx → EReal := fun i =>
  rowOut (κ := Fin 2880) (ρ := Fin 32) (patch x (i 0) (i 1)) (fun k => qw (ix2 (i 2) (refFeat k)))
    (fun k r => pd (ix2 (refFeat k) r)) (fun r => pu (ix2 r (i 2))) (sw (ix2 (i 2) (0 : Fin 1))) (bias (ix1 (i 2)))

theorem G_apply (x : (⟨4, ![4, 320, 64, 64]⟩ : Shape).Idx → EReal) (qw : (⟨2, ![384, 2944]⟩ : Shape).Idx → EReal)
    (sw : (⟨2, ![384, 1]⟩ : Shape).Idx → EReal) (pd : (⟨2, ![2944, 32]⟩ : Shape).Idx → EReal)
    (pu : (⟨2, ![32, 384]⟩ : Shape).Idx → EReal) (bias : (⟨1, ![384]⟩ : Shape).Idx → EReal)
    (n : Fin 4) (l : Fin 4096) (o : Fin 384) :
    G x qw sw pd pu bias (ix3 n l o)
      = rowOut (κ := Fin 2880) (ρ := Fin 32) (patch x n l) (fun k => qw (ix2 o (refFeat k)))
          (fun k r => pd (ix2 (refFeat k) r)) (fun r => pu (ix2 r o)) (sw (ix2 o (0 : Fin 1))) (bias (ix1 o)) := rfl

end Cert.Spec

end
-- ==== Proof.KernelBody.lean ====
/-
  What one grid point's body leaves in the output block.

  At grid point (n, rt) the body loads six rows of image n's padded slab, from row 4·rt on — call that window
  `w` — and copies it nine times into the scratch block [256, 2880]: tap (a, b) of the 3×3 stencil fills columns
  (3a+b)·320 … (3a+b)·320 + 319, and row r = hh·64 + ww of that piece is the window at row hh + a, column ww + b
  (all 320 channels).  So after the nine stores the scratch block is ONE function of the window,

      feat w (r, k) = w (0, r / 64 + (k / 320) / 3, r % 64 + (k / 320) % 3, k % 320):

  row r holds the 2880 features of output pixel r of the tile, tap by tap.  Everything else the body computes
  is the last store's payload applied to that block.
-/
import proofs.«101718_j84739704750320_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Ring
import Idealize.ShloMosaic.Lib.Tactic

set_option maxRecDepth 16384

noncomputable section

namespace Cert.KernelBody

open Cert.KernelIdeal Cert.KernelIdeal.Gen Idealize.ShloMosaic Idealize.ShloMosaic.TcCoe Idealize.ShloMosaic.Tactic
open Idealize.ShloMosaic.ValueIdx Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Feature `k` of tile row `r`, read off the window: channel `k % 320` at the pixel of row `r` shifted by tap
    `k / 320 = 3a + b`, that is `a` rows down and `b` columns right. -/
def featAt (w : Vec F S1x6x66x320 .f32) (r : Fin 256) (k : Fin 2880) : Elt F .f32 :=
  w (ix4 (0 : Fin 1) (⟨r.val / 64 + k.val / 320 / 3, by have := r.isLt; have := k.isLt; omega⟩ : Fin 6)
    (⟨r.val % 64 + k.val / 320 % 3, by have := k.isLt; omega⟩ : Fin 66) (⟨k.val % 320, Nat.mod_lt _ (by norm_num)⟩ : Fin 320))

/-- The scratch block after the nine stores, as one function of the window. -/
def feat (w : Vec F S1x6x66x320 .f32) : Vec F S256x2880 .f32 := fun j => featAt w (j 0) (j 1)

theorem feat_apply (w : Vec F S1x6x66x320 .f32) (r : Fin 256) (k : Fin 2880) : feat w (ix2 r k) = featAt w r k := rfl

/-- One tap of the stencil as a [256, 320] piece: the window with its leading unit axis dropped, sliced at
    rows `a … a+3` and columns `b … b+63`, and its 4×64 pixels laid out as 256 rows.  Row `r` is pixel
    `(r / 64, r % 64)` of the slice, hence the window at row `r / 64 + a`, column `r % 64 + b`. -/
theorem tap_apply (w : Vec F S1x6x66x320 .f32) (a b : Nat) (ha : a ≤ 2) (hb : b ≤ 2)
    (hc0 : S1x6x66x320.ShapeCasts S6x66x320) (hs : S6x66x320.Slices ![a, b, 0] S4x64x320)
    (hc1 : S4x64x320.ShapeCasts S256x320) (r : Fin 256) (c : Fin 320) :
    shapeCast S256x320 (extractStridedSlice S4x64x320 ![a, b, 0] (shapeCast S6x66x320 w hc0) hs) hc1 (ix2 r c)
      = w (ix4 (0 : Fin 1) (⟨r.val / 64 + a, by have := r.isLt; omega⟩ : Fin 6) (⟨r.val % 64 + b, by omega⟩ : Fin 66) c) := by
  have hr := r.isLt
  refine (shapeCast_apply _ hc1 (ix2 r c)
    (ix3 (⟨r.val / 64, by omega⟩ : Fin 4) (⟨r.val % 64, Nat.mod_lt _ (by norm_num)⟩ : Fin 64) c) ?_).trans ?_
  · rw [Shape.rowMajor_val_three, Shape.rowMajor_val_two]
    show (r.val / 64 * 64 + r.val % 64) * 320 + c.val = r.val * 320 + c.val
    have := Nat.div_add_mod r.val 64
    omega
  refine (extractStridedSlice_apply _ _ hs _
    (ix3 (⟨r.val / 64 + a, by omega⟩ : Fin 6) (⟨r.val % 64 + b, by omega⟩ : Fin 66) c) ?_).trans ?_
  · intro d
    match d with
    | ⟨0, _⟩ => show r.val / 64 + a = a + r.val / 64; omega
    | ⟨1, _⟩ => show r.val % 64 + b = b + r.val % 64; omega
    | ⟨2, _⟩ => show c.val = 0 + c.val; omega
  exact shapeCast_1abc_abc_apply w hc0 _ _ _

/-- The piece of tap `(a, b)`, stored at columns `off = 320·(3a+b)` on, is the block of `feat w` its rectangle
    names: at local index `(r, c)` the array index is `(r, off + c)`, whose tap is `(off + c) / 320 = 3a + b` and
    whose channel is `c`. -/
theorem piece_eq (w : Vec F S1x6x66x320 .f32) (a b : Nat) (ha : a ≤ 2) (hb : b ≤ 2)
    (hc0 : S1x6x66x320.ShapeCasts S6x66x320) (hs : S6x66x320.Slices ![a, b, 0] S4x64x320)
    (hc1 : S4x64x320.ShapeCasts S256x320) (off : Nat) (hoff : off = 320 * (3 * a + b))
    (inb : ∀ d, (![0, off] : Fin 2 → Nat) d + S256x320.size d ≤ S256x2880.size d)
    (x : (Rect.unit (s := S256x2880) ![0, off] S256x320.size inb).shape.Idx) :
    shapeCast S256x320 (extractStridedSlice S4x64x320 ![a, b, 0] (shapeCast S6x66x320 w hc0) hs) hc1 x
      = feat w ((Rect.unit (s := S256x2880) ![0, off] S256x320.size inb).emb x) := by
  obtain ⟨r, c, rfl⟩ : ∃ (r : Fin 256) (c : Fin 320), x = ix2 r c := ⟨x 0, x 1, eq_ix2 x⟩
  have hr := r.isLt
  have hc := c.isLt
  rw [tap_apply w a b ha hb hc0 hs hc1 r c]
  unfold feat featAt
  refine congrArg w (funext fun d => Fin.ext ?_)
  match d with
  | ⟨0, _⟩ => rfl
  | ⟨1, _⟩ =>
    show r.val / 64 + a = (0 + 1 * r.val) / 64 + (off + 1 * c.val) / 320 / 3
    subst hoff; omega
  | ⟨2, _⟩ =>
    show r.val % 64 + b = (0 + 1 * r.val) % 64 + (off + 1 * c.val) / 320 % 3
    subst hoff; omega
  | ⟨3, _⟩ =>
    show c.val = (off + 1 * c.val) % 320
    subst hoff; omega

/-! Each store's payload is one tap of the window: the body re-casts the [256, 320] piece to its own shape once
    more before storing it, which changes nothing. -/
theorem pay_tap0 (w : Vec F S1x6x66x320 .f32) :
    k0_pay3 w = shapeCast S256x320 (extractStridedSlice S4x64x320 ![0, 0, 0]
      (shapeCast S6x66x320 w shapeCasts_S1x6x66x320_S6x66x320) slices_S6x66x320_o0_0_0_S4x64x320) shapeCasts_S4x64x320_S256x320 :=
  shapeCast_self _ _
theorem pay_tap1 (w : Vec F S1x6x66x320 .f32) :
    k0_pay4 w = shapeCast S256x320 (extractStridedSlice S4x64x320 ![0, 1, 0]
      (shapeCast S6x66x320 w shapeCasts_S1x6x66x320_S6x66x320) slices_S6x66x320_o0_1_0_S4x64x320) shapeCasts_S4x64x320_S256x320 :=
  shapeCast_self _ _
theorem pay_tap2 (w : Vec F S1x6x66x320 .f32) :
    k0_pay5 w = shapeCast S256x320 (extractStridedSlice S4x64x320 ![0, 2, 0]
      (shapeCast S6x66x320 w shapeCasts_S1x6x66x320_S6x66x320) slices_S6x66x320_o0_2_0_S4x64x320) shapeCasts_S4x64x320_S256x320 :=
  shapeCast_self _ _
theorem pay_tap3 (w : Vec F S1x6x66x320 .f32) :
    k0_pay6 w = shapeCast S256x320 (extractStridedSlice S4x64x320 ![1, 0, 0]
      (shapeCast S6x66x320 w shapeCasts_S1x6x66x320_S6x66x320) slices_S6x66x320_o1_0_0_S4x64x320) shapeCasts_S4x64x320_S256x320 :=
  shapeCast_self _ _
theorem pay_tap4 (w : Vec F S1x6x66x320 .f32) :
    k0_pay7 w = shapeCast S256x320 (extractStridedSlice S4x64x320 ![1, 1, 0]
      (shapeCast S6x66x320 w shapeCasts_S1x6x66x320_S6x66x320) slices_S6x66x320_o1_1_0_S4x64x320) shapeCasts_S4x64x320_S256x320 :=
  shapeCast_self _ _
theorem pay_tap5 (w : Vec F S1x6x66x320 .f32) :
    k0_pay8 w = shapeCast S256x320 (extractStridedSlice S4x64x320 ![1, 2, 0]
      (shapeCast S6x66x320 w shapeCasts_S1x6x66x320_S6x66x320) slices_S6x66x320_o1_2_0_S4x64x320) shapeCasts_S4x64x320_S256x320 :=
  shapeCast_self _ _
theorem pay_tap6 (w : Vec F S1x6x66x320 .f32) :
    k0_pay10 (k0_pay9 w) = shapeCast S256x320 (extractStridedSlice S4x64x320 ![2, 0, 0]
      (shapeCast S6x66x320 w shapeCasts_S1x6x66x320_S6x66x320) slices_S6x66x320_o2_0_0_S4x64x320) shapeCasts_S4x64x320_S256x320 :=
  shapeCast_self _ _
theorem pay_tap7 (w : Vec F S1x6x66x320 .f32) :
    k0_pay11 (k0_pay2 w) = shapeCast S256x320 (extractStridedSlice S4x64x320 ![2, 1, 0]
      (shapeCast S6x66x320 w shapeCasts_S1x6x66x320_S6x66x320) slices_S6x66x320_o2_1_0_S4x64x320) shapeCasts_S4x64x320_S256x320 :=
  shapeCast_self _ _
theorem pay_tap8 (w : Vec F S1x6x66x320 .f32) :
    k0_pay12 (k0_pay2 w) = shapeCast S256x320 (extractStridedSlice S4x64x320 ![2, 2, 0]
      (shapeCast S6x66x320 w shapeCasts_S1x6x66x320_S6x66x320) slices_S6x66x320_o2_2_0_S4x64x320) shapeCasts_S4x64x320_S256x320 :=
  shapeCast_self _ _

/-- The nine stores into the scratch block, last first: tap `t = 3a + b` at columns `320·t` on. -/
def pieces (w : Vec F S1x6x66x320 .f32) : List (View.Piece (Elt F) S256x2880 .f32) :=
  [ ⟨Rect.unit (s := S256x2880) ![0, 2560] S256x320.size inb_S256x2880_S256x320_0_2560, k0_pay12 (k0_pay2 w)⟩,
    ⟨Rect.unit (s := S256x2880) ![0, 2240] S256x320.size inb_S256x2880_S256x320_0_2240, k0_pay11 (k0_pay2 w)⟩,
    ⟨Rect.unit (s := S256x2880) ![0, 1920] S256x320.size inb_S256x2880_S256x320_0_1920, k0_pay10 (k0_pay9 w)⟩,
    ⟨Rect.unit (s := S256x2880) ![0, 1600] S256x320.size inb_S256x2880_S256x320_0_1600, k0_pay8 w⟩,
    ⟨Rect.unit (s := S256x2880) ![0, 1280] S256x320.size inb_S256x2880_S256x320_0_1280, k0_pay7 w⟩,
    ⟨Rect.unit (s := S256x2880) ![0, 960] S256x320.size inb_S256x2880_S256x320_0_960, k0_pay6 w⟩,
    ⟨Rect.unit (s := S256x2880) ![0, 640] S256x320.size inb_S256x2880_S256x320_0_640, k0_pay5 w⟩,
    ⟨Rect.unit (s := S256x2880) ![0, 320] S256x320.size inb_S256x2880_S256x320_0_320, k0_pay4 w⟩,
    ⟨Rect.unit (s := S256x2880) ![0, 0] S256x320.size inb_S256x2880_S256x320_0_0, k0_pay3 w⟩ ]

/-- The nine column pieces tile the scratch block. -/
theorem pieces_cover (w : Vec F S1x6x66x320 .f32) (y : S256x2880.Idx) : ∃ p ∈ pieces w, y ∈ p.1.set :=
  View.cover_of_tiledL (pieces w) S256x320.size (by sl_kernel_rfl) y

/-- Each stored piece is the block of `feat w` under its rectangle. -/
theorem pieces_eq (w : Vec F S1x6x66x320 .f32) :
    ∀ p ∈ pieces w, ∀ x : p.1.shape.Idx, p.2 x = feat w (p.1.emb x) := by
  intro p hp
  simp only [pieces, List.mem_cons, List.not_mem_nil, or_false] at hp
  rcases hp with rfl | rfl | rfl | rfl | rfl | rfl | rfl | rfl | rfl
  · intro x; exact (congrFun (pay_tap8 w) x).trans (piece_eq w 2 2 (by omega) (by omega) shapeCasts_S1x6x66x320_S6x66x320 slices_S6x66x320_o2_2_0_S4x64x320 shapeCasts_S4x64x320_S256x320 2560 rfl inb_S256x2880_S256x320_0_2560 x)
  · intro x; exact (congrFun (pay_tap7 w) x).trans (piece_eq w 2 1 (by omega) (by omega) shapeCasts_S1x6x66x320_S6x66x320 slices_S6x66x320_o2_1_0_S4x64x320 shapeCasts_S4x64x320_S256x320 2240 rfl inb_S256x2880_S256x320_0_2240 x)
  · intro x; exact (congrFun (pay_tap6 w) x).trans (piece_eq w 2 0 (by omega) (by omega) shapeCasts_S1x6x66x320_S6x66x320 slices_S6x66x320_o2_0_0_S4x64x320 shapeCasts_S4x64x320_S256x320 1920 rfl inb_S256x2880_S256x320_0_1920 x)
  · intro x; exact (congrFun (pay_tap5 w) x).trans (piece_eq w 1 2 (by omega) (by omega) shapeCasts_S1x6x66x320_S6x66x320 slices_S6x66x320_o1_2_0_S4x64x320 shapeCasts_S4x64x320_S256x320 1600 rfl inb_S256x2880_S256x320_0_1600 x)
  · intro x; exact (congrFun (pay_tap4 w) x).trans (piece_eq w 1 1 (by omega) (by omega) shapeCasts_S1x6x66x320_S6x66x320 slices_S6x66x320_o1_1_0_S4x64x320 shapeCasts_S4x64x320_S256x320 1280 rfl inb_S256x2880_S256x320_0_1280 x)
  · intro x; exact (congrFun (pay_tap3 w) x).trans (piece_eq w 1 0 (by omega) (by omega) shapeCasts_S1x6x66x320_S6x66x320 slices_S6x66x320_o1_0_0_S4x64x320 shapeCasts_S4x64x320_S256x320 960 rfl inb_S256x2880_S256x320_0_960 x)
  · intro x; exact (congrFun (pay_tap2 w) x).trans (piece_eq w 0 2 (by omega) (by omega) shapeCasts_S1x6x66x320_S6x66x320 slices_S6x66x320_o0_2_0_S4x64x320 shapeCasts_S4x64x320_S256x320 640 rfl inb_S256x2880_S256x320_0_640 x)
  · intro x; exact (congrFun (pay_tap1 w) x).trans (piece_eq w 0 1 (by omega) (by omega) shapeCasts_S1x6x66x320_S6x66x320 slices_S6x66x320_o0_1_0_S4x64x320 shapeCasts_S4x64x320_S256x320 320 rfl inb_S256x2880_S256x320_0_320 x)
  · intro x; exact (congrFun (pay_tap0 w) x).trans (piece_eq w 0 0 (by omega) (by omega) shapeCasts_S1x6x66x320_S6x66x320 slices_S6x66x320_o0_0_0_S4x64x320 shapeCasts_S4x64x320_S256x320 0 rfl inb_S256x2880_S256x320_0_0 x)

/-- So a load of the whole scratch block after the nine stores reads `feat w`, through any view of the block. -/
theorem scratch_eq {sig' : RefSig} {κ : Kind} {sp : Space} (v : View sig' κ sp S256x2880 .f32) (w : Vec F S1x6x66x320 .f32) :
    v.readCov (pieces w) (Rect.unit (s := S256x2880) ![0, 0] S256x2880.size inb_S256x2880_S256x2880_0_0).toLoadRect = feat w := by
  rw [View.readCov_eq_canon_ld v (pieces w) _ (pieces_cover w), View.ld_unit_zero (S := S256x2880) hz2]
  funext y
  exact View.canon_apply_of_pieces (feat w) (pieces w) (pieces_eq w) y (pieces_cover w y)

/-- The window the body loads at a grid point: six rows of the slab from row `k0_off1 i 1` on. -/
abbrev win (i : grid0.Coords) (x0 : Vec F S1x66x66x320 .f32) : Vec F S1x6x66x320 .f32 :=
  View.ld x0 (Rect.unit (s := S1x66x66x320) (k0_off1 i) S1x6x66x320.size (k0_off1_inb i))

/-- WHAT THE BODY LEAVES in the output's staging buffer: its one covering store's payload, over the scratch
    block `feat (win i x0)` and the five other input blocks read whole. -/
theorem out_A (c : Dev nD) (i : grid0.Coords) (arg2 : Memref sig .tc .vmem S1x66x66x320 .f32) (harg2 : arg2.IsWhole) (arg3 : Memref sig .tc .vmem S2880x384 .bf16) (harg3 : arg3.IsWhole) (arg4 : Memref sig .tc .vmem S2880x32 .bf16) (harg4 : arg4.IsWhole) (arg5 : Memref sig .tc .vmem S32x384 .bf16) (harg5 : arg5.IsWhole) (arg6 : Memref sig .tc .vmem S1x384 .f32) (harg6 : arg6.IsWhole) (arg7 : Memref sig .tc .vmem S1x384 .f32) (harg7 : arg7.IsWhole) (arg8 : Memref sig .tc .vmem S1x256x384 .f32) (harg8 : arg8.IsWhole) (arg9 : Memref sig .tc .vmem S256x2880 .f32) (harg9 : arg9.IsWhole)
    (x0 : Vec F S1x66x66x320 .f32) (x1 : Vec F S2880x384 .bf16) (x2 : Vec F S2880x32 .bf16) (x3 : Vec F S32x384 .bf16) (x4 : Vec F S1x384 .f32) (x5 : Vec F S1x384 .f32) :
    out0_A_6 c i arg2 harg2 arg3 harg3 arg4 harg4 arg5 harg5 arg6 harg6 arg7 harg7 arg8 harg8 arg9 harg9 x0 x1 x2 x3 x4 x5
      = k0_pay1 (k0_pay13 (feat (win i x0))) (k0_pay14 (feat (win i x0)) x1) (k0_pay15 (feat (win i x0)) x2) x3 x4 x5 := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  sl_unfold_run_names
  rw [View.canon_unit_zero hz3]
  simp only [View.readAt_eq_ld, harg2.read_unread, harg3.read_unread, harg4.read_unread, harg5.read_unread,
    harg6.read_unread, harg7.read_unread, View.ld_unit_zero (S := S2880x384) hz2, View.ld_unit_zero (S := S2880x32) hz2,
    View.ld_unit_zero (S := S32x384) hz2, View.ld_unit_zero (S := S1x384) hz2]
  have h := scratch_eq (F := F) arg9.view (win i x0)
  unfold pieces at h
  rw [h]

end Cert.KernelBody

end
-- ==== Proof.HostSide.lean ====
/-
  The host side of the kernel program, read at one entry.

  Before its one region the program prepares, from the five arguments (the image `x` [4, 320, 64, 64], the
  weights `w` [384, 2944], the down-projection `pd` [2944, 32], the up-projection `pu` [32, 384] and the bias
  [384]), the six arrays the region reads:

    * the image with its channels moved last and one zero pixel added on each side of both spatial axes,
      [4, 66, 66, 320];
    * the 4-bit codes of the weights: `w` is quantised row by row — row `o` has the step
      `s o = max (max_κ |w o κ| / 7) ε` and the codes `min 7 (max (−8) (round (w o κ / s o)))` — and the first
      2880 columns of the codes are then RE-LAID: the feature axis, which the arguments list channel by channel
      (feature `c·9 + t` for channel `c` and tap `t`), is listed tap by tap (feature `t·320 + c`), by splitting
      it into (channel, tap), exchanging the two, and merging them again; the matrix is transposed on the way,
      [2880, 384];
    * the down-projection, its first 2880 rows re-laid in the same way, [2880, 32];
    * the up-projection, unchanged, [32, 384];
    * the weight rows' steps as one row, [1, 384], and the bias as one row, [1, 384].

  A change of float format is the identity on the extended reals, so the conversions to the short format leave
  the values alone.

  The module has three layers.  `swOf` and `qwOf` name the steps and the codes of a weight matrix as the
  composites of the program's own operations; nothing later opens them.  § Layout reads each layout operation
  of the program (a reshape, a transpose, a slice, the pad) at an index given by its coordinates: a reshape keeps
  an entry's row-major position, so `[9, 320] → [2880]` sends `(t, c)` to `t·320 + c` and `[2880] → [320, 9]`
  sends `c·9 + t` to `(c, t)`.  § Terms runs the list of host operations once per array and states what the array
  holds as a term over the arguments.  § Entries composes the two: the six arrays at one entry, over the
  specification's `refFeat k = (k % 320)·9 + k / 320` (the place of tap-by-tap feature `k` in a channel-by-channel
  row) and `padded` (the zero-padded image).
-/
import proofs.«101718_j84739704750320_1_alg».proof.Proof.Gen.KernelIdeal.Frame
import proofs.«101718_j84739704750320_1_alg».proof.Proof.Spec
import Idealize.ShloMosaic.Lib.ValueIdx
import Idealize.ShloMosaic.Lib.Pipeline.Value
import Idealize.ShloMosaic.Lib.ValueLayout
import Idealize.ShloMosaic.Lib.KernelVsHost
import Idealize.ShloMosaic.Lib.StableHlo.Run

noncomputable section

namespace Cert.HostSide

open Cert.KernelIdeal Cert.KernelIdeal.Gen Idealize.ShloMosaic Idealize.ShloMosaic.TcCoe Idealize.ShloMosaic.ValueIdx
open Idealize.ShloMosaic.StableHlo

/-! ## The steps and the codes of a weight matrix -/

/-- The quantisation steps of the rows of a weight matrix, as a column `[384, 1]`: row `o` holds
    `max (max_κ |w o κ| / 7) ε` — the largest absolute value of the row (a maximum over the row that starts
    from `−∞`), divided by `7`, and raised to `ε` where it is smaller.  The term is the composite of the program's
    own operations: absolute value, reduction by maximum along axis 1, broadcast to a column, division by the
    broadcast `7`, maximum with the broadcast `ε`. -/
def swOf (w : FVec Ideal S384x2944 .f32) : FVec Ideal S384x1 .f32 :=
  maximumf
    (Host.divf
      (broadcastInDim S384x1 ![0] bcast_S384_S384x1_0
        (Host.reduce FloatOps.maximumf (Host.absf w) (constant (F := Ideal) S_ .f32 0xFF800000#32)
          reducesTo_S384x2944_S384_d1 h_S_))
      (broadcastInDim S384x1 ![] bcast_S_S384x1 (constant (F := Ideal) S_ .f32 0x40E00000#32)))
    (broadcastInDim S384x1 ![] bcast_S_S384x1 (constant (F := Ideal) S_ .f32 0x322BCC77#32))

/-- The 4-bit codes of a weight matrix, `[384, 2944]`: entry `(o, κ)` holds
    `min 7 (max (−8) (round (w o κ / s o)))` with `s = swOf w` broadcast along the rows and rounding to nearest,
    ties to even.  Again the composite of the program's own operations (the two `id`s are the clip's conversions
    of its bounds to the format they already have). -/
def qwOf (w : FVec Ideal S384x2944 .f32) : FVec Ideal S384x2944 .f32 :=
  minimumf
    (broadcastInDim S384x2944 ![] bcast_S_S384x2944 (id (constant (F := Ideal) S_ .f32 0x40E00000#32)))
    (maximumf
      (broadcastInDim S384x2944 ![] bcast_S_S384x2944 (id (constant (F := Ideal) S_ .f32 0xC1000000#32)))
      (Host.roundeven
        (Host.divf w (broadcastInDim S384x2944 ![0, 1] bcast_S384x1_S384x2944_0_1 (swOf w)))))

/-! ## The layout operations of the host side, read at one entry

Each lemma reads ONE operation of the program at an index given by its coordinates, and names the entry of the
operand it returns.  A reshape keeps the row-major position of an entry; a transpose permutes the coordinates;
a slice from offset zero keeps them; a pad shifts them by the low padding. -/

section Layout
variable {α : Type}

/-- Down-projection, last reshape `[9, 320, 32] → [2880, 32]`: row `t·320 + c` is tap `t`, channel `c`. -/
theorem pd_rows_split (y : S9x320x32.Idx → α) (k : Fin 2880) (r : Fin 32) (t : Fin 9) (ch : Fin 320)
    (hk : k.val = t.val * 320 + ch.val) :
    shapeCast S2880x32 y shapeCasts_S9x320x32_S2880x32 (ix2 k r) = y (ix3 t ch r) :=
  shapeCast_apply y shapeCasts_S9x320x32_S2880x32 (ix2 k r) (ix3 t ch r) (by
    rw [Shape.rowMajor_val_three, Shape.rowMajor_val_two]
    show (t.val * 320 + ch.val) * 32 + r.val = k.val * 32 + r.val
    omega)

/-- Down-projection, the transpose `[320, 9, 32] → [9, 320, 32]`: entry `(t, c, r)` is the operand's `(c, t, r)`. -/
theorem pd_swap (y : S320x9x32.Idx → α) (t : Fin 9) (ch : Fin 320) (r : Fin 32) :
    transpose S9x320x32 [1, 0, 2] y transposes_S320x9x32_S9x320x32_1_0_2 (ix3 t ch r) = y (ix3 ch t r) :=
  transpose_apply [1, 0, 2] y transposes_S320x9x32_S9x320x32_1_0_2 (ix3 t ch r) (ix3 ch t r)
    fun b => match b with | ⟨0, _⟩ => rfl | ⟨1, _⟩ => rfl | ⟨2, _⟩ => rfl

/-- Down-projection, first reshape `[2880, 32] → [320, 9, 32]`: entry `(c, t, r)` is row `c·9 + t`. -/
theorem pd_rows_merge (y : S2880x32.Idx → α) (ch : Fin 320) (t : Fin 9) (r : Fin 32) (k' : Fin 2880)
    (hk : k'.val = ch.val * 9 + t.val) :
    shapeCast S320x9x32 y shapeCasts_S2880x32_S320x9x32 (ix3 ch t r) = y (ix2 k' r) :=
  shapeCast_apply y shapeCasts_S2880x32_S320x9x32 (ix3 ch t r) (ix2 k' r) (by
    rw [Shape.rowMajor_val_two, Shape.rowMajor_val_three]
    show k'.val * 32 + r.val = (ch.val * 9 + t.val) * 32 + r.val
    omega)

/-- Down-projection, the slice `[0:2880, 0:32]` of `[2944, 32]`: the first 2880 rows, unchanged. -/
theorem pd_slice (x : S2944x32.Idx → α) (k' : Fin 2880) (r : Fin 32) (k'' : Fin 2944) (hk : k''.val = k'.val) :
    extractStridedSlice S2880x32 ![0, 0] x slices_S2944x32_S2880x32_0_0 (ix2 k' r) = x (ix2 k'' r) :=
  extractStridedSlice_apply ![0, 0] x slices_S2944x32_S2880x32_0_0 (ix2 k' r) (ix2 k'' r) fun a => match a with
    | ⟨0, _⟩ => by show k''.val = 0 + k'.val; omega
    | ⟨1, _⟩ => by show r.val = 0 + r.val; omega

/-- Weight codes, last reshape `[9, 320, 384] → [2880, 384]`: row `t·320 + c` is tap `t`, channel `c`. -/
theorem qw_rows_split (y : S9x320x384.Idx → α) (k : Fin 2880) (o : Fin 384) (t : Fin 9) (ch : Fin 320)
    (hk : k.val = t.val * 320 + ch.val) :
    shapeCast S2880x384 y shapeCasts_S9x320x384_S2880x384 (ix2 k o) = y (ix3 t ch o) :=
  shapeCast_apply y shapeCasts_S9x320x384_S2880x384 (ix2 k o) (ix3 t ch o) (by
    rw [Shape.rowMajor_val_three, Shape.rowMajor_val_two]
    show (t.val * 320 + ch.val) * 384 + o.val = k.val * 384 + o.val
    omega)

/-- Weight codes, the transpose `[384, 320, 9] → [9, 320, 384]`: entry `(t, c, o)` is the operand's `(o, c, t)`. -/
theorem qw_swap (y : S384x320x9.Idx → α) (t : Fin 9) (ch : Fin 320) (o : Fin 384) :
    transpose S9x320x384 [2, 1, 0] y transposes_S384x320x9_S9x320x384_2_1_0 (ix3 t ch o) = y (ix3 o ch t) :=
  transpose_apply [2, 1, 0] y transposes_S384x320x9_S9x320x384_2_1_0 (ix3 t ch o) (ix3 o ch t)
    fun b => match b with | ⟨0, _⟩ => rfl | ⟨1, _⟩ => rfl | ⟨2, _⟩ => rfl

/-- Weight codes, first reshape `[384, 2880] → [384, 320, 9]`: entry `(o, c, t)` is column `c·9 + t` of row `o`. -/
theorem qw_cols_merge (y : S384x2880.Idx → α) (o : Fin 384) (ch : Fin 320) (t : Fin 9) (k' : Fin 2880)
    (hk : k'.val = ch.val * 9 + t.val) :
    shapeCast S384x320x9 y shapeCasts_S384x2880_S384x320x9 (ix3 o ch t) = y (ix2 o k') :=
  shapeCast_apply y shapeCasts_S384x2880_S384x320x9 (ix3 o ch t) (ix2 o k') (by
    rw [Shape.rowMajor_val_two, Shape.rowMajor_val_three]
    show o.val * 2880 + k'.val = (o.val * 320 + ch.val) * 9 + t.val
    omega)

/-- Weight codes, the slice `[0:384, 0:2880]` of `[384, 2944]`: the first 2880 columns, unchanged. -/
theorem qw_slice (x : S384x2944.Idx → α) (o : Fin 384) (k' : Fin 2880) (k'' : Fin 2944) (hk : k''.val = k'.val) :
    extractStridedSlice S384x2880 ![0, 0] x slices_S384x2944_S384x2880_0_0 (ix2 o k') = x (ix2 o k'') :=
  extractStridedSlice_apply ![0, 0] x slices_S384x2944_S384x2880_0_0 (ix2 o k') (ix2 o k'') fun a => match a with
    | ⟨0, _⟩ => by show o.val = 0 + o.val; omega
    | ⟨1, _⟩ => by show k''.val = 0 + k'.val; omega

/-- The weight steps, reshaped `[384, 1] → [1, 384]`: a column read as a row. -/
theorem sw_col_as_row (x : S384x1.Idx → α) (o : Fin 384) :
    shapeCast S1x384 x shapeCasts_S384x1_S1x384 (ix2 (0 : Fin 1) o) = x (ix2 o (0 : Fin 1)) :=
  shapeCast_apply x shapeCasts_S384x1_S1x384 (ix2 (0 : Fin 1) o) (ix2 o (0 : Fin 1)) (by
    rw [Shape.rowMajor_val_two, Shape.rowMajor_val_two]
    show o.val * 1 + 0 = 0 * 384 + o.val
    omega)

/-- The image, transposed `[4, 320, 64, 64] → [4, 64, 64, 320]`: entry `(n, h, w, c)` is the operand's `(n, c, h, w)`. -/
theorem x_channels_last (x : S4x320x64x64.Idx → α) (n : Fin 4) (h w : Fin 64) (ch : Fin 320) :
    transpose S4x64x64x320 [0, 2, 3, 1] x transposes_S4x320x64x64_S4x64x64x320_0_2_3_1 (ix4 n h w ch) = x (ix4 n ch h w) :=
  transpose_apply [0, 2, 3, 1] x transposes_S4x320x64x64_S4x64x64x320_0_2_3_1 (ix4 n h w ch) (ix4 n ch h w)
    fun b => match b with | ⟨0, _⟩ => rfl | ⟨1, _⟩ => rfl | ⟨2, _⟩ => rfl | ⟨3, _⟩ => rfl

/-- The padded image at a pixel of the image proper: rows and columns `1 … 64` are the image's `0 … 63`. -/
theorem x_pad_inside (x : S4x64x64x320.Idx → α) (v : S_.Idx → α) (n : Fin 4) (y z : Fin 66) (ch : Fin 320)
    (y' z' : Fin 64) (hy : y.val = 1 + y'.val) (hz : z.val = 1 + z'.val) :
    pad S4x66x66x320 ![0, 1, 1, 0] ![0, 1, 1, 0] ![0, 0, 0, 0] x v pads_S4x64x64x320_S4x66x66x320_000_110_110_000 h_S_
        (ix4 n y z ch) = x (ix4 n y' z' ch) :=
  pad_apply_of_inside ![0, 1, 1, 0] ![0, 1, 1, 0] ![0, 0, 0, 0] x v pads_S4x64x64x320_S4x66x66x320_000_110_110_000 h_S_
    (ix4 n y z ch) (ix4 n y' z' ch) fun a => match a with
      | ⟨0, _⟩ => by show n.val = 0 + n.val * (0 + 1); omega
      | ⟨1, _⟩ => by show y.val = 1 + y'.val * (0 + 1); omega
      | ⟨2, _⟩ => by show z.val = 1 + z'.val * (0 + 1); omega
      | ⟨3, _⟩ => by show ch.val = 0 + ch.val * (0 + 1); omega

/-- The padded image in the border rows `0` and `65`: the padding value. -/
theorem x_pad_border_row (x : S4x64x64x320.Idx → α) (v : S_.Idx → α) (n : Fin 4) (y z : Fin 66) (ch : Fin 320)
    (hy : ¬(1 ≤ y.val ∧ y.val ≤ 64)) :
    pad S4x66x66x320 ![0, 1, 1, 0] ![0, 1, 1, 0] ![0, 0, 0, 0] x v pads_S4x64x64x320_S4x66x66x320_000_110_110_000 h_S_
        (ix4 n y z ch) = v ix0 :=
  (pad_apply_of_not_inside ![0, 1, 1, 0] ![0, 1, 1, 0] ![0, 0, 0, 0] x v pads_S4x64x64x320_S4x66x66x320_000_110_110_000 h_S_
    (ix4 n y z ch) (1 : Fin 4) (by
      show ¬(1 ≤ y.val ∧ (y.val - 1) % (0 + 1) = 0 ∧ (y.val - 1) / (0 + 1) < 64)
      omega)).trans (congrArg v (eq_ix0 _))

/-- The padded image in the border columns `0` and `65`: the padding value. -/
theorem x_pad_border_col (x : S4x64x64x320.Idx → α) (v : S_.Idx → α) (n : Fin 4) (y z : Fin 66) (ch : Fin 320)
    (hz : ¬(1 ≤ z.val ∧ z.val ≤ 64)) :
    pad S4x66x66x320 ![0, 1, 1, 0] ![0, 1, 1, 0] ![0, 0, 0, 0] x v pads_S4x64x64x320_S4x66x66x320_000_110_110_000 h_S_
        (ix4 n y z ch) = v ix0 :=
  (pad_apply_of_not_inside ![0, 1, 1, 0] ![0, 1, 1, 0] ![0, 0, 0, 0] x v pads_S4x64x64x320_S4x66x66x320_000_110_110_000 h_S_
    (ix4 n y z ch) (2 : Fin 4) (by
      show ¬(1 ≤ z.val ∧ (z.val - 1) % (0 + 1) = 0 ∧ (z.val - 1) / (0 + 1) < 64)
      omega)).trans (congrArg v (eq_ix0 _))

end Layout

variable (m : (ℓ : Loc nD τ sig) → Buf (Elt Ideal) ℓ) (c : Dev nD)

/-- Opens `V` — the buffers after the host operations, from the launch memory `m` — into the fold of the
    literal list of operations, which is then run one operation at a time. -/
local macro "open_V" : tactic => `(tactic|
  (dsimp only [Gen.V]
   simp only [Gen.hostOps0, Gen.hostOps0_1, Gen.hostOps0_2, Gen.hostOps0_3, Gen.hostOps0_4, Gen.hostOps0_5,
     List.flatten_cons, List.flatten_nil, List.append_nil, List.cons_append, List.nil_append]))

/-! ## What each array of the region holds, as a term

The list of host operations is run once for each array: the array's contents when the region is entered are the
composite of the operations that produced it, applied to the arguments as launched. -/

section Terms

/-- The weight steps `[384, 1]` (before their reshape). -/
theorem V_v6_eq : @Eq (FVec Ideal S384x1 .f32) (V m c main_v6)
    (swOf (m ((c : Thread nD τ).loc main_arg1))) := by
  open_V
  after_results
  rfl

/-- The weight codes `[384, 2944]` (before they are re-laid). -/
theorem V_v10_eq : @Eq (FVec Ideal S384x2944 .f32) (V m c main_v10)
    (qwOf (m ((c : Thread nD τ).loc main_arg1))) := by
  open_V
  after_results
  rfl

/-- The weight steps as the region reads them: the column `[384, 1]` reshaped to the row `[1, 384]`. -/
theorem V_v19_eq : @Eq (FVec Ideal S1x384 .f32) (V m c main_v19)
    (shapeCast S1x384 (swOf (m ((c : Thread nD τ).loc main_arg1))) shapeCasts_S384x1_S1x384) := by
  open_V
  after_results
  rfl

/-- The weight codes as the region reads them: the first 2880 columns, split into (channel, tap), the three
    axes reversed, and (tap, channel) merged into the rows. -/
theorem V_v20_eq : @Eq (FVec Ideal S2880x384 .bf16) (V m c main_v20)
    (truncf .bf16
      (shapeCast S2880x384
        (transpose S9x320x384 [2, 1, 0]
          (shapeCast S384x320x9
            (extractStridedSlice S384x2880 ![0, 0] (qwOf (m ((c : Thread nD τ).loc main_arg1)))
              slices_S384x2944_S384x2880_0_0)
            shapeCasts_S384x2880_S384x320x9)
          transposes_S384x320x9_S9x320x384_2_1_0)
        shapeCasts_S9x320x384_S2880x384)
      bitsLt_bf16_f32) := by
  open_V
  after_results
  rfl

/-- The down-projection as the region reads it: the first 2880 rows, split into (channel, tap), those two axes
    exchanged, and (tap, channel) merged back into the rows. -/
theorem V_v21_eq : @Eq (FVec Ideal S2880x32 .bf16) (V m c main_v21)
    (truncf .bf16
      (shapeCast S2880x32
        (transpose S9x320x32 [1, 0, 2]
          (shapeCast S320x9x32
            (extractStridedSlice S2880x32 ![0, 0] (m ((c : Thread nD τ).loc main_arg2) : FVec Ideal S2944x32 .f32)
              slices_S2944x32_S2880x32_0_0)
            shapeCasts_S2880x32_S320x9x32)
          transposes_S320x9x32_S9x320x32_1_0_2)
        shapeCasts_S9x320x32_S2880x32)
      bitsLt_bf16_f32) := by
  open_V
  after_results
  rfl

/-- The up-projection as the region reads it: the argument, its float format changed. -/
theorem V_v22_eq : @Eq (FVec Ideal S32x384 .bf16) (V m c main_v22)
    (truncf .bf16 (m ((c : Thread nD τ).loc main_arg3) : FVec Ideal S32x384 .f32) bitsLt_bf16_f32) := by
  open_V
  after_results

/-- The bias as the region reads it: the vector `[384]` reshaped to the row `[1, 384]`. -/
theorem V_v23_eq : @Eq (FVec Ideal S1x384 .f32) (V m c main_v23)
    (shapeCast S1x384 (m ((c : Thread nD τ).loc main_arg4) : FVec Ideal S384 .f32) shapeCasts_S384_S1x384) := by
  open_V
  after_results
  rfl

/-- The image as the region reads it: channels moved last, then one pixel of padding on each side of both
    spatial axes, the padding value being the integer zero converted to a float. -/
theorem V_v25_eq : @Eq (FVec Ideal S4x66x66x320 .f32) (V m c main_v25)
    (pad S4x66x66x320 ![0, 1, 1, 0] ![0, 1, 1, 0] ![0, 0, 0, 0]
      (transpose S4x64x64x320 [0, 2, 3, 1] (m ((c : Thread nD τ).loc main_arg0) : FVec Ideal S4x320x64x64 .f32)
        transposes_S4x320x64x64_S4x64x64x320_0_2_3_1)
      (sitofp (F := Ideal) .f32 (constantI S_ 32 0#32))
      pads_S4x64x64x320_S4x66x66x320_000_110_110_000 h_S_) := by
  open_V
  after_results
  rfl

end Terms

/-! ## The six arrays of the region, read at one entry -/

section Entries

open Cert.Spec

/-- The padding value: the integer zero converted to a float is the real zero. -/
theorem padValue_apply (i : S_.Idx) : (sitofp (F := Ideal) .f32 (constantI S_ 32 0#32) : FVec Ideal S_ .f32) i = 0 :=
  sitofp_zero

/-- THE IMAGE.  Entry `(n, y, z, c)` of the array the region reads is channel `c` of image `n` padded by one zero
    pixel on every side, at row `y` and column `z` of the padded image. -/
theorem V_xpad (n : Fin 4) (y z : Fin 66) (ch : Fin 320) :
    (V m c main_v25 : FVec Ideal S4x66x66x320 .f32) (ix4 n y z ch)
      = padded (m ((c : Thread nD τ).loc main_arg0)) n ch y.val z.val := by
  refine (congrFun (V_v25_eq m c) (ix4 n y z ch)).trans ?_
  unfold padded
  by_cases hy : 1 ≤ y.val ∧ y.val ≤ 64
  · by_cases hz : 1 ≤ z.val ∧ z.val ≤ 64
    · -- a pixel of the image proper: undo the shift by the padding, then the transpose
      rw [dif_pos ⟨hy.1, hy.2, hz.1, hz.2⟩]
      refine (x_pad_inside _ _ n y z ch ⟨y.val - 1, by omega⟩ ⟨z.val - 1, by omega⟩
        (by show y.val = 1 + (y.val - 1); omega) (by show z.val = 1 + (z.val - 1); omega)).trans ?_
      exact x_channels_last _ n _ _ ch
    · -- a border column
      rw [dif_neg (fun h => hz ⟨h.2.2.1, h.2.2.2⟩)]
      exact (x_pad_border_col _ _ n y z ch hz).trans (padValue_apply _)
  · -- a border row
    rw [dif_neg (fun h => hy ⟨h.1, h.2.1⟩)]
    exact (x_pad_border_row _ _ n y z ch hy).trans (padValue_apply _)

/-- THE WEIGHT CODES.  Row `k = t·320 + c` of the array the region reads, at output channel `o`, is the code of the
    weight of channel `o` at column `c·9 + t`: the feature axis is re-laid from channel-by-channel to tap-by-tap
    (and the matrix transposed). -/
theorem V_qw (k : Fin 2880) (o : Fin 384) :
    (V m c main_v20 : FVec Ideal S2880x384 .bf16) (ix2 k o)
      = qwOf (m ((c : Thread nD τ).loc main_arg1)) (ix2 o (refFeat k)) := by
  have hk := k.isLt
  refine (congrFun (V_v20_eq m c) (ix2 k o)).trans ?_
  refine (truncf_apply (φ := .f32) (ψ := .bf16) _ bitsLt_bf16_f32 _).trans ?_
  refine (qw_rows_split _ k o (tap k) (chan k) (by show k.val = k.val / 320 * 320 + k.val % 320; omega)).trans ?_
  refine (qw_swap _ (tap k) (chan k) o).trans ?_
  refine (qw_cols_merge _ o (chan k) (tap k) ⟨k.val % 320 * 9 + k.val / 320, by omega⟩ rfl).trans ?_
  exact qw_slice _ o _ (refFeat k) rfl

/-- THE DOWN-PROJECTION.  Row `k = t·320 + c` of the array the region reads is row `c·9 + t` of the argument: the
    same re-laying of the feature axis. -/
theorem V_pd (k : Fin 2880) (r : Fin 32) :
    (V m c main_v21 : FVec Ideal S2880x32 .bf16) (ix2 k r)
      = (m ((c : Thread nD τ).loc main_arg2) : FVec Ideal S2944x32 .f32) (ix2 (refFeat k) r) := by
  have hk := k.isLt
  refine (congrFun (V_v21_eq m c) (ix2 k r)).trans ?_
  refine (truncf_apply (φ := .f32) (ψ := .bf16) _ bitsLt_bf16_f32 _).trans ?_
  refine (pd_rows_split _ k r (tap k) (chan k) (by show k.val = k.val / 320 * 320 + k.val % 320; omega)).trans ?_
  refine (pd_swap _ (tap k) (chan k) r).trans ?_
  refine (pd_rows_merge _ (chan k) (tap k) r ⟨k.val % 320 * 9 + k.val / 320, by omega⟩ rfl).trans ?_
  exact pd_slice _ _ r (refFeat k) rfl

/-- THE UP-PROJECTION: the argument, entry for entry. -/
theorem V_pu (r : Fin 32) (o : Fin 384) :
    (V m c main_v22 : FVec Ideal S32x384 .bf16) (ix2 r o)
      = (m ((c : Thread nD τ).loc main_arg3) : FVec Ideal S32x384 .f32) (ix2 r o) :=
  (congrFun (V_v22_eq m c) (ix2 r o)).trans (truncf_apply (φ := .f32) (ψ := .bf16) _ bitsLt_bf16_f32 _)

/-- THE WEIGHT STEPS: entry `o` of the one row the region reads is the step of weight row `o`. -/
theorem V_sw (o : Fin 384) :
    (V m c main_v19 : FVec Ideal S1x384 .f32) (ix2 (0 : Fin 1) o)
      = swOf (m ((c : Thread nD τ).loc main_arg1)) (ix2 o (0 : Fin 1)) :=
  (congrFun (V_v19_eq m c) (ix2 (0 : Fin 1) o)).trans (sw_col_as_row _ o)

/-- THE BIAS: entry `o` of the one row the region reads is entry `o` of the argument. -/
theorem V_bias (o : Fin 384) :
    (V m c main_v23 : FVec Ideal S1x384 .f32) (ix2 (0 : Fin 1) o)
      = (m ((c : Thread nD τ).loc main_arg4) : FVec Ideal S384 .f32) (ix1 o) :=
  (congrFun (V_v23_eq m c) (ix2 (0 : Fin 1) o)).trans (shapeCast_a_1a_apply _ shapeCasts_S384_S1x384 (0 : Fin 1) o)

end Entries

end Cert.HostSide

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«101718_j84739704750320_1_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.BodyEntry.lean ====
/-
  One entry of the block the kernel's body stores, as mathematics on the extended reals.

  The body holds a block of 256 feature rows, each of 2880 features.  From row `a` it computes

    * the row's step           s    = max (max_k |a k| / 7) ε                       (a [256, 1] column),
    * the row's 4-bit codes    q k  = min 7 (max (−8) (round (a k / s))),
      and their product with the weight codes,     ∑ k, q k · qw k o                (a [256, 384] block),
    * the low-rank middle      ∑ k, a k · pd k ρ                                    (a [256, 32] block),

  and stores, at row `r` and output channel `o`,

      ((∑ k, q k · qw k o) · s · sw o  +  ∑ ρ, (∑ k, a k · pd k ρ) · pu ρ o)  +  bias o.

  Every change of float format is the identity on extended reals, every arithmetic operation acts entry by
  entry, and the only operations that are not entry-by-entry are: the maximum along a row, the column that
  keeps it (a vector viewed as a column, a column spread along the rows), a row spread down the columns, the
  three matrix products into a zero accumulator, and the views that add or keep a leading axis of extent one.
  Each of these is read at an index by one small lemma; the stored entry is then, term for term, the
  specification's `rowOut` of the row.
-/
import proofs.«101718_j84739704750320_1_alg».proof.Proof.Gen.KernelIdeal.Skeleton
import proofs.«101718_j84739704750320_1_alg».proof.Proof.Spec
import proofs.«101718_j84739704750320_1_alg».proof.Proof.LibRowLayer
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.BodyEntry

open Cert.KernelIdeal Cert.KernelIdeal.Gen Idealize.ShloMosaic Idealize.ShloMosaic.ValueIdx

/-! ## The three matrix products are plain products -/

/-- Codes [256, 2880] times weight codes [2880, 384]: the left operand's columns are contracted against the right
    operand's rows, and there is no batch axis. -/
theorem plain_codes : Cert.PlainDot.IsPlain dot_S256x2880_S2880x384_S256x384_1_0_0_1_n_n :=
  ⟨rfl, rfl, rfl, rfl, rfl, rfl⟩

/-- Features [256, 2880] times the low-rank down factor [2880, 32]: likewise. -/
theorem plain_down : Cert.PlainDot.IsPlain dot_S256x2880_S2880x32_S256x32_1_0_0_1_n_n :=
  ⟨rfl, rfl, rfl, rfl, rfl, rfl⟩

/-- The low-rank middle [256, 32] times the up factor [32, 384]: likewise. -/
theorem plain_up : Cert.PlainDot.IsPlain dot_S256x32_S32x384_S256x384_1_0_0_1_n_n :=
  ⟨rfl, rfl, rfl, rfl, rfl, rfl⟩

/-! ## The step of a row -/

/-- The largest absolute value of row `r`, kept as a column: the maximum along the row of the entries' absolute
    values `max (a k) (−a k)`, started from `−∞`, viewed as a [256, 1] column and read at `(r, u)`. -/
theorem rowMax_apply (v50 : Vec Ideal S256x2880 .f32) (r : Fin 256) (u : Fin 1) :
    shapeCast S256x1
        (multiReduction (F := Ideal) .maximumf [1] S256 (absf v50) 0xFF800000#32 reduces_S256x2880_S256 (.inl rfl) rfl)
        shapeCasts_S256_S256x1 (ix2 r u)
      = Cert.Spec.rowMax (fun k : Fin 2880 => v50 (ix2 r k)) :=
  (Cert.RowLayer.shapeCast_a_a1_apply _ shapeCasts_S256_S256x1 r u).trans
    (Cert.RowLayer.rowMax_apply (absf v50) 0xFF800000#32 reduces_S256x2880_S256 (.inl rfl) rfl r)

/-- The step column at row `r` is the step of the row: a seventh of its largest absolute value, but at least `ε`.
    Division by the splat `7` and the maximum with the splat `ε` act entry by entry. -/
theorem step_apply (v50 : Vec Ideal S256x2880 .f32) (r : Fin 256) :
    k0_pay13 (F := Ideal) v50 (ix2 r (0 : Fin 1)) = Cert.Spec.step (fun k : Fin 2880 => v50 (ix2 r k)) := by
  unfold k0_pay13
  exact congrArg (fun m => max (Ideal.div m Cert.Spec.seven) Cert.Spec.eps) (rowMax_apply v50 r 0)

/-! ## The codes of a row, and their product with the weight codes -/

/-- The code of entry `(r, k)`: the entry divided by its row's step (the step column spread along the row), rounded to
    nearest with ties to even, and clipped to `[−8, 7]` — all entry by entry. -/
theorem code_apply (v50 : Vec Ideal S256x2880 .f32) (r : Fin 256) (k : Fin 2880) :
    minimumf (broadcast S256x2880 (Scalar.ofBits .f32 0x40E00000#32))
        (maximumf (broadcast S256x2880 (Scalar.ofBits .f32 0xC1000000#32))
          (roundeven (divf v50 (broadcastTo S256x2880 (k0_pay13 (F := Ideal) v50) broadcasts_S256x1_S256x2880))))
        (ix2 r k)
      = Cert.Spec.quant (Cert.Spec.step (fun k : Fin 2880 => v50 (ix2 r k))) (v50 (ix2 r k)) :=
  congrArg (fun s => Cert.Spec.quant s (v50 (ix2 r k)))
    ((Cert.RowLayer.broadcastTo_a1_ab_apply _ broadcasts_S256x1_S256x2880 r k).trans (step_apply v50 r))

/-- Entry `(r, o)` of the codes' product with the weight codes: `∑ k, q (a k) · qw k o`.  The product goes into a
    zero accumulator, so it is the bare sum over the contraction index; the contraction index of a plain product is a
    number below 2880; the narrowing of the codes and the same-shape view of the weight block change nothing. -/
theorem codes_apply (v50 : Vec Ideal S256x2880 .f32) (x1 : Vec Ideal S2880x384 .bf16) (r : Fin 256) (o : Fin 384) :
    k0_pay14 (F := Ideal) v50 x1 (ix2 r o)
      = ∑ k : Fin 2880,
          Cert.Spec.quant (Cert.Spec.step (fun k : Fin 2880 => v50 (ix2 r k))) (v50 (ix2 r k)) * x1 (ix2 k o) := by
  unfold k0_pay14
  refine (Ideal.matmul_constant_zero_apply dot_S256x2880_S2880x384_S256x384_1_0_0_1_n_n none _ _ (ix2 r o)).trans ?_
  refine (Cert.PlainDot.sum_contr dot_S256x2880_S2880x384_S256x384_1_0_0_1_n_n plain_codes _ _ r o).trans ?_
  refine Finset.sum_congr rfl fun k _ => ?_
  exact congr (congrArg HMul.hMul (code_apply v50 r k))
    (congrFun (shapeCast_self x1 shapeCasts_S2880x384_S2880x384) (ix2 k o))

/-! ## The low-rank middle -/

/-- Entry `(r, ρ)` of the low-rank middle: `∑ k, a k · pd k ρ`.  Both narrowings (of the features before the product and
    of the product after it) are the identity; the product goes into a zero accumulator. -/
theorem mid_apply (v50 : Vec Ideal S256x2880 .f32) (x2 : Vec Ideal S2880x32 .bf16) (r : Fin 256) (ρ : Fin 32) :
    k0_pay15 (F := Ideal) v50 x2 (ix2 r ρ) = ∑ k : Fin 2880, v50 (ix2 r k) * x2 (ix2 k ρ) := by
  unfold k0_pay15
  refine (Ideal.matmul_constant_zero_apply dot_S256x2880_S2880x32_S256x32_1_0_0_1_n_n none _ _ (ix2 r ρ)).trans ?_
  refine (Cert.PlainDot.sum_contr dot_S256x2880_S2880x32_S256x32_1_0_0_1_n_n plain_down _ _ r ρ).trans ?_
  refine Finset.sum_congr rfl fun k _ => ?_
  exact congrArg (v50 (ix2 r k) * ·) (congrFun (shapeCast_self x2 shapeCasts_S2880x32_S2880x32) (ix2 k ρ))

/-! ## The pieces of the stored entry -/

/-- The step column spread along the 384 output channels reads, at `(r, o)`, the step of row `r`. -/
theorem stepWide_apply (v50 : Vec Ideal S256x2880 .f32) (r : Fin 256) (o : Fin 384) :
    broadcastTo S256x384 (k0_pay13 (F := Ideal) v50) broadcasts_S256x1_S256x384 (ix2 r o)
      = Cert.Spec.step (fun k : Fin 2880 => v50 (ix2 r k)) :=
  (Cert.RowLayer.broadcastTo_a1_ab_apply _ broadcasts_S256x1_S256x384 r o).trans (step_apply v50 r)

/-- A [1, 384] row (the weight steps, or the bias) spread down the 256 rows reads, at `(r, o)`, the row's entry `o`;
    the same-shape view before the spreading changes nothing. -/
theorem rowWide_apply (x : Vec Ideal S1x384 .f32) (r : Fin 256) (o : Fin 384) :
    broadcastTo S256x384 (shapeCast S1x384 x shapeCasts_S1x384_S1x384) broadcasts_S1x384_S256x384 (ix2 r o)
      = x (ix2 (0 : Fin 1) o) :=
  (broadcastTo_1b_ab_apply _ broadcasts_S1x384_S256x384 r o).trans
    (congrFun (shapeCast_self x shapeCasts_S1x384_S1x384) (ix2 (0 : Fin 1) o))

/-- Entry `(r, o)` of the low-rank branch: the middle times the up factor, `∑ ρ, (∑ k, a k · pd k ρ) · pu ρ o`. -/
theorem lowRank_apply (v50 : Vec Ideal S256x2880 .f32) (x2 : Vec Ideal S2880x32 .bf16) (x3 : Vec Ideal S32x384 .bf16)
    (r : Fin 256) (o : Fin 384) :
    matmul dot_S256x32_S32x384_S256x384_1_0_0_1_n_n none (k0_pay15 (F := Ideal) v50 x2)
        (shapeCast S32x384 x3 shapeCasts_S32x384_S32x384 : FVec Ideal S32x384 .bf16)
        (constant S256x384 .f32 0x00000000#32) (ix2 r o)
      = ∑ ρ : Fin 32, (∑ k : Fin 2880, v50 (ix2 r k) * x2 (ix2 k ρ)) * x3 (ix2 ρ o) := by
  refine (Ideal.matmul_constant_zero_apply dot_S256x32_S32x384_S256x384_1_0_0_1_n_n none _ _ (ix2 r o)).trans ?_
  refine (Cert.PlainDot.sum_contr dot_S256x32_S32x384_S256x384_1_0_0_1_n_n plain_up _ _ r o).trans ?_
  refine Finset.sum_congr rfl fun ρ _ => ?_
  exact congr (congrArg HMul.hMul (mid_apply v50 x2 r ρ))
    (congrFun (shapeCast_self x3 shapeCasts_S32x384_S32x384) (ix2 ρ o))

/-! ## The stored entry -/

/-- THE STORED ENTRY.  The [256, 384] result viewed as a [1, 256, 384] block reads, at `(0, r, o)`, the result at
    `(r, o)`; sums and products act entry by entry; and the five pieces are read above.  What is left is the
    specification's `rowOut` of row `r` of the features, column `o` of the weight codes, the two low-rank factors,
    and entry `o` of the weight steps and of the bias — with the same nesting and the same order of factors. -/
theorem payload_apply (v50 : Vec Ideal S256x2880 .f32) (x1 : Vec Ideal S2880x384 .bf16) (x2 : Vec Ideal S2880x32 .bf16)
    (x3 : Vec Ideal S32x384 .bf16) (x4 x5 : Vec Ideal S1x384 .f32) (r : Fin 256) (o : Fin 384) :
    k0_pay1 (F := Ideal) (k0_pay13 v50) (k0_pay14 v50 x1) (k0_pay15 v50 x2) x3 x4 x5 (ix3 (0 : Fin 1) r o)
      = Cert.Spec.rowOut (κ := Fin 2880) (ρ := Fin 32) (fun k => v50 (ix2 r k)) (fun k => x1 (ix2 k o))
          (fun k ρ => x2 (ix2 k ρ)) (fun ρ => x3 (ix2 ρ o)) (x4 (ix2 (0 : Fin 1) o)) (x5 (ix2 (0 : Fin 1) o)) := by
  unfold k0_pay1
  refine (shapeCast_ab_1ab_apply _ shapeCasts_S256x384_S1x256x384 (0 : Fin 1) r o).trans ?_
  unfold Cert.Spec.rowOut
  exact congr (congrArg HAdd.hAdd
      (congr (congrArg HAdd.hAdd
          (congr (congrArg HMul.hMul (congr (congrArg HMul.hMul (codes_apply v50 x1 r o)) (stepWide_apply v50 r o)))
            (rowWide_apply x4 r o)))
        (lowRank_apply v50 x2 x3 r o)))
    (rowWide_apply x5 r o)

end Cert.BodyEntry

end
-- ==== Proof.Blocks.lean ====
/-
  From one grid point's block to the whole result array.

  The grid has 4 × 16 points: point (n, rt) handles image n and the 256 output pixels rt·256 … rt·256 + 255
  (four rows of 64).  Its output block [1, 256, 384] is block (n, rt, 0) of the result [4, 4096, 384]; its
  image block is image n's whole padded slab; the other five inputs are single blocks.

  Entry (0, r, o) of what the point writes back is the body's payload at scratch row r, which is `rowOut` of that
  row against the weight-code column o, the low-rank factors, the steps and the bias.  Scratch row r is the
  feature row of token (n, rt·256 + r) — its feature tap·320 + ch sits `tap / 3` rows and `tap % 3` columns
  from the pixel in the padded image —, the weight-code block is the codes with the feature axis re-laid tap by
  tap, and so on: exactly the arguments `Spec.G` gives `rowOut` at (n, rt·256 + r, o).  The 64 blocks tile
  the array, so the array the run leaves is `Spec.G` of the arguments.
-/
import proofs.«101718_j84739704750320_1_alg».proof.Proof.Gen.KernelIdeal.Value
import proofs.«101718_j84739704750320_1_alg».proof.Proof.Spec
import proofs.«101718_j84739704750320_1_alg».proof.Proof.KernelBody
import proofs.«101718_j84739704750320_1_alg».proof.Proof.HostSide
import proofs.«101718_j84739704750320_1_alg».proof.Proof.BodyEntry
import Idealize.ShloMosaic.Lib.Pipeline.Value
import Idealize.ShloMosaic.Lib.ValueIdx

set_option maxRecDepth 16384

noncomputable section

namespace Cert.Blocks

open Cert.KernelIdeal Cert.KernelIdeal.Gen Idealize.ShloMosaic Idealize.ShloMosaic.TcCoe Idealize.ShloMosaic.ValueIdx
open Idealize.SL.Sem
open Idealize.ShloMosaic.Pipeline (Dat)
open Cert.KernelBody (feat featAt win)

variable (m : (ℓ : Loc nD τ sig) → Buf (Elt Ideal) ℓ) (ρ : Dev nD → PrngReg)

/-! ## The printed index maps, decided once over the 64 grid points -/

/-- The output's block indices are (n, rt, 0) with n < 4 and rt < 16. -/
theorem out_idx : ∀ t : Fin cfg0.N,
    win0_6.index t (0 : Fin 3) ≤ 3 ∧ win0_6.index t (1 : Fin 3) ≤ 15 ∧ win0_6.index t (2 : Fin 3) = 0 :=
  (by decide +kernel : ∀ t : Fin grid0.N, _)

/-- The image window moves with the output's first block index; every other input is one block. -/
theorem in_idx : ∀ t : Fin cfg0.N,
    win0_0.index t (0 : Fin 4) = win0_6.index t (0 : Fin 3) ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The body's window of six rows starts at row 4·rt of the slab (the 32-bit product does not wrap). -/
theorem off_idx : ∀ t : Fin cfg0.N,
    k0_off1 (grid0.coords t) (0 : Fin 4) = 0 ∧ k0_off1 (grid0.coords t) (1 : Fin 4) = 4 * win0_6.index t (1 : Fin 3)
    ∧ k0_off1 (grid0.coords t) (2 : Fin 4) = 0 ∧ k0_off1 (grid0.coords t) (3 : Fin 4) = 0 :=
  (by decide +kernel : ∀ t : Fin grid0.N, _)

/-- Every pair (n, rt) is some grid point's output block. -/
theorem idx_onto : ∀ (q0 : Fin 4) (q1 : Fin 16), ∃ t : Fin cfg0.N, win0_6.index t = ![q0.val, q1.val, 0] :=
  (by decide +kernel : ∀ (q0 : Fin 4) (q1 : Fin 16), ∃ t : Fin grid0.N, win0_6.index t = ![q0.val, q1.val, 0])

/-- The image and the row tile of grid point `t`, and the token of tile row `r`: output pixel `rt·256 + r`. -/
def nOf (t : Fin cfg0.N) : Fin 4 := ⟨win0_6.index t (0 : Fin 3), by have := (out_idx t).1; omega⟩
def rtOf (t : Fin cfg0.N) : Fin 16 := ⟨win0_6.index t (1 : Fin 3), by have := (out_idx t).2.1; omega⟩
def lOf (t : Fin cfg0.N) (r : Fin 256) : Fin 4096 :=
  ⟨win0_6.index t (1 : Fin 3) * 256 + r.val, by have := (out_idx t).2.1; have := r.isLt; omega⟩

/-! ## The input blocks at a grid point, read off the arrays the region finds -/

/-- The image window's block at `t` is image `n`'s whole padded slab. -/
theorem blk0 (c : Dev nD) (t : Fin cfg0.N) (y z : Fin 66) (ch : Fin 320) :
    iblk m c 0 t (ix4 (0 : Fin 1) y z ch) = (V m c main_v25 : S4x66x66x320.Idx → EReal) (ix4 (nOf t) y z ch) := by
  obtain ⟨e0, e1, e2, e3, -⟩ := in_idx t
  unfold iblk
  rw [View.read_apply]
  show (V m c main_v25 : S4x66x66x320.Idx → EReal) _ = _
  refine congrArg _ (funext fun a => Fin.ext ?_)
  match a with
  | ⟨0, _⟩ => show win0_0.index t (0 : Fin 4) * 1 + 1 * 0 = win0_6.index t (0 : Fin 3); rw [e0]; omega
  | ⟨1, _⟩ => show win0_0.index t (1 : Fin 4) * 66 + 1 * y.val = y.val; rw [e1]; omega
  | ⟨2, _⟩ => show win0_0.index t (2 : Fin 4) * 66 + 1 * z.val = z.val; rw [e2]; omega
  | ⟨3, _⟩ => show win0_0.index t (3 : Fin 4) * 320 + 1 * ch.val = ch.val; rw [e3]; omega

/-- The other five inputs are single blocks: the block is the array. -/
theorem blk1 (c : Dev nD) (t : Fin cfg0.N) (k : Fin 2880) (o : Fin 384) :
    iblk m c 1 t (ix2 k o) = (V m c main_v20 : S2880x384.Idx → EReal) (ix2 k o) := by
  obtain ⟨-, -, -, -, e0, e1, -⟩ := in_idx t
  unfold iblk
  rw [View.read_apply]
  show (V m c main_v20 : S2880x384.Idx → EReal) _ = _
  refine congrArg _ (funext fun a => Fin.ext ?_)
  match a with
  | ⟨0, _⟩ => show win0_1.index t (0 : Fin 2) * 2880 + 1 * k.val = k.val; rw [e0]; omega
  | ⟨1, _⟩ => show win0_1.index t (1 : Fin 2) * 384 + 1 * o.val = o.val; rw [e1]; omega

theorem blk2 (c : Dev nD) (t : Fin cfg0.N) (k : Fin 2880) (r : Fin 32) :
    iblk m c 2 t (ix2 k r) = (V m c main_v21 : S2880x32.Idx → EReal) (ix2 k r) := by
  obtain ⟨-, -, -, -, -, -, e0, e1, -⟩ := in_idx t
  unfold iblk
  rw [View.read_apply]
  show (V m c main_v21 : S2880x32.Idx → EReal) _ = _
  refine congrArg _ (funext fun a => Fin.ext ?_)
  match a with
  | ⟨0, _⟩ => show win0_2.index t (0 : Fin 2) * 2880 + 1 * k.val = k.val; rw [e0]; omega
  | ⟨1, _⟩ => show win0_2.index t (1 : Fin 2) * 32 + 1 * r.val = r.val; rw [e1]; omega

theorem blk3 (c : Dev nD) (t : Fin cfg0.N) (r : Fin 32) (o : Fin 384) :
    iblk m c 3 t (ix2 r o) = (V m c main_v22 : S32x384.Idx → EReal) (ix2 r o) := by
  obtain ⟨-, -, -, -, -, -, -, -, e0, e1, -⟩ := in_idx t
  unfold iblk
  rw [View.read_apply]
  show (V m c main_v22 : S32x384.Idx → EReal) _ = _
  refine congrArg _ (funext fun a => Fin.ext ?_)
  match a with
  | ⟨0, _⟩ => show win0_3.index t (0 : Fin 2) * 32 + 1 * r.val = r.val; rw [e0]; omega
  | ⟨1, _⟩ => show win0_3.index t (1 : Fin 2) * 384 + 1 * o.val = o.val; rw [e1]; omega

theorem blk4 (c : Dev nD) (t : Fin cfg0.N) (o : Fin 384) :
    iblk m c 4 t (ix2 (0 : Fin 1) o) = (V m c main_v19 : S1x384.Idx → EReal) (ix2 (0 : Fin 1) o) := by
  obtain ⟨-, -, -, -, -, -, -, -, -, -, e0, e1, -⟩ := in_idx t
  unfold iblk
  rw [View.read_apply]
  show (V m c main_v19 : S1x384.Idx → EReal) _ = _
  refine congrArg _ (funext fun a => Fin.ext ?_)
  match a with
  | ⟨0, _⟩ => show win0_4.index t (0 : Fin 2) * 1 + 1 * 0 = 0; rw [e0]
  | ⟨1, _⟩ => show win0_4.index t (1 : Fin 2) * 384 + 1 * o.val = o.val; rw [e1]; omega

theorem blk5 (c : Dev nD) (t : Fin cfg0.N) (o : Fin 384) :
    iblk m c 5 t (ix2 (0 : Fin 1) o) = (V m c main_v23 : S1x384.Idx → EReal) (ix2 (0 : Fin 1) o) := by
  obtain ⟨-, -, -, -, -, -, -, -, -, -, -, -, e0, e1⟩ := in_idx t
  unfold iblk
  rw [View.read_apply]
  show (V m c main_v23 : S1x384.Idx → EReal) _ = _
  refine congrArg _ (funext fun a => Fin.ext ?_)
  match a with
  | ⟨0, _⟩ => show win0_5.index t (0 : Fin 2) * 1 + 1 * 0 = 0; rw [e0]
  | ⟨1, _⟩ => show win0_5.index t (1 : Fin 2) * 384 + 1 * o.val = o.val; rw [e1]; omega

/-! ## One grid point's block is a block of `G` -/

/-- The arguments as the run finds them, and the weight codes and steps the host prelude makes of the weights. -/
abbrev arg0 (c : Dev nD) : S4x320x64x64.Idx → EReal := m ((c : Thread nD τ).loc main_arg0)
abbrev arg1 (c : Dev nD) : S384x2944.Idx → EReal := m ((c : Thread nD τ).loc main_arg1)
abbrev arg2 (c : Dev nD) : S2944x32.Idx → EReal := m ((c : Thread nD τ).loc main_arg2)
abbrev arg3 (c : Dev nD) : S32x384.Idx → EReal := m ((c : Thread nD τ).loc main_arg3)
abbrev arg4 (c : Dev nD) : S384.Idx → EReal := m ((c : Thread nD τ).loc main_arg4)

/-- THE RESULT ARRAY on core `c`: `Spec.G` of the five arguments, the weights through their codes and steps. -/
abbrev Gk (c : Dev nD) : S4x4096x384.Idx → EReal :=
  Cert.Spec.G (arg0 m c) (Cert.HostSide.qwOf (arg1 m c)) (Cert.HostSide.swOf (arg1 m c)) (arg2 m c) (arg3 m c) (arg4 m c)

/-- Row `r` of the scratch block at grid point `t` is the feature row of token `(n, rt·256 + r)`: feature
    `k = tap·320 + ch` is read from the window at row `r / 64 + tap / 3`, which is row `4·rt + r / 64 + tap / 3`
    of image `n`'s padded slab — and `(rt·256 + r) / 64 = 4·rt + r / 64`, `(rt·256 + r) % 64 = r % 64`. -/
theorem row_entry (c : Dev nD) (t : Fin cfg0.N) (r : Fin 256) (k : Fin 2880) :
    feat (win (grid0.coords t) (iblk m c 0 t)) (ix2 r k) = Cert.Spec.patch (arg0 m c) (nOf t) (lOf t r) k := by
  obtain ⟨o0, o1, o2, o3⟩ := off_idx t
  have hrt := (out_idx t).2.1
  have hr := r.isLt
  have hk := k.isLt
  rw [Cert.KernelBody.feat_apply]
  unfold Cert.KernelBody.featAt
  show iblk m c 0 t ((Rect.unit (s := S1x66x66x320) (k0_off1 (grid0.coords t)) S1x6x66x320.size (k0_off1_inb (grid0.coords t))).idx
      (ix4 (0 : Fin 1) (⟨r.val / 64 + k.val / 320 / 3, by omega⟩ : Fin 6) (⟨r.val % 64 + k.val / 320 % 3, by omega⟩ : Fin 66)
        (⟨k.val % 320, Nat.mod_lt _ (by norm_num)⟩ : Fin 320))) = _
  have hidx : (Rect.unit (s := S1x66x66x320) (k0_off1 (grid0.coords t)) S1x6x66x320.size (k0_off1_inb (grid0.coords t))).idx
      (ix4 (0 : Fin 1) (⟨r.val / 64 + k.val / 320 / 3, by omega⟩ : Fin 6) (⟨r.val % 64 + k.val / 320 % 3, by omega⟩ : Fin 66)
        (⟨k.val % 320, Nat.mod_lt _ (by norm_num)⟩ : Fin 320))
      = ix4 (0 : Fin 1) (⟨4 * win0_6.index t (1 : Fin 3) + (r.val / 64 + k.val / 320 / 3), by omega⟩ : Fin 66)
          (⟨r.val % 64 + k.val / 320 % 3, by omega⟩ : Fin 66) (⟨k.val % 320, Nat.mod_lt _ (by norm_num)⟩ : Fin 320) := by
    funext a
    apply Fin.ext
    match a with
    | ⟨0, _⟩ => show k0_off1 (grid0.coords t) (0 : Fin 4) + 1 * 0 = 0; rw [o0]
    | ⟨1, _⟩ => show k0_off1 (grid0.coords t) (1 : Fin 4) + 1 * (r.val / 64 + k.val / 320 / 3) = 4 * win0_6.index t (1 : Fin 3) + (r.val / 64 + k.val / 320 / 3); rw [o1]; omega
    | ⟨2, _⟩ => show k0_off1 (grid0.coords t) (2 : Fin 4) + 1 * (r.val % 64 + k.val / 320 % 3) = r.val % 64 + k.val / 320 % 3; rw [o2]; omega
    | ⟨3, _⟩ => show k0_off1 (grid0.coords t) (3 : Fin 4) + 1 * (k.val % 320) = k.val % 320; rw [o3]; omega
  rw [hidx, blk0, Cert.HostSide.V_xpad]
  unfold Cert.Spec.patch Cert.Spec.chan Cert.Spec.tap lOf
  have hy : 4 * win0_6.index t (1 : Fin 3) + (r.val / 64 + k.val / 320 / 3)
      = (win0_6.index t (1 : Fin 3) * 256 + r.val) / 64 + k.val / 320 / 3 := by omega
  have hz : r.val % 64 + k.val / 320 % 3 = (win0_6.index t (1 : Fin 3) * 256 + r.val) % 64 + k.val / 320 % 3 := by omega
  show Cert.Spec.padded _ _ _ (4 * win0_6.index t (1 : Fin 3) + (r.val / 64 + k.val / 320 / 3)) (r.val % 64 + k.val / 320 % 3)
    = Cert.Spec.padded _ _ _ ((win0_6.index t (1 : Fin 3) * 256 + r.val) / 64 + k.val / 320 / 3)
        ((win0_6.index t (1 : Fin 3) * 256 + r.val) % 64 + k.val / 320 % 3)
  rw [hy, hz]

/-- WHAT GRID POINT `t` WRITES BACK is block `t` of the result array `Gk`: entry `(0, r, o)` of the block is the
    body's payload at the scratch row `r` — `rowOut` of that row against the five other blocks — and the row is
    the patch row of token `(n, rt·256 + r)`, the blocks the re-laid weight codes, low-rank factors, steps and bias. -/
theorem flushed_eq (c : Dev nD) (t : Fin cfg0.N) :
    (dats m 0 c).flushed 6 t = ((cfg0.win 6).blk t).view.read (Elt Ideal) (Gk m c) := by
  rw [Cert.KernelIdeal.Value.flushed6_A, Cert.KernelBody.out_A]
  have ho := out_idx t
  funext j
  obtain ⟨u, r, o, rfl⟩ : ∃ (u : Fin 1) (r : Fin 256) (o : Fin 384), j = ix3 u r o :=
    ⟨j 0, j 1, j 2, eq_ix3 (n0 := 1) (n1 := 256) (n2 := 384) j⟩
  obtain rfl : u = 0 := Subsingleton.elim _ _
  have hr := r.isLt
  show k0_pay1 (F := Ideal) _ _ _ _ _ _ (ix3 (0 : Fin 1) r o) = Gk m c (((cfg0.win 6).blk t).view.emb (ix3 (0 : Fin 1) r o))
  have hemb : ((cfg0.win 6).blk t).view.emb (ix3 (0 : Fin 1) r o) = ix3 (nOf t) (lOf t r) o := by
    funext a
    apply Fin.ext
    match a with
    | ⟨0, _⟩ => show win0_6.index t (0 : Fin 3) * 1 + 1 * 0 = win0_6.index t (0 : Fin 3); omega
    | ⟨1, _⟩ => show win0_6.index t (1 : Fin 3) * 256 + 1 * r.val = win0_6.index t (1 : Fin 3) * 256 + r.val; omega
    | ⟨2, _⟩ => show win0_6.index t (2 : Fin 3) * 384 + 1 * o.val = o.val; rw [ho.2.2]; omega
  rw [hemb]
  refine (Cert.BodyEntry.payload_apply _ _ _ _ _ _ r o).trans ?_
  refine Eq.trans ?_ (Cert.Spec.G_apply (arg0 m c) (Cert.HostSide.qwOf (arg1 m c)) (Cert.HostSide.swOf (arg1 m c)) (arg2 m c) (arg3 m c) (arg4 m c) (nOf t) (lOf t r) o).symm
  have ha : (fun k : Fin 2880 => feat (win (grid0.coords t) (iblk m c 0 t)) (ix2 r k)) = Cert.Spec.patch (arg0 m c) (nOf t) (lOf t r) :=
    funext fun k => row_entry m c t r k
  have hqw : (fun k : Fin 2880 => iblk m c 1 t (ix2 k o)) = fun k => Cert.HostSide.qwOf (arg1 m c) (ix2 o (Cert.Spec.refFeat k)) :=
    funext fun k => (blk1 m c t k o).trans (Cert.HostSide.V_qw m c k o)
  have hpd : (fun (k : Fin 2880) (q : Fin 32) => iblk m c 2 t (ix2 k q)) = fun k q => arg2 m c (ix2 (Cert.Spec.refFeat k) q) :=
    funext fun k => funext fun q => (blk2 m c t k q).trans (Cert.HostSide.V_pd m c k q)
  have hpu : (fun q : Fin 32 => iblk m c 3 t (ix2 q o)) = fun q => arg3 m c (ix2 q o) :=
    funext fun q => (blk3 m c t q o).trans (Cert.HostSide.V_pu m c q o)
  have hsw : iblk m c 4 t (ix2 (0 : Fin 1) o) = Cert.HostSide.swOf (arg1 m c) (ix2 o (0 : Fin 1)) :=
    (blk4 m c t o).trans (Cert.HostSide.V_sw m c o)
  have hb : iblk m c 5 t (ix2 (0 : Fin 1) o) = arg4 m c (ix1 o) :=
    (blk5 m c t o).trans (Cert.HostSide.V_bias m c o)
  rw [ha, hqw, hpd, hpu, hsw, hb]

/-! ## The blocks tile the array -/

/-- An index of the array is in point `t`'s block iff each coordinate is in the block's range on its axis. -/
theorem mem_blk (t : Fin cfg0.N) (i : S4x4096x384.Idx) :
    i ∈ ((cfg0.win 6).blk t).view.set ↔ ∀ a : Fin 3, win0_6.index t a * S1x256x384.size a ≤ (i a).val
      ∧ (i a).val < win0_6.index t a * S1x256x384.size a + S1x256x384.size a := by
  show i ∈ ((View.whole main_v26).slice (win0_6.rect t)).set ↔ _
  rw [View.set_slice_whole, Rect.mem_set_unit]
  exact Iff.rfl

/-- Every entry `(n, l, o)` lies in the block of the grid point `(n, l / 256)`. -/
theorem cover (i : S4x4096x384.Idx) : ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 384 := (i 2).isLt
  obtain ⟨t, ht⟩ := idx_onto ⟨(i 0).val, h0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 384 ≤ (i 2).val ∧ (i 2).val < win0_6.index t (2 : Fin 3) * 384 + 384; omega

/-- THE ARRAY after the run is `Gk`. -/
theorem final (c : Dev nD) : (dats m 0 c).arrAt 6 cfg0.N = Gk m c :=
  (dats m 0 c).arrAt_eq_of_cover 6 (Gk m c) (fun t _ => flushed_eq m c t) cover

/-- The frame run re-posted: the result array at `Gk`, the arguments unchanged. -/
theorem run : θ_run defs (onTc (τ := τ) (main (F := Ideal))) ⟨m, fun _ => 0, ρ⟩ fun r => ∀ c : Dev nD,
      r.2.mem ((c : Thread nD τ).loc main_v26) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Blocks

end
-- ==== Proof.SpecLaws.lean ====
/-
  A feature row may be listed in another order and lengthened by zeros without changing the entry it gives.

  The entry `rowOut a qw pd pu sw b` depends on the row `a` through three things: its quantisation step (a
  maximum of absolute values), the sum of the codes against the weight codes, and the sums of the entries
  against the low-rank factor.  Let `e : κ → κ'` be injective and let a row `a'` over `κ'` carry `a` at the
  places `e k` and zeros at all other places.  Then

    * the maximum is unchanged, because `|0| = 0 ≤ |a k₀|` for any entry of the (non-empty) row `a`;
    * a zero entry has code zero: `0 / s = 0` for a step `s ≥ ε > 0`, zero rounds to zero, and `−8 ≤ 0 ≤ 7`;
    * `0 · y = 0` for every extended real `y` (the infinities included), so in both sums the terms at the
      places off the image of `e` vanish, and what is left is the sum over `κ`.

  That is the general law `rowOut_extend`.  The theorem `rowOut_ref` is the law at `e = refFeat`, the map
  `t·320 + c ↦ c·9 + t` from the tap-by-tap order of the 2880 features to their channel-by-channel order
  inside a row of 2944; what remains is the arithmetic `(c·9 + t) / 9 = c`, `(c·9 + t) % 9 = t` for `t < 9`.
-/
import proofs.«101718_j84739704750320_1_alg».proof.Proof.Spec

noncomputable section

namespace Cert.Spec

open Idealize.ShloMosaic Idealize.ShloMosaic.ValueIdx

/-! ## The literals

The quantiser's numeric literals are binary32 words.  Each is evaluated once, here; nothing below looks
inside a word again. -/

/-- The word `0x40E00000` is `(2²³ + 6291456) · 2^(129 − 127 − 23) = 7`. -/
theorem seven_eq : seven = ((7 : ℝ) : EReal) := by
  simp [seven, Ideal.ofBits, Ideal.ieee, -EReal.coe_mul]; norm_num

/-- The word `0xC1000000` is `−2²³ · 2^(130 − 127 − 23) = −8`. -/
theorem negEight_eq : negEight = ((-8 : ℝ) : EReal) := by
  simp [negEight, Ideal.ofBits, Ideal.ieee, -EReal.coe_mul]; norm_num

/-- The word `0x322BCC77` is `(2²³ + 2870391) · 2^(100 − 127 − 23) = 11258999 · 2⁻⁵⁰`. -/
theorem eps_eq : eps = ((11258999 * (2 : ℝ) ^ (-50 : ℤ) : ℝ) : EReal) := by
  simp [eps, Ideal.ofBits, Ideal.ieee, -EReal.coe_mul]

/-- `−8 ≤ 0`. -/
theorem negEight_le_zero : negEight ≤ 0 := by
  rw [negEight_eq, ← EReal.coe_zero, EReal.coe_le_coe_iff]; norm_num

/-- `0 ≤ 7`. -/
theorem zero_le_seven : 0 ≤ seven := by
  rw [seven_eq, ← EReal.coe_zero, EReal.coe_le_coe_iff]; norm_num

/-- The floor `ε` of a step is positive. -/
theorem eps_pos : 0 < eps := by
  rw [eps_eq, ← EReal.coe_zero, EReal.coe_lt_coe_iff]; positivity

/-! ## The largest absolute value of a row

`rowMax a` is a fold of `max` from `−∞`; all that is used of it is its universal property: it is the least
bound of `−∞` and the entries' absolute values. -/

section Row

variable {κ κ' ρ : Type} [Fintype κ] [Fintype κ'] [Fintype ρ]

/-- `0 ≤ |y|` for every extended real `y`, the infinities included: one of `y`, `−y` is not negative. -/
theorem zero_le_entryAbs (y : EReal) : 0 ≤ max y (-y) := by
  rcases le_total 0 y with h | h
  · exact le_max_of_le_left h
  · exact le_max_of_le_right (EReal.neg_nonneg.2 h)

/-- `|0| = 0`. -/
theorem entryAbs_zero : max (0 : EReal) (-0) = 0 := by
  rw [neg_zero, max_self]

/-- Every entry's absolute value is at most the row's maximum. -/
theorem abs_le_rowMax (a : κ → EReal) (k : κ) : max (a k) (-(a k)) ≤ rowMax a :=
  (Finset.le_fold_max _).2 (Or.inr ⟨k, Finset.mem_univ k, le_rfl⟩)

/-- The fold's start, `−∞`, is at most the row's maximum. -/
theorem negInf_le_rowMax (a : κ → EReal) : negInf ≤ rowMax a :=
  (Finset.le_fold_max _).2 (Or.inl le_rfl)

/-- A bound of `−∞` and of every entry's absolute value bounds the row's maximum. -/
theorem rowMax_le {a : κ → EReal} {c : EReal} (h0 : negInf ≤ c) (h : ∀ k, max (a k) (-(a k)) ≤ c) :
    rowMax a ≤ c :=
  (Finset.fold_max_le _).2 ⟨h0, fun k _ => h k⟩

/-- LENGTHENING BY ZEROS KEEPS THE MAXIMUM.  If the row `a'` carries the entries of the non-empty row `a` at
    the places `e k` and zeros everywhere else, both rows have the same largest absolute value: each entry
    of `a` is an entry of `a'`, and a zero entry of `a'` has `|0| = 0 ≤ |a k₀| ≤ rowMax a`. -/
theorem rowMax_extend [Nonempty κ] (e : κ → κ') {a : κ → EReal} {a' : κ' → EReal}
    (ha : ∀ k, a' (e k) = a k) (h0 : ∀ j, (∀ k, e k ≠ j) → a' j = 0) : rowMax a' = rowMax a := by
  apply le_antisymm
  · refine rowMax_le (negInf_le_rowMax a) fun j => ?_
    by_cases hj : ∃ k, e k = j
    · obtain ⟨k, rfl⟩ := hj
      rw [ha k]
      exact abs_le_rowMax a k
    · rw [h0 j (fun k hk => hj ⟨k, hk⟩), entryAbs_zero]
      obtain ⟨k₀⟩ := ‹Nonempty κ›
      exact (zero_le_entryAbs (a k₀)).trans (abs_le_rowMax a k₀)
  · refine rowMax_le (negInf_le_rowMax a') fun k => ?_
    rw [← ha k]
    exact abs_le_rowMax a' (e k)

/-- Hence both rows have the same quantisation step. -/
theorem step_extend [Nonempty κ] (e : κ → κ') {a : κ → EReal} {a' : κ' → EReal}
    (ha : ∀ k, a' (e k) = a k) (h0 : ∀ j, (∀ k, e k ≠ j) → a' j = 0) : step a' = step a := by
  unfold step
  rw [rowMax_extend e ha h0]

/-- A step is positive: it is at least `ε`. -/
theorem step_pos (a : κ → EReal) : 0 < step a :=
  lt_of_lt_of_le eps_pos (le_max_right _ _)

/-! ## The code of zero -/

/-- `0 / s = 0 · s⁻¹ = 0` when `s ≠ 0` (also for `s = ±∞`, whose inverse is `0`). -/
theorem div_zero_left {s : EReal} (hs : s ≠ 0) : Ideal.div 0 s = 0 := by
  unfold Ideal.div
  rw [if_neg hs, zero_mul]

/-- Zero rounds to zero: `⌊0⌋ = 0` and the fractional part `0 − 0` is below one half. -/
theorem roundHalfEven_zero : Ideal.roundHalfEven 0 = 0 := by
  unfold Ideal.roundHalfEven
  simp

/-- The same on the extended reals. -/
theorem liftRound_zero : Ideal.liftRound Ideal.roundHalfEven 0 = 0 := by
  rw [← EReal.coe_zero, Ideal.liftRound_coe, roundHalfEven_zero]
  simp

/-- THE CODE OF ZERO IS ZERO at every non-zero step: `0 / s = 0` rounds to `0`, and `−8 ≤ 0 ≤ 7` so
    clipping keeps it. -/
theorem quant_zero {s : EReal} (hs : s ≠ 0) : quant s 0 = 0 := by
  unfold quant
  rw [div_zero_left hs, liftRound_zero, max_eq_right negEight_le_zero, min_eq_right zero_le_seven]

/-! ## Sums over a lengthened row -/

/-- A sum over `κ'` whose terms vanish off the image of an injective `e : κ → κ'` is the sum over `κ` of
    the terms at `e k`. -/
theorem sum_extend (e : κ → κ') (he : Function.Injective e) {f : κ → EReal} {g : κ' → EReal}
    (hfg : ∀ k, g (e k) = f k) (h0 : ∀ j, (∀ k, e k ≠ j) → g j = 0) : ∑ j, g j = ∑ k, f k := by
  symm
  refine Finset.sum_of_injOn e (fun k _ k' _ h => he h) (fun k _ => Finset.mem_coe.2 (Finset.mem_univ _))
    (fun j _ hj => h0 j fun k hk => hj ⟨k, Finset.mem_coe.2 (Finset.mem_univ k), hk⟩) (fun k _ => (hfg k).symm)

/-- THE GENERAL LAW.  Let `e : κ → κ'` be injective and `κ` non-empty, and let the row `a'` over `κ'` carry
    the row `a` at the places `e k` and zeros elsewhere; let the weight codes and the low-rank factor over
    `κ'` restrict along `e` to those over `κ`.  Then both rows give the same entry: the step is the same,
    a zero entry has code zero, and `0 · y = 0` for every extended real `y`, so the extra terms of both
    sums vanish. -/
theorem rowOut_extend [Nonempty κ] (e : κ → κ') (he : Function.Injective e)
    {a qw : κ → EReal} {a' qw' : κ' → EReal} {pd : κ → ρ → EReal} {pd' : κ' → ρ → EReal}
    (pu : ρ → EReal) (sw b : EReal)
    (ha : ∀ k, a' (e k) = a k) (h0 : ∀ j, (∀ k, e k ≠ j) → a' j = 0)
    (hq : ∀ k, qw' (e k) = qw k) (hp : ∀ k r, pd' (e k) r = pd k r) :
    rowOut a' qw' pd' pu sw b = rowOut a qw pd pu sw b := by
  have hs : step a' = step a := step_extend e ha h0
  have hquant : ∑ j, quant (step a') (a' j) * qw' j = ∑ k, quant (step a) (a k) * qw k := by
    refine sum_extend e he (fun k => ?_) (fun j hj => ?_)
    · rw [hs, ha k, hq k]
    · rw [h0 j hj, quant_zero (step_pos a').ne', zero_mul]
  have hlow : ∀ r, ∑ j, a' j * pd' j r = ∑ k, a k * pd k r := fun r => by
    refine sum_extend e he (fun k => ?_) (fun j hj => ?_)
    · rw [ha k, hp k r]
    · rw [h0 j hj, zero_mul]
  unfold rowOut
  rw [hquant, hs]
  simp only [hlow]

end Row

/-! ## The two orders of the 2880 features

Feature `k = t·320 + c` of the tap-by-tap row stands at place `refFeat k = c·9 + t` of the channel-by-channel
row.  Because `t < 9` and `c < 320`, the place determines `c = (c·9 + t) / 9` and `t = (c·9 + t) % 9`, so
`refFeat` is injective and reaches every place below `2880 = 320·9`. -/

/-- `(c·9 + t) / 9 = c`. -/
theorem refFeat_div (k : Fin 2880) : (refFeat k).val / 9 = (chan k).val := by
  have := k.isLt
  simp only [refFeat, chan]
  omega

/-- `(c·9 + t) % 9 = t`. -/
theorem refFeat_mod (k : Fin 2880) : (refFeat k).val % 9 = (tap k).val := by
  have := k.isLt
  simp only [refFeat, tap]
  omega

/-- `c·9 + t ≤ 319·9 + 8 < 2880`. -/
theorem refFeat_lt (k : Fin 2880) : (refFeat k).val < 2880 := by
  have := k.isLt
  simp only [refFeat]
  omega

/-- Different features stand at different places. -/
theorem refFeat_injective : Function.Injective refFeat := by
  intro k k' h
  have h1 := congrArg Fin.val h
  have := k.isLt
  have := k'.isLt
  simp only [refFeat] at h1
  exact Fin.ext (by omega)

/-- Every place below 2880 holds a feature: place `j = c·9 + t` holds feature `t·320 + c`. -/
theorem exists_refFeat_eq (j : Fin 2944) (hj : j.val < 2880) : ∃ k, refFeat k = j :=
  ⟨⟨(j.val % 9) * 320 + j.val / 9, by omega⟩, Fin.ext (by simp only [refFeat]; omega)⟩

/-- At a feature's place the channel-by-channel row holds that feature's entry of the tap-by-tap row. -/
theorem refRow_refFeat (x : (⟨4, ![4, 320, 64, 64]⟩ : Shape).Idx → EReal) (n : Fin 4) (l : Fin 4096)
    (k : Fin 2880) : refRow x n l (refFeat k) = patch x n l k := by
  unfold refRow patch
  rw [dif_pos (refFeat_lt k), refFeat_mod k]
  congr 1
  exact Fin.ext (refFeat_div k)

/-- At a place that holds no feature — the last 64 — the channel-by-channel row is zero. -/
theorem refRow_off (x : (⟨4, ![4, 320, 64, 64]⟩ : Shape).Idx → EReal) (n : Fin 4) (l : Fin 4096)
    (j : Fin 2944) (hj : ∀ k, refFeat k ≠ j) : refRow x n l j = 0 := by
  unfold refRow
  refine dif_neg fun h => ?_
  obtain ⟨k, hk⟩ := exists_refFeat_eq j h
  exact hj k hk

/-! ## The entry from the channel-by-channel row -/

/-- The channel-by-channel row of 2944 (2880 patch entries, then 64 zeros) against the weight codes, steps and
    low-rank factor read in their own order gives the entry `G` states tap by tap. -/
theorem rowOut_ref (x : (⟨4, ![4, 320, 64, 64]⟩ : Shape).Idx → EReal) (qw : (⟨2, ![384, 2944]⟩ : Shape).Idx → EReal)
    (sw : (⟨2, ![384, 1]⟩ : Shape).Idx → EReal) (pd : (⟨2, ![2944, 32]⟩ : Shape).Idx → EReal)
    (pu : (⟨2, ![32, 384]⟩ : Shape).Idx → EReal) (bias : (⟨1, ![384]⟩ : Shape).Idx → EReal)
    (n : Fin 4) (l : Fin 4096) (o : Fin 384) :
    rowOut (κ := Fin 2944) (ρ := Fin 32) (refRow x n l) (fun k => qw (ix2 o k)) (fun k r => pd (ix2 k r))
        (fun r => pu (ix2 r o)) (sw (ix2 o (0 : Fin 1))) (bias (ix1 o))
      = G x qw sw pd pu bias (ix3 n l o) := by
  -- `G` at `(n, l, o)` is the entry of the tap-by-tap row of 2880; apply the general law along `refFeat`
  -- (the weight codes and the low-rank factor of `G` are, by definition, those of the long row read at `refFeat k`).
  rw [G_apply]
  exact rowOut_extend refFeat refFeat_injective _ _ _ (refRow_refFeat x n l) (refRow_off x n l)
    (fun _ => rfl) (fun _ _ => rfl)

end Cert.Spec

end
-- ==== Proof.RefRow.lean ====
/-
  The reference program's result, read at one entry.

  The reference computes the 3×3 convolution as a matrix product over "im2col" rows.  For a token — an image `n`
  and an output pixel `l = h·64 + w` — it gathers a row of 2880 features, channel by channel: feature `c·9 + t`
  is channel `c` of the image, padded by one zero pixel on every side, at row `h + t / 3` and column `w + t % 3`
  (tap `t = 3·i + j` of the window).  It builds the row from nine shifted windows of the padded image, one per
  tap, stacked along a new axis of length nine next to the channel axis, flattened (channel, tap) ↦ `c·9 + t` and
  (row, column) ↦ `h·64 + w`, transposed so that the token comes first, and lengthened by 64 zero features
  to 2944.  This is `Spec.refRow`.

  From the row `a` it takes the largest absolute value, the step `s = max (max |a| / 7) ε`, the 4-bit codes
  `min 7 (max (−8) (round (a k / s)))`, multiplies the codes with the weight row's codes, rescales by both steps, and
  adds the low-rank branch `(a · pd) · pu` and the bias: `Spec.rowOut` of the row.

  The file follows that order: the padding value is zero; the padded image; the nine windows; their stack;
  the flattening; the row; its maximum, step and codes; the three sums; the entry.
-/
import proofs.«101718_j84739704750320_1_alg».proof.Proof.RefReadP
import proofs.«101718_j84739704750320_1_alg».proof.Proof.Spec
import Idealize.ShloMosaic.Lib.KernelVsHost
import Idealize.ShloMosaic.Lib.Pipeline.Value
import Idealize.ShloMosaic.Lib.ValueIdx
import Idealize.ShloMosaic.PureOps.Ideal.Laws
import Idealize.ShloMosaic.PureOps.Reduce

noncomputable section

namespace Cert.RefRow

open Cert.ReferenceIdeal Cert.ReferenceIdeal.Read Idealize.ShloMosaic Idealize.ShloMosaic.ValueIdx

/-- The image [4, 320, 64, 64] as an array of extended reals. -/
abbrev Img := (⟨S4x320x64x64, .f32⟩ : BufTy).Contents (Elt Ideal)

/-! ## The padding value

Both paddings fill with the integer constant `0` converted to a float: the real number zero. -/

/-- The integer `0`, read signed and converted exactly, is the extended real `0`. -/
theorem sitofp_zero : (FloatOps.sitofp (F := Ideal) .f32 (0#32 : BitVec 32)) = (0 : EReal) := by
  show ((((0#32 : BitVec 32).toInt : ℤ) : ℝ) : EReal) = 0
  have h : (0#32 : BitVec 32).toInt = 0 := by decide
  rw [h, Int.cast_zero, EReal.coe_zero]

/-- The fill value of the image's padding is zero. -/
theorem fill_image (i : S_.Idx) : val_main_call0_v0 (F := Ideal) i = (0 : EReal) := sitofp_zero

/-- The fill value of the row's lengthening is zero. -/
theorem fill_row (i : S_.Idx) : val_main_call1_v0 (F := Ideal) i = (0 : EReal) := sitofp_zero

/-! ## The padded image -/

/-- Two readings of the padded image at equal places are equal. -/
theorem padded_congr (x : Img) (n : Fin 4) (c : Fin 320) {y y' z z' : Nat} (hy : y = y') (hz : z = z') :
    Spec.padded x n c y z = Spec.padded x n c y' z' := by subst hy; subst hz; rfl

/-- The image padded by one pixel, at row `y` and column `z` of the 66 × 66 padded plane: the image's own entry
    `(y − 1, z − 1)` when both lie in `1 … 64`, and the fill value zero on the border. -/
theorem padded_image (x0 : Img) (n : Fin 4) (c : Fin 320) (y z : Fin 66) :
    val_main_v0 (F := Ideal) x0 (ix4 n c y z) = Spec.padded x0 n c y.val z.val := by
  unfold val_main_v0 Spec.padded
  by_cases h : 1 ≤ y.val ∧ y.val ≤ 64 ∧ 1 ≤ z.val ∧ z.val ≤ 64
  · -- inside: every coordinate is the low padding plus the operand's coordinate
    rw [dif_pos h]
    exact pad_apply_of_inside _ _ _ x0 _ _ _ (ix4 n c y z) (ix4 n c ⟨y.val - 1, by omega⟩ ⟨z.val - 1, by omega⟩)
      (fun a => match a with
        | ⟨0, _⟩ => by show n.val = 0 + n.val * (0 + 1); omega
        | ⟨1, _⟩ => by show c.val = 0 + c.val * (0 + 1); omega
        | ⟨2, _⟩ => by show y.val = 1 + (y.val - 1) * (0 + 1); omega
        | ⟨3, _⟩ => by show z.val = 1 + (z.val - 1) * (0 + 1); omega)
  · -- on the border: the row, or else the column, is outside the operand
    rw [dif_neg h]
    by_cases hy : 1 ≤ y.val ∧ y.val ≤ 64
    · refine (pad_apply_of_not_inside _ _ _ x0 _ _ _ (ix4 n c y z) ⟨3, by decide⟩ ?_).trans (fill_image _)
      show ¬(1 ≤ z.val ∧ (z.val - 1) % (0 + 1) = 0 ∧ (z.val - 1) / (0 + 1) < 64)
      omega
    · refine (pad_apply_of_not_inside _ _ _ x0 _ _ _ (ix4 n c y z) ⟨2, by decide⟩ ?_).trans (fill_image _)
      show ¬(1 ≤ y.val ∧ (y.val - 1) % (0 + 1) = 0 ∧ (y.val - 1) / (0 + 1) < 64)
      omega

/-- The same at any index of the padded array, by its four coordinates. -/
theorem padded_image_idx (x0 : Img) (j : S4x320x66x66.Idx) :
    val_main_v0 (F := Ideal) x0 j = Spec.padded x0 (j 0) (j 1) (j 2).val (j 3).val :=
  (congrArg (val_main_v0 (F := Ideal) x0) (eq_ix4 j)).trans (padded_image x0 (j 0) (j 1) (j 2) (j 3))

/-! ## The nine windows

Tap `t = 3·i + j` is the window of the padded image shifted down by `i` and right by `j`, with a unit axis
inserted after the channel axis.  At `(n, c, 0, h, w)` it reads the padded image at row `h + i`, column `w + j`.
Each proof reads the inserted axis away, then the window (a slice starting at `(i, j)`), then the padded image, and
writes the slice's places `i + h`, `j + w` as `h + t / 3`, `w + t % 3`. -/

section Windows
variable (x0 : Img) (n : Fin 4) (c : Fin 320) (h w : Fin 64)

-- taps 0, 1, 2: the top row of the 3 × 3 window
theorem window0 : val_main_v10 (F := Ideal) x0 (ix5 n c 0 h w) = Spec.padded x0 n c (h.val + 0 / 3) (w.val + 0 % 3) :=
  (val_main_v10_apply x0 _).trans <| (val_main_v1_apply x0 _).trans <| (padded_image_idx x0 _).trans <|
    padded_congr x0 n c rfl rfl
theorem window1 : val_main_v11 (F := Ideal) x0 (ix5 n c 0 h w) = Spec.padded x0 n c (h.val + 1 / 3) (w.val + 1 % 3) :=
  (val_main_v11_apply x0 _).trans <| (val_main_v2_apply x0 _).trans <| (padded_image_idx x0 _).trans <|
    padded_congr x0 n c rfl (Nat.add_comm 1 w.val)
theorem window2 : val_main_v12 (F := Ideal) x0 (ix5 n c 0 h w) = Spec.padded x0 n c (h.val + 2 / 3) (w.val + 2 % 3) :=
  (val_main_v12_apply x0 _).trans <| (val_main_v3_apply x0 _).trans <| (padded_image_idx x0 _).trans <|
    padded_congr x0 n c rfl (Nat.add_comm 2 w.val)
-- taps 3, 4, 5: the middle row
theorem window3 : val_main_v13 (F := Ideal) x0 (ix5 n c 0 h w) = Spec.padded x0 n c (h.val + 3 / 3) (w.val + 3 % 3) :=
  (val_main_v13_apply x0 _).trans <| (val_main_v4_apply x0 _).trans <| (padded_image_idx x0 _).trans <|
    padded_congr x0 n c (Nat.add_comm 1 h.val) rfl
theorem window4 : val_main_v14 (F := Ideal) x0 (ix5 n c 0 h w) = Spec.padded x0 n c (h.val + 4 / 3) (w.val + 4 % 3) :=
  (val_main_v14_apply x0 _).trans <| (val_main_v5_apply x0 _).trans <| (padded_image_idx x0 _).trans <|
    padded_congr x0 n c (Nat.add_comm 1 h.val) (Nat.add_comm 1 w.val)
theorem window5 : val_main_v15 (F := Ideal) x0 (ix5 n c 0 h w) = Spec.padded x0 n c (h.val + 5 / 3) (w.val + 5 % 3) :=
  (val_main_v15_apply x0 _).trans <| (val_main_v6_apply x0 _).trans <| (padded_image_idx x0 _).trans <|
    padded_congr x0 n c (Nat.add_comm 1 h.val) (Nat.add_comm 2 w.val)
-- taps 6, 7, 8: the bottom row
theorem window6 : val_main_v16 (F := Ideal) x0 (ix5 n c 0 h w) = Spec.padded x0 n c (h.val + 6 / 3) (w.val + 6 % 3) :=
  (val_main_v16_apply x0 _).trans <| (val_main_v7_apply x0 _).trans <| (padded_image_idx x0 _).trans <|
    padded_congr x0 n c (Nat.add_comm 2 h.val) rfl
theorem window7 : val_main_v17 (F := Ideal) x0 (ix5 n c 0 h w) = Spec.padded x0 n c (h.val + 7 / 3) (w.val + 7 % 3) :=
  (val_main_v17_apply x0 _).trans <| (val_main_v8_apply x0 _).trans <| (padded_image_idx x0 _).trans <|
    padded_congr x0 n c (Nat.add_comm 2 h.val) (Nat.add_comm 1 w.val)
theorem window8 : val_main_v18 (F := Ideal) x0 (ix5 n c 0 h w) = Spec.padded x0 n c (h.val + 8 / 3) (w.val + 8 % 3) :=
  (val_main_v18_apply x0 _).trans <| (val_main_v9_apply x0 _).trans <| (padded_image_idx x0 _).trans <|
    padded_congr x0 n c (Nat.add_comm 2 h.val) (Nat.add_comm 2 w.val)

end Windows

/-! ## The stack of the windows

The nine windows are joined along the unit axis.  Every piece has extent one there, so coordinate `t` of the joined
axis falls in piece `t`, at its only coordinate `0`; the other four coordinates pass through. -/

/-- Nine arrays of shape [4, 320, 1, 64, 64] joined along axis 2, read at `(n, c, t, h, w)`: piece `t` at
    `(n, c, 0, h, w)`.  The caller names the piece and checks that `t` pieces of extent one come before it. -/
theorem stack_apply (xs : List ((s : Shape) × (s.Idx → EReal)))
    (hc : Shape.Concatenates (xs.map (·.1)) S4x320x9x64x64 2) (n : Fin 4) (c : Fin 320) (t : Fin 9) (h w : Fin 64)
    (piece : S4x320x1x64x64.Idx → EReal) (hk : t.val < xs.length) (hxk : xs[t.val] = ⟨S4x320x1x64x64, piece⟩)
    (hpre : (((xs.take t.val).map (·.1)).map fun s =>
      if e : s.rank = S4x320x9x64x64.rank then s.size ((2 : Fin S4x320x9x64x64.rank).cast e.symm) else 0).sum = t.val) :
    concatenate S4x320x9x64x64 2 xs hc (ix5 n c t h w) = piece (ix5 n c 0 h w) :=
  concatenate_apply_piece 2 xs hc (ix5 n c t h w) t.val hk S4x320x1x64x64 piece hxk rfl t.val hpre (ix5 n c 0 h w)
    (fun b hb => match b, hb with
      | ⟨0, _⟩, _ => rfl
      | ⟨1, _⟩, _ => rfl
      | ⟨2, _⟩, hb => absurd rfl hb
      | ⟨3, _⟩, _ => rfl
      | ⟨4, _⟩, _ => rfl)
    (Nat.add_zero t.val)

/-- The stack at `(n, c, t, h, w)` is the padded image at row `h + t / 3`, column `w + t % 3`: tap `t` of the
    3 × 3 window whose top-left corner, in the padded image, is `(h, w)`. -/
theorem stack_window (x0 : Img) (n : Fin 4) (c : Fin 320) (t : Fin 9) (h w : Fin 64) :
    val_main_v19 (F := Ideal) x0 (ix5 n c t h w) = Spec.padded x0 n c (h.val + t.val / 3) (w.val + t.val % 3) := by
  unfold val_main_v19
  match t with
  | ⟨0, _⟩ => exact (stack_apply _ _ n c ⟨0, _⟩ h w _ (by show (0 : Nat) < 9; decide) rfl rfl).trans (window0 x0 n c h w)
  | ⟨1, _⟩ => exact (stack_apply _ _ n c ⟨1, _⟩ h w _ (by show (1 : Nat) < 9; decide) rfl rfl).trans (window1 x0 n c h w)
  | ⟨2, _⟩ => exact (stack_apply _ _ n c ⟨2, _⟩ h w _ (by show (2 : Nat) < 9; decide) rfl rfl).trans (window2 x0 n c h w)
  | ⟨3, _⟩ => exact (stack_apply _ _ n c ⟨3, _⟩ h w _ (by show (3 : Nat) < 9; decide) rfl rfl).trans (window3 x0 n c h w)
  | ⟨4, _⟩ => exact (stack_apply _ _ n c ⟨4, _⟩ h w _ (by show (4 : Nat) < 9; decide) rfl rfl).trans (window4 x0 n c h w)
  | ⟨5, _⟩ => exact (stack_apply _ _ n c ⟨5, _⟩ h w _ (by show (5 : Nat) < 9; decide) rfl rfl).trans (window5 x0 n c h w)
  | ⟨6, _⟩ => exact (stack_apply _ _ n c ⟨6, _⟩ h w _ (by show (6 : Nat) < 9; decide) rfl rfl).trans (window6 x0 n c h w)
  | ⟨7, _⟩ => exact (stack_apply _ _ n c ⟨7, _⟩ h w _ (by show (7 : Nat) < 9; decide) rfl rfl).trans (window7 x0 n c h w)
  | ⟨8, _⟩ => exact (stack_apply _ _ n c ⟨8, _⟩ h w _ (by show (8 : Nat) < 9; decide) rfl rfl).trans (window8 x0 n c h w)

/-! ## The flattening

The stack [4, 320, 9, 64, 64] is read as [4, 2880, 4096] in row-major order: feature `k` is channel `k / 9` at tap
`k % 9`, pixel `l` is row `l / 64`, column `l % 64`. -/

/-- The place in the stack of entry `(n, k, l)` of the flattened array. -/
theorem flatten_idx (n : Fin 4) (k : Fin 2880) (l : Fin 4096) :
    idx_main_v20 (ix3 n k l)
      = ix5 n ⟨k.val / 9, by have := k.isLt; omega⟩ ⟨k.val % 9, Nat.mod_lt _ (by decide)⟩
          ⟨l.val / 64, by have := l.isLt; omega⟩ ⟨l.val % 64, Nat.mod_lt _ (by decide)⟩ := by
  have hn := n.isLt; have hk := k.isLt; have hl := l.isLt
  funext a
  apply Fin.ext
  match a with
  | ⟨0, _⟩ => show ((n.val * 2880 + k.val) * 4096 + l.val) / 11796480 = n.val; omega
  | ⟨1, _⟩ => show ((n.val * 2880 + k.val) * 4096 + l.val) / 36864 % 320 = k.val / 9; omega
  | ⟨2, _⟩ => show ((n.val * 2880 + k.val) * 4096 + l.val) / 4096 % 9 = k.val % 9; omega
  | ⟨3, _⟩ => show ((n.val * 2880 + k.val) * 4096 + l.val) / 64 % 64 = l.val / 64; omega
  | ⟨4, _⟩ => show ((n.val * 2880 + k.val) * 4096 + l.val) % 64 = l.val % 64; omega

/-! ## The row of a token -/

/-- Feature `k < 2880` of token `(n, l)`, after the transposition that puts the token first: channel `k / 9` of
    the padded image at row `l / 64 + (k % 9) / 3`, column `l % 64 + (k % 9) % 3`. -/
theorem feature_apply (x0 : Img) (n : Fin 4) (l : Fin 4096) (k : Fin 2880) :
    val_main_v21 (F := Ideal) x0 (ix3 n l k)
      = Spec.padded x0 n ⟨k.val / 9, by have := k.isLt; omega⟩ (l.val / 64 + k.val % 9 / 3) (l.val % 64 + k.val % 9 % 3) := by
  refine (val_main_v21_apply x0 _).trans ?_
  refine (val_main_v20_apply x0 _).trans ?_
  refine (congrArg (val_main_v19 (F := Ideal) x0) (flatten_idx n k l)).trans ?_
  exact stack_window x0 n _ _ _ _

/-- THE ROW: entry `k` of the row of token `(n, l)`, lengthened to 2944 — the feature for `k < 2880`, the fill
    value zero for the 64 entries after. -/
theorem row_apply (x0 : Img) (n : Fin 4) (l : Fin 4096) (k : Fin 2944) :
    val_main_v22 (F := Ideal) x0 (ix3 n l k) = Spec.refRow x0 n l k := by
  unfold val_main_v22 Spec.refRow
  by_cases h : k.val < 2880
  · rw [dif_pos h]
    refine (pad_apply_of_inside _ _ _ (val_main_v21 (F := Ideal) x0) _ _ _ (ix3 n l k) (ix3 n l ⟨k.val, h⟩)
      (fun a => match a with
        | ⟨0, _⟩ => by show n.val = 0 + n.val * (0 + 1); omega
        | ⟨1, _⟩ => by show l.val = 0 + l.val * (0 + 1); omega
        | ⟨2, _⟩ => by show k.val = 0 + k.val * (0 + 1); omega)).trans ?_
    exact feature_apply x0 n l ⟨k.val, h⟩
  · rw [dif_neg h]
    refine (pad_apply_of_not_inside _ _ _ (val_main_v21 (F := Ideal) x0) _ _ _ (ix3 n l k) ⟨2, by decide⟩ ?_).trans
      (fill_row _)
    show ¬(0 ≤ k.val ∧ (k.val - 0) % (0 + 1) = 0 ∧ (k.val - 0) / (0 + 1) < 2880)
    omega

/-! ## Index maps at explicit coordinates

Where an operation reads its operand, for a result index given by its coordinates: a broadcast drops or repeats a
coordinate, a product's operands take the contracted coordinate `k` (or `r`) in place of the free one. -/

section Indices
variable (n : Fin 4) (l : Fin 4096) (o : Fin 384)

theorem idx27 : idx_main_v27 (ix3 n l (0 : Fin 1)) = ix2 n l :=
  funext fun a => match a with | ⟨0, _⟩ => rfl | ⟨1, _⟩ => rfl
theorem idx32 (k : Fin 2944) : idx_main_v32 (ix3 n l k) = ix3 n l (0 : Fin 1) :=
  funext fun a => match a with | ⟨0, _⟩ => rfl | ⟨1, _⟩ => rfl | ⟨2, _⟩ => rfl
theorem idx48 : idx_main_v48 (ix3 n l o) = ix3 n l (0 : Fin 1) :=
  funext fun a => match a with | ⟨0, _⟩ => rfl | ⟨1, _⟩ => rfl | ⟨2, _⟩ => rfl
theorem lidx47 (k : Fin 2944) : lidx_main_v47 (ix3 n l o) k = ix3 n l k :=
  funext fun a => match a with | ⟨0, _⟩ => rfl | ⟨1, _⟩ => rfl | ⟨2, _⟩ => rfl
theorem ridx47 (k : Fin 2944) : ridx_main_v47 (ix3 n l o) k = ix2 o k :=
  funext fun a => match a with | ⟨0, _⟩ => rfl | ⟨1, _⟩ => rfl
theorem lidx23 (r : Fin 32) (k : Fin 2944) : lidx_main_v23 (ix3 n l r) k = ix3 n l k :=
  funext fun a => match a with | ⟨0, _⟩ => rfl | ⟨1, _⟩ => rfl | ⟨2, _⟩ => rfl
theorem ridx23 (r : Fin 32) (k : Fin 2944) : ridx_main_v23 (ix3 n l r) k = ix2 k r :=
  funext fun a => match a with | ⟨0, _⟩ => rfl | ⟨1, _⟩ => rfl
theorem lidx24 (r : Fin 32) : lidx_main_v24 (ix3 n l o) r = ix3 n l r :=
  funext fun a => match a with | ⟨0, _⟩ => rfl | ⟨1, _⟩ => rfl | ⟨2, _⟩ => rfl
theorem ridx24 (r : Fin 32) : ridx_main_v24 (ix3 n l o) r = ix2 r o :=
  funext fun a => match a with | ⟨0, _⟩ => rfl | ⟨1, _⟩ => rfl
/-- The weight step's three layout operations (a broadcast over the tokens, a broadcast to [1, 1, 384], a
    flattening of [384, 1]) read channel `o` of the step's column. -/
theorem idx50 : idx_main_v50 (idx_main_v51 (idx_main_v52 (ix3 n l o))) = ix2 o (0 : Fin 1) :=
  funext fun a => match a with | ⟨0, _⟩ => Fin.ext (Nat.div_one o.val) | ⟨1, _⟩ => rfl
/-- The bias's two broadcasts read channel `o`. -/
theorem idx55 : idx_main_v55 (idx_main_v56 (ix3 n l o)) = ix1 o :=
  funext fun a => match a with | ⟨0, _⟩ => rfl

end Indices

/-! ## The largest absolute value, the step and the codes of a row -/

/-- Inserting coordinate `k` on the reduced (last) axis over the token `(n, l)` gives `(n, l, k)`. -/
theorem lift_idx (hR : S4x4096x2944.Reduces [2] S4x4096) (n : Fin 4) (l : Fin 4096) (k : Fin 2944) :
    hR.lift (ix2 n l) k = ix3 n l k :=
  funext fun a => match a with
    | ⟨0, _⟩ => Fin.ext rfl
    | ⟨1, _⟩ => Fin.ext rfl
    | ⟨2, _⟩ => Fin.ext rfl

/-- The maximum over the features of the absolute values `max (a k) (−a k)`, started at `−∞`, is the row's
    largest absolute value.  The reduction is a fold of the commutative, associative `max`, so it may be read over
    the feature index alone. -/
theorem rowMax_apply (x0 : Img) (n : Fin 4) (l : Fin 4096) :
    val_main_v26 (F := Ideal) x0 (ix2 n l) = Spec.rowMax (Spec.refRow x0 n l) := by
  have hR : S4x4096x2944.Reduces [2] S4x4096 := by decide
  unfold val_main_v26 Spec.rowMax
  refine (Host.reduce_eq_fold_single (FloatOps.maximumf (F := Ideal) (φ := .f32)) (val_main_v25 (F := Ideal) x0)
    (val_main_cst (F := Ideal)) _ hR _ (ix2 n l)).trans ?_
  show (Finset.univ : Finset (Fin 2944)).fold max Spec.negInf
      (fun k => max (val_main_v22 (F := Ideal) x0 (hR.lift (ix2 n l) k)) (-(val_main_v22 (F := Ideal) x0 (hR.lift (ix2 n l) k))))
    = _
  refine Finset.fold_congr fun k _ => ?_
  -- feature `k` of the reduced array is entry `(n, l, k)` of the row
  have e : val_main_v22 (F := Ideal) x0 (hR.lift (ix2 n l) k) = Spec.refRow x0 n l k :=
    (congrArg (val_main_v22 (F := Ideal) x0) (lift_idx hR n l k)).trans (row_apply x0 n l k)
  exact congrArg (fun y : EReal => max y (-y)) e

/-- The row's step: a seventh of its largest absolute value, but at least `ε`. -/
theorem step_apply (x0 : Img) (n : Fin 4) (l : Fin 4096) :
    val_main_v31 (F := Ideal) x0 (ix3 n l (0 : Fin 1)) = Spec.step (Spec.refRow x0 n l) := by
  rw [val_main_v31_apply, val_main_v29_apply, val_main_v27_apply, idx27, val_main_v28_apply, val_main_cst_1_apply,
    val_main_v30_apply, val_main_cst_2_apply, rowMax_apply]
  -- at the ideal values the program's maximum is `max`, its quotient `Ideal.div`, its constants the literals' values
  rfl

/-- The code of entry `k`: the entry over the step, rounded to nearest (ties to even), clipped to `[−8, 7]`. -/
theorem code_apply (x0 : Img) (n : Fin 4) (l : Fin 4096) (k : Fin 2944) :
    val_main_v35 (F := Ideal) x0 (ix3 n l k)
      = Spec.quant (Spec.step (Spec.refRow x0 n l)) (Spec.refRow x0 n l k) := by
  rw [val_main_v35_apply, val_main_call3_v4_apply, val_main_call3_v3_apply, val_main_cst_4_apply,
    val_main_call3_v2_apply, val_main_call3_v1_apply, val_main_call3_v0_apply, val_main_cst_3_apply,
    val_main_v34_apply, val_main_v33_apply, val_main_v32_apply, idx32, row_apply, step_apply]
  -- minimum (7, maximum (−8, round (entry / step))) is `Spec.quant`, operation by operation
  rfl

/-! ## The three sums -/

section Sums
variable (x0 : Img) (x1 : (⟨S384x2944, .f32⟩ : BufTy).Contents (Elt Ideal))
  (x2 : (⟨S2944x32, .f32⟩ : BufTy).Contents (Elt Ideal)) (x3 : (⟨S32x384, .f32⟩ : BufTy).Contents (Elt Ideal))
  (x4 : (⟨S384, .f32⟩ : BufTy).Contents (Elt Ideal)) (n : Fin 4) (l : Fin 4096) (o : Fin 384)

/-- The product of codes: the row's codes against the codes of the weight row of channel `o`. -/
theorem codes_dot_apply :
    val_main_v47 (F := Ideal) x0 x1 (ix3 n l o)
      = ∑ k : Fin 2944, Spec.quant (Spec.step (Spec.refRow x0 n l)) (Spec.refRow x0 n l k)
          * val_main_v46 (F := Ideal) x1 (ix2 o k) := by
  rw [val_main_v47_apply]
  refine Finset.sum_congr rfl fun k _ => ?_
  rw [lidx47, ridx47, code_apply]

/-- The first low-rank product: the row against column `r` of the down factor. -/
theorem down_apply (r : Fin 32) :
    val_main_v23 (F := Ideal) x0 x2 (ix3 n l r) = ∑ k : Fin 2944, Spec.refRow x0 n l k * x2 (ix2 k r) := by
  rw [val_main_v23_apply]
  refine Finset.sum_congr rfl fun k _ => ?_
  rw [lidx23, ridx23, row_apply]

/-- The low-rank branch: that product against column `o` of the up factor. -/
theorem lowrank_apply :
    val_main_v24 (F := Ideal) x0 x2 x3 (ix3 n l o)
      = ∑ r : Fin 32, (∑ k : Fin 2944, Spec.refRow x0 n l k * x2 (ix2 k r)) * x3 (ix2 r o) := by
  rw [val_main_v24_apply]
  refine Finset.sum_congr rfl fun r _ => ?_
  rw [lidx24, ridx24, down_apply]

/-! ## The two broadcasts along the tokens -/

/-- The weight row's step, broadcast over the tokens, is the step of channel `o`. -/
theorem weight_step_apply :
    val_main_v52 (F := Ideal) x1 (ix3 n l o) = val_main_v42 (F := Ideal) x1 (ix2 o (0 : Fin 1)) := by
  rw [val_main_v52_apply, val_main_v51_apply, val_main_v50_apply, idx50]

/-- The bias, broadcast over the tokens, is the bias of channel `o`. -/
theorem bias_apply : val_main_v56 (F := Ideal) x4 (ix3 n l o) = x4 (ix1 o) := by
  rw [val_main_v56_apply, val_main_v55_apply, idx55]

end Sums

/-! ## The entry -/

/-- THE REFERENCE AT ONE ENTRY: `((codes · weight codes) · step · weight step + low-rank branch) + bias` of the
    row of token `(n, l)` — `Spec.rowOut` of `Spec.refRow`. -/
theorem ref_apply (x0 : (⟨S4x320x64x64, .f32⟩ : BufTy).Contents (Elt Ideal)) (x1 : (⟨S384x2944, .f32⟩ : BufTy).Contents (Elt Ideal))
    (x2 : (⟨S2944x32, .f32⟩ : BufTy).Contents (Elt Ideal)) (x3 : (⟨S32x384, .f32⟩ : BufTy).Contents (Elt Ideal))
    (x4 : (⟨S384, .f32⟩ : BufTy).Contents (Elt Ideal)) (n : Fin 4) (l : Fin 4096) (o : Fin 384) :
    Cert.ReferenceIdeal.Read.val_main_v57 (F := Ideal) x0 x1 x2 x3 x4 (ix3 n l o)
      = Cert.Spec.rowOut (κ := Fin 2944) (ρ := Fin 32) (Cert.Spec.refRow x0 n l)
          (fun k => Cert.ReferenceIdeal.Read.val_main_v46 (F := Ideal) x1 (ix2 o k))
          (fun k r => x2 (ix2 k r)) (fun r => x3 (ix2 r o))
          (Cert.ReferenceIdeal.Read.val_main_v42 (F := Ideal) x1 (ix2 o (0 : Fin 1))) (x4 (ix1 o)) := by
  rw [val_main_v57_apply, val_main_v54_apply, val_main_v53_apply, val_main_v49_apply, val_main_v48_apply, idx48,
    codes_dot_apply, step_apply, weight_step_apply, lowrank_apply, bias_apply]
  -- the program's products and sums are those of the extended reals, in `Spec.rowOut`'s own nesting
  rfl

end Cert.RefRow

end
-- ==== Proof.Meet.lean ====
/-
  Where the two programs meet.

  Both programs quantise the weights `w` by the same host operations — the step of a row is
  `max (max_k |w k| / 7) ε`, the codes are `min 7 (max (−8) (round (w / step)))` —, so the kernel program's and
  the reference's arrays of weight steps and codes are one function of `w`, operation for operation
  (`sw_same`, `qw_same`: nothing is computed, the two texts are the same composite).  The reference's result
  read at an entry is `rowOut` of its channel-major row of 2944 (RefRow.lean), which is the entry `Spec.G` states
  over the tap-major row of 2880 (SpecLaws.lean): `ref_eq`.
-/
import proofs.«101718_j84739704750320_1_alg».proof.Proof.RefReadP
import proofs.«101718_j84739704750320_1_alg».proof.Proof.Spec
import proofs.«101718_j84739704750320_1_alg».proof.Proof.SpecLaws
import proofs.«101718_j84739704750320_1_alg».proof.Proof.RefRow
import proofs.«101718_j84739704750320_1_alg».proof.Proof.HostSide
import Idealize.ShloMosaic.Lib.ValueIdx

noncomputable section

namespace Cert.Meet

open Idealize.ShloMosaic Idealize.ShloMosaic.ValueIdx
open Cert.ReferenceIdeal.Read

/-- The weight steps: the kernel program's host prelude and the reference apply the same six operations to `w`. -/
theorem sw_same (w : FVec Ideal ⟨2, ![384, 2944]⟩ .f32) :
    Cert.HostSide.swOf w = val_main_v42 (F := Ideal) w := by
  unfold Cert.HostSide.swOf val_main_v42 val_main_v41 val_main_cst_7 val_main_v40 val_main_v39 val_main_cst_6 val_main_v38
    val_main_v37 val_main_cst_5 val_main_v36
  rfl

/-- The weight codes: likewise, over the same steps. -/
theorem qw_same (w : FVec Ideal ⟨2, ![384, 2944]⟩ .f32) :
    Cert.HostSide.qwOf w = val_main_v46 (F := Ideal) w := by
  unfold Cert.HostSide.qwOf val_main_v46 val_main_call5_v4 val_main_call5_v3 val_main_cst_9 val_main_call5_v2
    val_main_call5_v1 val_main_call5_v0 val_main_cst_8 val_main_v45 val_main_v44 val_main_v43
  rw [← sw_same w]

/-- THE REFERENCE'S RESULT is `Spec.G` of its arguments, the weights through the reference's own codes and steps. -/
theorem ref_eq (x0 : FVec Ideal ⟨4, ![4, 320, 64, 64]⟩ .f32) (x1 : FVec Ideal ⟨2, ![384, 2944]⟩ .f32)
    (x2 : FVec Ideal ⟨2, ![2944, 32]⟩ .f32) (x3 : FVec Ideal ⟨2, ![32, 384]⟩ .f32) (x4 : FVec Ideal ⟨1, ![384]⟩ .f32) :
    val_main_v57 (F := Ideal) x0 x1 x2 x3 x4
      = Cert.Spec.G x0 (val_main_v46 (F := Ideal) x1) (val_main_v42 (F := Ideal) x1) x2 x3 x4 := by
  funext i
  obtain ⟨n, l, o, rfl⟩ : ∃ (n : Fin 4) (l : Fin 4096) (o : Fin 384), i = ix3 n l o :=
    ⟨i 0, i 1, i 2, eq_ix3 (n0 := 4) (n1 := 4096) (n2 := 384) i⟩
  rw [Cert.RefRow.ref_apply, Cert.Spec.rowOut_ref]

end Cert.Meet

end
-- ==== Proof.lean ====
/-
  The certificate: a 3×3 convolution computed as a 4-bit quantised matrix product plus a low-rank branch, as a
  tiled kernel and as plain array code, give the same result on the extended reals.

  For a token (an image n and an output pixel l) let `a` be its row of 2880 features — the 320 channels at the nine
  taps of the 3×3 window around the pixel in the image padded by one zero pixel — and `s = max (max_κ |a κ| / 7) ε`
  its quantisation step.  Entry (n, l, o) of the result is

      ((∑ κ, q (a κ) · qw o κ) · s · sw o  +  ∑ r, (∑ κ, a κ · pd κ r) · pu r o)  +  bias o,

  with `q y = min 7 (max (−8) (round (y / s)))`, and `qw`, `sw` the codes and steps of the weight rows, computed by
  both programs with the same operations (Proof/Spec.lean: `rowOut`, `G`).

  The kernel works on tiles of 256 pixels: it copies the nine taps of a tile side by side into a scratch block
  (Proof/KernelBody.lean: the block is one function of the loaded window), quantises its rows and multiplies
  (Proof/BodyEntry.lean: the stored block at an entry is `rowOut` of the scratch row), from arrays the host
  prelude re-laid tap by tap (Proof/HostSide.lean); the 64 tiles' blocks tile the result (Proof/Blocks.lean).
  The reference builds every token's row channel by channel, lengthens it by 64 zeros to 2944 and contracts
  against the unpermuted weights (Proof/RefRow.lean).  The two rows differ by a re-ordering and by zeros, which
  change neither the largest absolute value, nor any sum of products, nor the codes (Proof/SpecLaws.lean):
  no finiteness of the inputs is needed, since 0 · y = 0 for every extended real y.  Proof/Meet.lean joins the two.
  The ideal pass rewrote nothing, so `preserves` is trivial; the kernel's two frames are the generated frame
  certificates, the reference's frame is its run (Proof/RefRun.lean: the line of 82 host operations read back stretch by stretch, over the
  generated stages of Proof/RefReadP.lean) with the result dropped.
-/
import proofs.«101718_j84739704750320_1_alg».proof.Defs
import proofs.«101718_j84739704750320_1_alg».proof.Proof.Gen.Kernel
import proofs.«101718_j84739704750320_1_alg».proof.Proof.Gen.Kernel.Skeleton
import proofs.«101718_j84739704750320_1_alg».proof.Proof.Gen.Kernel.Launch
import proofs.«101718_j84739704750320_1_alg».proof.Proof.Gen.Kernel.Points
import proofs.«101718_j84739704750320_1_alg».proof.Proof.Gen.Kernel.Frame
import proofs.«101718_j84739704750320_1_alg».proof.Proof.Gen.KernelIdeal
import proofs.«101718_j84739704750320_1_alg».proof.Proof.Gen.KernelIdeal.Skeleton
import proofs.«101718_j84739704750320_1_alg».proof.Proof.Gen.KernelIdeal.Launch
import proofs.«101718_j84739704750320_1_alg».proof.Proof.Gen.KernelIdeal.Points
import proofs.«101718_j84739704750320_1_alg».proof.Proof.Gen.KernelIdeal.Frame
import proofs.«101718_j84739704750320_1_alg».proof.Proof.Gen.ReferenceIdeal
import proofs.«101718_j84739704750320_1_alg».proof.Proof.Gen.Pre_finite_inputs
import proofs.«101718_j84739704750320_1_alg».proof.Proof.Gen.KernelIdeal.Value
import proofs.«101718_j84739704750320_1_alg».proof.Proof.RefRun
import proofs.«101718_j84739704750320_1_alg».proof.Proof.Blocks
import proofs.«101718_j84739704750320_1_alg».proof.Proof.Meet
import Idealize.ShloMosaic.Adequacy
import Idealize.ShloMosaic.Init

noncomputable section

namespace Cert.Proof

open Idealize.ShloMosaic Idealize.ShloMosaic.TcCoe Idealize.SL.Sem

/-- The kernel as printed, and its idealization: the generated frame certificates. -/
theorem frame_k : Cert.frame_Kernel := fun m ρ _ => Cert.Kernel.Gen.frame m ρ
theorem frame_ki : Cert.frame_KernelIdeal := fun m ρ _ => Cert.KernelIdeal.Gen.frame m ρ

/-- The reference: its run, the result dropped. -/
theorem frame_ri : Cert.frame_ReferenceIdeal := fun m ρ _ =>
  (θ_run Cert.ReferenceIdeal.defs _ _).mono (fun _ h c => (h c).2) (Cert.RefRun.run (F := Ideal) m ρ)

/-- The ideal pass rewrote no operation. -/
theorem preserves : Cert.preserves_Kernel_KernelIdeal := trivial

/-- On the extended reals the kernel's result array ends at `Spec.G` of its arguments (Proof/Blocks.lean) and the
    reference's at `Spec.G` of arguments that agree (Proof/Meet.lean), the weights entering both through the same
    codes and steps. -/
theorem algebraic : Cert.algebraic_KernelIdeal_ReferenceIdeal := by
  intro m ρ m' ρ' _ hagree
  refine ⟨fun c => Cert.Blocks.Gk m c, Cert.Blocks.run m ρ, ?_⟩
  refine (θ_run Cert.ReferenceIdeal.defs _ _).mono (fun _ h c => ⟨(h c).1.trans ?_, (h c).2⟩)
    (Cert.RefRun.run (F := Ideal) m' ρ')
  rw [Cert.Meet.ref_eq, (hagree c).1, (hagree c).2.1, (hagree c).2.2.1,
    (hagree c).2.2.2.1, (hagree c).2.2.2.2]
  show Cert.Spec.G _ _ _ _ _ _ = Cert.Spec.G _ _ _ _ _ _
  rw [Cert.Meet.qw_same, Cert.Meet.sw_same]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
